-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x6 : Shape := ⟨2, ![100000, 6]⟩
abbrev S500000x42 : Shape := ⟨2, ![500000, 42]⟩
abbrev S500000x294 : Shape := ⟨2, ![500000, 294]⟩
abbrev S500000 : Shape := ⟨1, ![500000]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S294x8 : Shape := ⟨2, ![294, 8]⟩
abbrev S6x128 : Shape := ⟨2, ![6, 128]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128x128 : Shape := ⟨3, ![1, 128, 128]⟩
abbrev S1x128 : Shape := ⟨2, ![1, 128]⟩
abbrev S2x128x128 : Shape := ⟨3, ![2, 128, 128]⟩
abbrev S2x128 : Shape := ⟨2, ![2, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x6 : S_.BroadcastsInDim S100000x6 (![] : Fin 0 → Fin S100000x6.rank)
  reducesTo_S100000x6_S_d0_1 : S100000x6.ReducesTo [0, 1] S_
  bcast_S_S500000x42 : S_.BroadcastsInDim S500000x42 (![] : Fin 0 → Fin S500000x42.rank)
  reducesTo_S500000x42_S_d0_1 : S500000x42.ReducesTo [0, 1] S_
  bcast_S_S500000x294 : S_.BroadcastsInDim S500000x294 (![] : Fin 0 → Fin S500000x294.rank)
  reducesTo_S500000x294_S_d0_1 : S500000x294.ReducesTo [0, 1] S_
  bcast_S_S6x8 : S_.BroadcastsInDim S6x8 (![] : Fin 0 → Fin S6x8.rank)
  reducesTo_S6x8_S_d0_1 : S6x8.ReducesTo [0, 1] S_
  bcast_S_S8x128 : S_.BroadcastsInDim S8x128 (![] : Fin 0 → Fin S8x128.rank)
  reducesTo_S8x128_S_d0_1 : S8x128.ReducesTo [0, 1] S_
  bcast_S_S42x8 : S_.BroadcastsInDim S42x8 (![] : Fin 0 → Fin S42x8.rank)
  reducesTo_S42x8_S_d0_1 : S42x8.ReducesTo [0, 1] S_
  bcast_S_S8x64 : S_.BroadcastsInDim S8x64 (![] : Fin 0 → Fin S8x64.rank)
  reducesTo_S8x64_S_d0_1 : S8x64.ReducesTo [0, 1] S_
  bcast_S_S294x8 : S_.BroadcastsInDim S294x8 (![] : Fin 0 → Fin S294x8.rank)
  reducesTo_S294x8_S_d0_1 : S294x8.ReducesTo [0, 1] S_
  bcast_S_S6x128 : S_.BroadcastsInDim S6x128 (![] : Fin 0 → Fin S6x128.rank)
  reducesTo_S6x128_S_d0_1 : S6x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_
  bcast_S_S1x128x128 : S_.BroadcastsInDim S1x128x128 (![] : Fin 0 → Fin S1x128x128.rank)
  reducesTo_S1x128x128_S_d0_1_2 : S1x128x128.ReducesTo [0, 1, 2] S_
  bcast_S_S1x128 : S_.BroadcastsInDim S1x128 (![] : Fin 0 → Fin S1x128.rank)
  reducesTo_S1x128_S_d0_1 : S1x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part7 {F : FTy → Type} [FloatOps F] (main_arg27 : FVec F S2x128x128 .f32) (main_arg28 : FVec F S2x128 .f32) (main_v118 : IVec S_ 1) (main_v119 : FVec F S2x128 .f32) : IVec S_ 1 :=
  let main_cst_46 : FVec F S_ .f32 := constant S_ .f32 0x7F800000#32
  let main_v120 : FVec F S2x128 .f32 := broadcastInDim S2x128 ![] bcast_S_S2x128 main_cst_46
  let main_v121 : IVec S2x128 1 := cmpf .olt main_v119 main_v120
  let main_c_47 : IVec S_ 1 := constantI S_ 1 1#1
  let main_v122 : IVec S_ 1 := (fun x v => Host.reduce IntOp.andi x v reducesTo_S2x128_S_d0_1 h_S_) main_v121 main_c_47
  let main_v123 : IVec S_ 1 := andi main_v118 main_v122
  let main_v124 : FVec F S2x128x128 .f32 := Host.absf main_arg27
  let main_cst_48 : FVec F S_ .f32 := constant S_ .f32 0x7F800000#32
  let main_v125 : FVec F S2x128x128 .f32 := broadcastInDim S2x128x128 ![] bcast_S_S2x128x128 main_cst_48
  let main_v126 : IVec S2x128x128 1 := cmpf .olt main_v124 main_v125
  let main_c_49 : IVec S_ 1 := constantI S_ 1 1#1
  let main_v127 : IVec S_ 1 := (fun x v => Host.reduce IntOp.andi x v reducesTo_S2x128x128_S_d0_1_2 h_S_) main_v126 main_c_49
  let main_v128 : IVec S_ 1 := andi main_v123 main_v127
  let main_v129 : FVec F S2x128 .f32 := Host.absf main_arg28
  let main_cst_50 : FVec F S_ .f32 := constant S_ .f32 0x7F800000#32
  let main_v130 : FVec F S2x128 .f32 := broadcastInDim S2x128 ![] bcast_S_S2x128 main_cst_50
  let main_v131 : IVec S2x128 1 := cmpf .olt main_v129 main_v130
  let main_c_51 : IVec S_ 1 := constantI S_ 1 1#1
  let main_v132 : IVec S_ 1 := (fun x v => Host.reduce IntOp.andi x v reducesTo_S2x128_S_d0_1 h_S_) main_v131 main_c_51
  let main_v133 : IVec S_ 1 := andi main_v128 main_v132
  main_v133

def fn_part6 {F : FTy → Type} [FloatOps F] (main_arg23 : FVec F S128x128 .f32) (main_arg24 : FVec F S128 .f32) (main_arg25 : FVec F S2x128x128 .f32) (main_arg26 : FVec F S2x128 .f32) (main_arg27 : FVec F S2x128x128 .f32) (main_arg28 : FVec F S2x128 .f32) (main_v98 : IVec S_ 1) (main_v101 : IVec S1x128 1) (main_c_39 : IVec S_ 1) : IVec S_ 1 :=
  let main_v102 : IVec S_ 1 := (fun x v => Host.reduce IntOp.andi x v reducesTo_S1x128_S_d0_1 h_S_) main_v101 main_c_39
  let main_v103 : IVec S_ 1 := andi main_v98 main_v102
  let main_v104 : FVec F S128x128 .f32 := Host.absf main_arg23
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S2x128x128 .f32 := Host.absf main_arg25
  let main_cst_44 : FVec F S_ .f32 := constant S_ .f32 0x7F800000#32
  let main_v115 : FVec F S2x128x128 .f32 := broadcastInDim S2x128x128 ![] bcast_S_S2x128x128 main_cst_44
  let main_v116 : IVec S2x128x128 1 := cmpf .olt main_v114 main_v115
  let main_c_45 : IVec S_ 1 := constantI S_ 1 1#1
  let main_v117 : IVec S_ 1 := (fun x v => Host.reduce IntOp.andi x v reducesTo_S2x128x128_S_d0_1_2 h_S_) main_v116 main_c_45
  let main_v118 : IVec S_ 1 := andi main_v113 main_v117
  let main_v119 : FVec F S2x128 .f32 := Host.absf main_arg26
  fn_part7 (F := F) main_arg27 main_arg28 main_v118 main_v119

def fn_part5 {F : FTy → Type} [FloatOps F] (main_arg20 : FVec F S1x128 .f32) (main_arg21 : FVec F S1x128x128 .f32) (main_arg22 : FVec F S1x128 .f32) (main_arg23 : FVec F S128x128 .f32) (main_arg24 : FVec F S128 .f32) (main_arg25 : FVec F S2x128x128 .f32) (main_arg26 : FVec F S2x128 .f32) (main_arg27 : FVec F S2x128x128 .f32) (main_arg28 : FVec F S2x128 .f32) (main_v83 : IVec S_ 1) (main_v84 : FVec F S1x128x128 .f32) (main_cst_32 : FVec F S_ .f32) : IVec S_ 1 :=
  let main_v85 : FVec F S1x128x128 .f32 := broadcastInDim S1x128x128 ![] bcast_S_S1x128x128 main_cst_32
  let main_v86 : IVec S1x128x128 1 := cmpf .olt main_v84 main_v85
  let main_c_33 : IVec S_ 1 := constantI S_ 1 1#1
  let main_v87 : IVec S_ 1 := (fun x v => Host.reduce IntOp.andi x v reducesTo_S1x128x128_S_d0_1_2 h_S_) main_v86 main_c_33
  let main_v88 : IVec S_ 1 := andi main_v83 main_v87
  let main_v89 : FVec F S1x128 .f32 := Host.absf main_arg20
  let main_cst_34 : FVec F S_ .f32 := constant S_ .f32 0x7F800000#32
  let main_v90 : FVec F S1x128 .f32 := broadcastInDim S1x128 ![] bcast_S_S1x128 main_cst_34
  let main_v91 : IVec S1x128 1 := cmpf .olt main_v89 main_v90
  let main_c_35 : IVec S_ 1 := constantI S_ 1 1#1
  let main_v92 : IVec S_ 1 := (fun x v => Host.reduce IntOp.andi x v reducesTo_S1x128_S_d0_1 h_S_) main_v91 main_c_35
  let main_v93 : IVec S_ 1 := andi main_v88 main_v92
  let main_v94 : FVec F S1x128x128 .f32 := Host.absf main_arg21
  let main_cst_36 : FVec F S_ .f32 := constant S_ .f32 0x7F800000#32
  let main_v95 : FVec F S1x128x128 .f32 := broadcastInDim S1x128x128 ![] bcast_S_S1x128x128 main_cst_36
  let main_v96 : IVec S1x128x128 1 := cmpf .olt main_v94 main_v95
  let main_c_37 : IVec S_ 1 := constantI S_ 1 1#1
  let main_v97 : IVec S_ 1 := (fun x v => Host.reduce IntOp.andi x v reducesTo_S1x128x128_S_d0_1_2 h_S_) main_v96 main_c_37
  let main_v98 : IVec S_ 1 := andi main_v93 main_v97
  let main_v99 : FVec F S1x128 .f32 := Host.absf main_arg22
  let main_cst_38 : FVec F S_ .f32 := constant S_ .f32 0x7F800000#32
  let main_v100 : FVec F S1x128 .f32 := broadcastInDim S1x128 ![] bcast_S_S1x128 main_cst_38
  let main_v101 : IVec S1x128 1 := cmpf .olt main_v99 main_v100
  let main_c_39 : IVec S_ 1 := constantI S_ 1 1#1
  fn_part6 (F := F) main_arg23 main_arg24 main_arg25 main_arg26 main_arg27 main_arg28 main_v98 main_v101 main_c_39

def fn_part4 {F : FTy → Type} [FloatOps F] (main_arg16 : FVec F S128 .f32) (main_arg17 : FVec F S128x64 .f32) (main_arg18 : FVec F S64x128 .f32) (main_arg19 : FVec F S1x128x128 .f32) (main_arg20 : FVec F S1x128 .f32) (main_arg21 : FVec F S1x128x128 .f32) (main_arg22 : FVec F S1x128 .f32) (main_arg23 : FVec F S128x128 .f32) (main_arg24 : FVec F S128 .f32) (main_arg25 : FVec F S2x128x128 .f32) (main_arg26 : FVec F S2x128 .f32) (main_arg27 : FVec F S2x128x128 .f32) (main_arg28 : FVec F S2x128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg17
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64x128 .f32 := Host.absf main_arg18
  let main_cst_30 : FVec F S_ .f32 := constant S_ .f32 0x7F800000#32
  let main_v80 : FVec F S64x128 .f32 := broadcastInDim S64x128 ![] bcast_S_S64x128 main_cst_30
  let main_v81 : IVec S64x128 1 := cmpf .olt main_v79 main_v80
  let main_c_31 : IVec S_ 1 := constantI S_ 1 1#1
  let main_v82 : IVec S_ 1 := (fun x v => Host.reduce IntOp.andi x v reducesTo_S64x128_S_d0_1 h_S_) main_v81 main_c_31
  let main_v83 : IVec S_ 1 := andi main_v78 main_v82
  let main_v84 : FVec F S1x128x128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_v83 main_v84 main_cst_32

def fn_part3 {F : FTy → Type} [FloatOps F] (main_arg13 : FVec F S128x128 .f32) (main_arg14 : FVec F S128 .f32) (main_arg15 : FVec F S128x128 .f32) (main_arg16 : FVec F S128 .f32) (main_arg17 : FVec F S128x64 .f32) (main_arg18 : FVec F S64x128 .f32) (main_arg19 : FVec F S1x128x128 .f32) (main_arg20 : FVec F S1x128 .f32) (main_arg21 : FVec F S1x128x128 .f32) (main_arg22 : FVec F S1x128 .f32) (main_arg23 : FVec F S128x128 .f32) (main_arg24 : FVec F S128 .f32) (main_arg25 : FVec F S2x128x128 .f32) (main_arg26 : FVec F S2x128 .f32) (main_arg27 : FVec F S2x128x128 .f32) (main_arg28 : FVec F S2x128 .f32) (main_v48 : IVec S_ 1) (main_v49 : FVec F S6x128 .f32) (main_v50 : FVec F S6x128 .f32) : IVec S_ 1 :=
  let main_v51 : IVec S6x128 1 := cmpf .olt main_v49 main_v50
  let main_c_19 : IVec S_ 1 := constantI S_ 1 1#1
  let main_v52 : IVec S_ 1 := (fun x v => Host.reduce IntOp.andi x v reducesTo_S6x128_S_d0_1 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_arg23 main_arg24 main_arg25 main_arg26 main_arg27 main_arg28 main_v63 main_v67

def fn_part2 {F : FTy → Type} [FloatOps F] (main_arg9 : FVec F S8x64 .f32) (main_arg10 : FVec F S294x8 .f32) (main_arg11 : FVec F S8x64 .f32) (main_arg12 : FVec F S6x128 .f32) (main_arg13 : FVec F S128x128 .f32) (main_arg14 : FVec F S128 .f32) (main_arg15 : FVec F S128x128 .f32) (main_arg16 : FVec F S128 .f32) (main_arg17 : FVec F S128x64 .f32) (main_arg18 : FVec F S64x128 .f32) (main_arg19 : FVec F S1x128x128 .f32) (main_arg20 : FVec F S1x128 .f32) (main_arg21 : FVec F S1x128x128 .f32) (main_arg22 : FVec F S1x128 .f32) (main_arg23 : FVec F S128x128 .f32) (main_arg24 : FVec F S128 .f32) (main_arg25 : FVec F S2x128x128 .f32) (main_arg26 : FVec F S2x128 .f32) (main_arg27 : FVec F S2x128x128 .f32) (main_arg28 : FVec F S2x128 .f32) (main_v33 : IVec S_ 1) : IVec S_ 1 :=
  let main_v34 : FVec F S8x64 .f32 := Host.absf main_arg9
  let main_cst_12 : FVec F S_ .f32 := constant S_ .f32 0x7F800000#32
  let main_v35 : FVec F S8x64 .f32 := broadcastInDim S8x64 ![] bcast_S_S8x64 main_cst_12
  let main_v36 : IVec S8x64 1 := cmpf .olt main_v34 main_v35
  let main_c_13 : IVec S_ 1 := constantI S_ 1 1#1
  let main_v37 : IVec S_ 1 := (fun x v => Host.reduce IntOp.andi x v reducesTo_S8x64_S_d0_1 h_S_) main_v36 main_c_13
  let main_v38 : IVec S_ 1 := andi main_v33 main_v37
  let main_v39 : FVec F S294x8 .f32 := Host.absf main_arg10
  let main_cst_14 : FVec F S_ .f32 := constant S_ .f32 0x7F800000#32
  let main_v40 : FVec F S294x8 .f32 := broadcastInDim S294x8 ![] bcast_S_S294x8 main_cst_14
  let main_v41 : IVec S294x8 1 := cmpf .olt main_v39 main_v40
  let main_c_15 : IVec S_ 1 := constantI S_ 1 1#1
  let main_v42 : IVec S_ 1 := (fun x v => Host.reduce IntOp.andi x v reducesTo_S294x8_S_d0_1 h_S_) main_v41 main_c_15
  let main_v43 : IVec S_ 1 := andi main_v38 main_v42
  let main_v44 : FVec F S8x64 .f32 := Host.absf main_arg11
  let main_cst_16 : FVec F S_ .f32 := constant S_ .f32 0x7F800000#32
  let main_v45 : FVec F S8x64 .f32 := broadcastInDim S8x64 ![] bcast_S_S8x64 main_cst_16
  let main_v46 : IVec S8x64 1 := cmpf .olt main_v44 main_v45
  let main_c_17 : IVec S_ 1 := constantI S_ 1 1#1
  let main_v47 : IVec S_ 1 := (fun x v => Host.reduce IntOp.andi x v reducesTo_S8x64_S_d0_1 h_S_) main_v46 main_c_17
  let main_v48 : IVec S_ 1 := andi main_v43 main_v47
  let main_v49 : FVec F S6x128 .f32 := Host.absf main_arg12
  let main_cst_18 : FVec F S_ .f32 := constant S_ .f32 0x7F800000#32
  let main_v50 : FVec F S6x128 .f32 := broadcastInDim S6x128 ![] bcast_S_S6x128 main_cst_18
  fn_part3 (F := F) main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg6 : FVec F S6x8 .f32) (main_arg7 : FVec F S8x128 .f32) (main_arg8 : FVec F S42x8 .f32) (main_arg9 : FVec F S8x64 .f32) (main_arg10 : FVec F S294x8 .f32) (main_arg11 : FVec F S8x64 .f32) (main_arg12 : FVec F S6x128 .f32) (main_arg13 : FVec F S128x128 .f32) (main_arg14 : FVec F S128 .f32) (main_arg15 : FVec F S128x128 .f32) (main_arg16 : FVec F S128 .f32) (main_arg17 : FVec F S128x64 .f32) (main_arg18 : FVec F S64x128 .f32) (main_arg19 : FVec F S1x128x128 .f32) (main_arg20 : FVec F S1x128 .f32) (main_arg21 : FVec F S1x128x128 .f32) (main_arg22 : FVec F S1x128 .f32) (main_arg23 : FVec F S128x128 .f32) (main_arg24 : FVec F S128 .f32) (main_arg25 : FVec F S2x128x128 .f32) (main_arg26 : FVec F S2x128 .f32) (main_arg27 : FVec F S2x128x128 .f32) (main_arg28 : FVec F S2x128 .f32) (main_v13 : IVec S_ 1) (main_v16 : IVec S500000x294 1) : IVec S_ 1 :=
  let main_c_5 : IVec S_ 1 := constantI S_ 1 1#1
  let main_v17 : IVec S_ 1 := (fun x v => Host.reduce IntOp.andi x v reducesTo_S500000x294_S_d0_1 h_S_) main_v16 main_c_5
  let main_v18 : IVec S_ 1 := andi main_v13 main_v17
  let main_v19 : FVec F S6x8 .f32 := Host.absf main_arg6
  let main_cst_6 : FVec F S_ .f32 := constant S_ .f32 0x7F800000#32
  let main_v20 : FVec F S6x8 .f32 := broadcastInDim S6x8 ![] bcast_S_S6x8 main_cst_6
  let main_v21 : IVec S6x8 1 := cmpf .olt main_v19 main_v20
  let main_c_7 : IVec S_ 1 := constantI S_ 1 1#1
  let main_v22 : IVec S_ 1 := (fun x v => Host.reduce IntOp.andi x v reducesTo_S6x8_S_d0_1 h_S_) main_v21 main_c_7
  let main_v23 : IVec S_ 1 := andi main_v18 main_v22
  let main_v24 : FVec F S8x128 .f32 := Host.absf main_arg7
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  let main_v29 : FVec F S42x8 .f32 := Host.absf main_arg8
  let main_cst_10 : FVec F S_ .f32 := constant S_ .f32 0x7F800000#32
  let main_v30 : FVec F S42x8 .f32 := broadcastInDim S42x8 ![] bcast_S_S42x8 main_cst_10
  let main_v31 : IVec S42x8 1 := cmpf .olt main_v29 main_v30
  let main_c_11 : IVec S_ 1 := constantI S_ 1 1#1
  let main_v32 : IVec S_ 1 := (fun x v => Host.reduce IntOp.andi x v reducesTo_S42x8_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S100000x128 .f32) (main_arg1 : FVec F S100000x6 .f32) (main_arg2 : FVec F S500000x42 .f32) (main_arg3 : FVec F S500000x294 .f32) (main_arg4 : IVec S500000 32) (main_arg5 : IVec S500000 32) (main_arg6 : FVec F S6x8 .f32) (main_arg7 : FVec F S8x128 .f32) (main_arg8 : FVec F S42x8 .f32) (main_arg9 : FVec F S8x64 .f32) (main_arg10 : FVec F S294x8 .f32) (main_arg11 : FVec F S8x64 .f32) (main_arg12 : FVec F S6x128 .f32) (main_arg13 : FVec F S128x128 .f32) (main_arg14 : FVec F S128 .f32) (main_arg15 : FVec F S128x128 .f32) (main_arg16 : FVec F S128 .f32) (main_arg17 : FVec F S128x64 .f32) (main_arg18 : FVec F S64x128 .f32) (main_arg19 : FVec F S1x128x128 .f32) (main_arg20 : FVec F S1x128 .f32) (main_arg21 : FVec F S1x128x128 .f32) (main_arg22 : FVec F S1x128 .f32) (main_arg23 : FVec F S128x128 .f32) (main_arg24 : FVec F S128 .f32) (main_arg25 : FVec F S2x128x128 .f32) (main_arg26 : FVec F S2x128 .f32) (main_arg27 : FVec F S2x128x128 .f32) (main_arg28 : FVec F S2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x6 .f32 := Host.absf main_arg1
  let main_cst_0 : FVec F S_ .f32 := constant S_ .f32 0x7F800000#32
  let main_v5 : FVec F S100000x6 .f32 := broadcastInDim S100000x6 ![] bcast_S_S100000x6 main_cst_0
  let main_v6 : IVec S100000x6 1 := cmpf .olt main_v4 main_v5
  let main_c_1 : IVec S_ 1 := constantI S_ 1 1#1
  let main_v7 : IVec S_ 1 := (fun x v => Host.reduce IntOp.andi x v reducesTo_S100000x6_S_d0_1 h_S_) main_v6 main_c_1
  let main_v8 : IVec S_ 1 := andi main_v3 main_v7
  let main_v9 : FVec F S500000x42 .f32 := Host.absf main_arg2
  let main_cst_2 : FVec F S_ .f32 := constant S_ .f32 0x7F800000#32
  let main_v10 : FVec F S500000x42 .f32 := broadcastInDim S500000x42 ![] bcast_S_S500000x42 main_cst_2
  let main_v11 : IVec S500000x42 1 := cmpf .olt main_v9 main_v10
  let main_c_3 : IVec S_ 1 := constantI S_ 1 1#1
  let main_v12 : IVec S_ 1 := (fun x v => Host.reduce IntOp.andi x v reducesTo_S500000x42_S_d0_1 h_S_) main_v11 main_c_3
  let main_v13 : IVec S_ 1 := andi main_v8 main_v12
  let main_v14 : FVec F S500000x294 .f32 := Host.absf main_arg3
  let main_cst_4 : FVec F S_ .f32 := constant S_ .f32 0x7F800000#32
  let main_v15 : FVec F S500000x294 .f32 := broadcastInDim S500000x294 ![] bcast_S_S500000x294 main_cst_4
  let main_v16 : IVec S500000x294 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S100000x128 : Shape := ⟨2, ![100000, 128]⟩
abbrev S100000x6 : Shape := ⟨2, ![100000, 6]⟩
abbrev S500000x42 : Shape := ⟨2, ![500000, 42]⟩
abbrev S500000x294 : Shape := ⟨2, ![500000, 294]⟩
abbrev S500000 : Shape := ⟨1, ![500000]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S294x8 : Shape := ⟨2, ![294, 8]⟩
abbrev S6x128 : Shape := ⟨2, ![6, 128]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128x128 : Shape := ⟨3, ![1, 128, 128]⟩
abbrev S1x128 : Shape := ⟨2, ![1, 128]⟩
abbrev S2x128x128 : Shape := ⟨3, ![2, 128, 128]⟩
abbrev S2x128 : Shape := ⟨2, ![2, 128]⟩
abbrev S100000x64 : Shape := ⟨2, ![100000, 64]⟩
abbrev S500000x64 : Shape := ⟨2, ![500000, 64]⟩
abbrev S_ : Shape := ⟨0, ![]⟩
abbrev S500000x1 : Shape := ⟨2, ![500000, 1]⟩
abbrev S4000x128 : Shape := ⟨2, ![4000, 128]⟩
abbrev S4000x6 : Shape := ⟨2, ![4000, 6]⟩
abbrev S4000x64 : Shape := ⟨2, ![4000, 64]⟩
abbrev S4000x8 : Shape := ⟨2, ![4000, 8]⟩
abbrev S5000x42 : Shape := ⟨2, ![5000, 42]⟩
abbrev S5000x294 : Shape := ⟨2, ![5000, 294]⟩
abbrev S5000x64 : Shape := ⟨2, ![5000, 64]⟩
abbrev S5000x8 : Shape := ⟨2, ![5000, 8]⟩

abbrev nBuf : Space → Nat
  | .hbm => 48
  | .vmem => 45
  | .smem => 0
  | _ => 0

abbrev bufTy : (tb : Table) → Fin (tcTables nBuf tb) → BufTy
  | .hbm, ⟨0, _⟩ => ⟨S100000x128, .f32⟩
  | .hbm, ⟨1, _⟩ => ⟨S100000x6, .f32⟩
  | .hbm, ⟨2, _⟩ => ⟨S500000x42, .f32⟩
  | .hbm, ⟨3, _⟩ => ⟨S500000x294, .f32⟩
  | .hbm, ⟨4, _⟩ => ⟨S500000, .i32⟩
  | .hbm, ⟨5, _⟩ => ⟨S500000, .i32⟩
  | .hbm, ⟨6, _⟩ => ⟨S6x8, .f32⟩
  | .hbm, ⟨7, _⟩ => ⟨S8x128, .f32⟩
  | .hbm, ⟨8, _⟩ => ⟨S42x8, .f32⟩
  | .hbm, ⟨9, _⟩ => ⟨S8x64, .f32⟩
  | .hbm, ⟨10, _⟩ => ⟨S294x8, .f32⟩
  | .hbm, ⟨11, _⟩ => ⟨S8x64, .f32⟩
  | .hbm, ⟨12, _⟩ => ⟨S6x128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x64, .f32⟩
  | .hbm, ⟨18, _⟩ => ⟨S64x128, .f32⟩
  | .hbm, ⟨19, _⟩ => ⟨S1x128x128, .f32⟩
  | .hbm, ⟨20, _⟩ => ⟨S1x128, .f32⟩
  | .hbm, ⟨21, _⟩ => ⟨S1x128x128, .f32⟩
  | .hbm, ⟨22, _⟩ => ⟨S1x128, .f32⟩
  | .hbm, ⟨23, _⟩ => ⟨S128x128, .f32⟩
  | .hbm, ⟨24, _⟩ => ⟨S128, .f32⟩
  | .hbm, ⟨25, _⟩ => ⟨S2x128x128, .f32⟩
  | .hbm, ⟨26, _⟩ => ⟨S2x128, .f32⟩
  | .hbm, ⟨27, _⟩ => ⟨S2x128x128, .f32⟩
  | .hbm, ⟨28, _⟩ => ⟨S2x128, .f32⟩
  | .hbm, ⟨29, _⟩ => ⟨S100000x64, .f32⟩
  | .hbm, ⟨30, _⟩ => ⟨S500000x64, .bf16⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S500000x64, .f32⟩
  | .hbm, ⟨40, _⟩ => ⟨S500000x64, .f32⟩
  | .hbm, ⟨41, _⟩ => ⟨S500000x64, .f32⟩
  | .hbm, ⟨42, _⟩ => ⟨S_, .f32⟩
  | .hbm, ⟨43, _⟩ => ⟨S100000x64, .f32⟩
  | .hbm, ⟨44, _⟩ => ⟨S500000x1, .i32⟩
  | .hbm, ⟨45, _⟩ => ⟨S100000x64, .f32⟩
  | .hbm, ⟨46, _⟩ => ⟨S100000x128, .f32⟩
  | .hbm, ⟨47, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x6, .f32⟩
  | .local _ .vmem, ⟨3, _⟩ => ⟨S4000x6, .f32⟩
  | .local _ .vmem, ⟨4, _⟩ => ⟨S128x128, .f32⟩
  | .local _ .vmem, ⟨5, _⟩ => ⟨S128, .f32⟩
  | .local _ .vmem, ⟨6, _⟩ => ⟨S6x8, .f32⟩
  | .local _ .vmem, ⟨7, _⟩ => ⟨S8x128, .f32⟩
  | .local _ .vmem, ⟨8, _⟩ => ⟨S128x64, .f32⟩
  | .local _ .vmem, ⟨9, _⟩ => ⟨S4000x64, .f32⟩
  | .local _ .vmem, ⟨10, _⟩ => ⟨S4000x64, .f32⟩
  | .local _ .vmem, ⟨11, _⟩ => ⟨S5000x42, .f32⟩
  | .local _ .vmem, ⟨12, _⟩ => ⟨S5000x42, .f32⟩
  | .local _ .vmem, ⟨13, _⟩ => ⟨S5000x294, .f32⟩
  | .local _ .vmem, ⟨14, _⟩ => ⟨S5000x294, .f32⟩
  | .local _ .vmem, ⟨15, _⟩ => ⟨S42x8, .f32⟩
  | .local _ .vmem, ⟨16, _⟩ => ⟨S8x64, .f32⟩
  | .local _ .vmem, ⟨17, _⟩ => ⟨S294x8, .f32⟩
  | .local _ .vmem, ⟨18, _⟩ => ⟨S8x64, .f32⟩
  | .local _ .vmem, ⟨19, _⟩ => ⟨S5000x64, .bf16⟩
  | .local _ .vmem, ⟨20, _⟩ => ⟨S5000x64, .bf16⟩
  | .local _ .vmem, ⟨21, _⟩ => ⟨S4000x64, .f32⟩
  | .local _ .vmem, ⟨22, _⟩ => ⟨S4000x64, .f32⟩
  | .local _ .vmem, ⟨23, _⟩ => ⟨S4000x128, .f32⟩
  | .local _ .vmem, ⟨24, _⟩ => ⟨S4000x128, .f32⟩
  | .local _ .vmem, ⟨25, _⟩ => ⟨S4000x6, .f32⟩
  | .local _ .vmem, ⟨26, _⟩ => ⟨S4000x6, .f32⟩
  | .local _ .vmem, ⟨27, _⟩ => ⟨S128x128, .f32⟩
  | .local _ .vmem, ⟨28, _⟩ => ⟨S128, .f32⟩
  | .local _ .vmem, ⟨29, _⟩ => ⟨S64x128, .f32⟩
  | .local _ .vmem, ⟨30, _⟩ => ⟨S1x128x128, .f32⟩
  | .local _ .vmem, ⟨31, _⟩ => ⟨S1x128, .f32⟩
  | .local _ .vmem, ⟨32, _⟩ => ⟨S1x128x128, .f32⟩
  | .local _ .vmem, ⟨33, _⟩ => ⟨S1x128, .f32⟩
  | .local _ .vmem, ⟨34, _⟩ => ⟨S128x128, .f32⟩
  | .local _ .vmem, ⟨35, _⟩ => ⟨S128, .f32⟩
  | .local _ .vmem, ⟨36, _⟩ => ⟨S2x128x128, .f32⟩
  | .local _ .vmem, ⟨37, _⟩ => ⟨S2x128, .f32⟩
  | .local _ .vmem, ⟨38, _⟩ => ⟨S2x128x128, .f32⟩
  | .local _ .vmem, ⟨39, _⟩ => ⟨S2x128, .f32⟩
  | .local _ .vmem, ⟨40, _⟩ => ⟨S6x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_call0_v0 : Ref sig .tc := ⟨.hbm, 29, rfl⟩
abbrev main_call0_v1 : Ref sig .tc := ⟨.hbm, 30, rfl⟩
abbrev main_call0_c : Ref sig .tc := ⟨.hbm, 31, rfl⟩
abbrev main_call0_v2 : Ref sig .tc := ⟨.hbm, 32, rfl⟩
abbrev main_call0_v3 : Ref sig .tc := ⟨.hbm, 33, rfl⟩
abbrev main_call0_c_0 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_cst : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_v0_0 : Ref sig .tc := ⟨.hbm, 46, rfl⟩
abbrev main_v0_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg11_0 : Ref sig .tc := ⟨.vmem, 35, rfl⟩
abbrev cc2_stg12_0 : Ref sig .tc := ⟨.vmem, 36, rfl⟩
abbrev cc2_stg13_0 : Ref sig .tc := ⟨.vmem, 37, rfl⟩
abbrev cc2_stg14_0 : Ref sig .tc := ⟨.vmem, 38, rfl⟩
abbrev cc2_stg15_0 : Ref sig .tc := ⟨.vmem, 39, rfl⟩
abbrev cc2_stg16_0 : Ref sig .tc := ⟨.vmem, 40, rfl⟩
abbrev cc2_stg17_0 : Ref sig .tc := ⟨.vmem, 41, rfl⟩
abbrev cc2_stg17_1 : Ref sig .tc := ⟨.vmem, 42, rfl⟩
abbrev cc2_stg18_0 : Ref sig .tc := ⟨.vmem, 43, rfl⟩
abbrev cc2_stg18_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem12_0 : DmaSem sig := 36
abbrev cc2_sem13_0 : DmaSem sig := 37
abbrev cc2_sem14_0 : DmaSem sig := 38
abbrev cc2_sem15_0 : DmaSem sig := 39
abbrev cc2_sem16_0 : DmaSem sig := 40
abbrev cc2_sem17_0 : DmaSem sig := 41
abbrev cc2_sem17_1 : DmaSem sig := 42
abbrev cc2_sem18_0 : DmaSem sig := 43
abbrev cc2_sem18_1 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x42 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x294 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S42x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S294x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x6 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S2x128x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S2x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S2x128x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S2x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S6x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 2 → Memref sig .tc .vmem S4000x128 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev stage2_18 : Fin 2 → Memref sig .tc .vmem S4000x128 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bitsLt_bf16_f32 : FTy.bits .bf16 < FTy.bits .f32
  bcast_S_S100000x64 : S_.BroadcastsInDim S100000x64 (![] : Fin 0 → Fin S100000x64.rank)
  inb_S4000x128_S4000x128_0_0 : ∀ a, (![0, 0] : Fin 2 → Nat) a + S4000x128.size a ≤ S4000x128.size a
  h_S4000x128 : 0 < S4000x128.numel
  inb_S4000x6_S4000x6_0_0 : ∀ a, (![0, 0] : Fin 2 → Nat) a + S4000x6.size a ≤ S4000x6.size a
  h_S4000x6 : 0 < S4000x6.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S6x8_S6x8_0_0 : ∀ a, (![0, 0] : Fin 2 → Nat) a + S6x8.size a ≤ S6x8.size a
  h_S6x8 : 0 < S6x8.numel
  inb_S8x128_S8x128_0_0 : ∀ a, (![0, 0] : Fin 2 → Nat) a + S8x128.size a ≤ S8x128.size a
  h_S8x128 : 0 < S8x128.numel
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  inb_S5000x42_S5000x42_0_0 : ∀ a, (![0, 0] : Fin 2 → Nat) a + S5000x42.size a ≤ S5000x42.size a
  h_S5000x42 : 0 < S5000x42.numel
  inb_S5000x294_S5000x294_0_0 : ∀ a, (![0, 0] : Fin 2 → Nat) a + S5000x294.size a ≤ S5000x294.size a
  h_S5000x294 : 0 < S5000x294.numel
  inb_S42x8_S42x8_0_0 : ∀ a, (![0, 0] : Fin 2 → Nat) a + S42x8.size a ≤ S42x8.size a
  h_S42x8 : 0 < S42x8.numel
  inb_S8x64_S8x64_0_0 : ∀ a, (![0, 0] : Fin 2 → Nat) a + S8x64.size a ≤ S8x64.size a
  h_S8x64 : 0 < S8x64.numel
  inb_S294x8_S294x8_0_0 : ∀ a, (![0, 0] : Fin 2 → Nat) a + S294x8.size a ≤ S294x8.size a
  h_S294x8 : 0 < S294x8.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  shapeCasts_S4000x64_S4000x64 : S4000x64.ShapeCasts S4000x64
  inb_S64x128_S64x128_0_0 : ∀ a, (![0, 0] : Fin 2 → Nat) a + S64x128.size a ≤ S64x128.size a
  h_S64x128 : 0 < S64x128.numel
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  shapeCasts_S1x128_S128 : S1x128.ShapeCasts S128
  inb_S2x128x128_S1x128x128_0_0_0 : ∀ a, (![0, 0, 0] : Fin 3 → Nat) a + S1x128x128.size a ≤ S2x128x128.size a
  inb_S2x128_S1x128_0_0 : ∀ a, (![0, 0] : Fin 2 → Nat) a + S1x128.size a ≤ S2x128.size a
  inb_S2x128x128_S1x128x128_1_0_0 : ∀ a, (![1, 0, 0] : Fin 3 → Nat) a + S1x128x128.size a ≤ S2x128x128.size a
  inb_S2x128_S1x128_1_0 : ∀ a, (![1, 0] : Fin 2 → Nat) a + S1x128.size a ≤ S2x128.size a
  inb_S6x128_S6x128_0_0 : ∀ a, (![0, 0] : Fin 2 → Nat) a + S6x128.size a ≤ S6x128.size a
  h_S6x128 : 0 < S6x128.numel
  gather_S100000x64_S500000x1_S500000x64_1_0_n_n_0_1_164_wf : GatherDims.WF S100000x64 S500000x1 S500000x64 [1] [0] [] [0] [] 1 ![1, 64]
  scatter_S100000x64_S500000x1_S500000x64_1_0_0_1_wf : ScatterDims.WF S100000x64 S500000x1 S500000x64 [1] [0] [0] 1
  dot_S4000x128_S128x128_S4000x128_1_0_0_1_n_n_wf : DotDims.WF S4000x128 S128x128 S4000x128 [1] [0] [0] [1] [] []
  dot_S4000x6_S6x8_S4000x8_1_0_0_1_n_n_wf : DotDims.WF S4000x6 S6x8 S4000x8 [1] [0] [0] [1] [] []
  dot_S4000x8_S8x128_S4000x128_1_0_0_1_n_n_wf : DotDims.WF S4000x8 S8x128 S4000x128 [1] [0] [0] [1] [] []
  dot_S4000x128_S128x64_S4000x64_1_0_0_1_n_n_wf : DotDims.WF S4000x128 S128x64 S4000x64 [1] [0] [0] [1] [] []
  dot_S5000x42_S42x8_S5000x8_1_0_0_1_n_n_wf : DotDims.WF S5000x42 S42x8 S5000x8 [1] [0] [0] [1] [] []
  dot_S5000x8_S8x64_S5000x64_1_0_0_1_n_n_wf : DotDims.WF S5000x8 S8x64 S5000x64 [1] [0] [0] [1] [] []
  dot_S5000x294_S294x8_S5000x8_1_0_0_1_n_n_wf : DotDims.WF S5000x294 S294x8 S5000x8 [1] [0] [0] [1] [] []
  dot_S4000x64_S64x128_S4000x128_1_0_0_1_n_n_wf : DotDims.WF S4000x64 S64x128 S4000x128 [1] [0] [0] [1] [] []
  dot_S4000x6_S6x128_S4000x128_1_0_0_1_n_n_wf : DotDims.WF S4000x6 S6x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x6.size a ≤ S100000x6.size a
  hwx0_1 : ∀ i : grid0.Coords, EltTy.bits .f32 = 32 ∨ (Rect.block (s := S100000x6) S4000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x8.size a ≤ S6x8.size a
  hwx0_4 : ∀ i : grid0.Coords, EltTy.bits .f32 = 32 ∨ (Rect.block (s := S6x8) S6x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S100000x64.size a
  hwx0_7 : ∀ i : grid0.Coords, EltTy.bits .f32 = 32 ∨ (Rect.block (s := S100000x64) S4000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x42.size a ≤ S500000x42.size a
  hwx1_0 : ∀ i : grid1.Coords, EltTy.bits .f32 = 32 ∨ (Rect.block (s := S500000x42) S5000x42.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x294.size a ≤ S500000x294.size a
  hwx1_1 : ∀ i : grid1.Coords, EltTy.bits .f32 = 32 ∨ (Rect.block (s := S500000x294) S5000x294.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S42x8.size a ≤ S42x8.size a
  hwx1_2 : ∀ i : grid1.Coords, EltTy.bits .f32 = 32 ∨ (Rect.block (s := S42x8) S42x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x64.size a ≤ S8x64.size a
  hwx1_3 : ∀ i : grid1.Coords, EltTy.bits .f32 = 32 ∨ (Rect.block (s := S8x64) S8x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S294x8.size a ≤ S294x8.size a
  hwx1_4 : ∀ i : grid1.Coords, EltTy.bits .f32 = 32 ∨ (Rect.block (s := S294x8) S294x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x64.size a ≤ S8x64.size a
  hwx1_5 : ∀ i : grid1.Coords, EltTy.bits .f32 = 32 ∨ (Rect.block (s := S8x64) S8x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S500000x64.size a
  hwx1_6 : ∀ i : grid1.Coords, EltTy.bits .bf16 = 32 ∨ (Rect.block (s := S500000x64) S5000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x6.size a ≤ S100000x6.size a
  hwx2_2 : ∀ i : grid2.Coords, EltTy.bits .f32 = 32 ∨ (Rect.block (s := S100000x6) S4000x6.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x128.size a ≤ S64x128.size a
  hwx2_5 : ∀ i : grid2.Coords, EltTy.bits .f32 = 32 ∨ (Rect.block (s := S64x128) S64x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128x128.size a ≤ S1x128x128.size a
  hwx2_6 : ∀ i : grid2.Coords, EltTy.bits .f32 = 32 ∨ (Rect.block (s := S1x128x128) S1x128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128x128.size a ≤ S1x128x128.size a
  hwx2_8 : ∀ i : grid2.Coords, EltTy.bits .f32 = 32 ∨ (Rect.block (s := S1x128x128) S1x128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128.size a ≤ S128.size a
  hwx2_11 : ∀ i : grid2.Coords, EltTy.bits .f32 = 32 ∨ (Rect.block (s := S128) S128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S2x128x128.size a ≤ S2x128x128.size a
  hwx2_12 : ∀ i : grid2.Coords, EltTy.bits .f32 = 32 ∨ (Rect.block (s := S2x128x128) S2x128x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S2x128.size a ≤ S2x128.size a
  hwx2_13 : ∀ i : grid2.Coords, EltTy.bits .f32 = 32 ∨ (Rect.block (s := S2x128) S2x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S2x128x128.size a ≤ S2x128x128.size a
  hwx2_14 : ∀ i : grid2.Coords, EltTy.bits .f32 = 32 ∨ (Rect.block (s := S2x128x128) S2x128x128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S2x128.size a ≤ S2x128.size a
  hwx2_15 : ∀ i : grid2.Coords, EltTy.bits .f32 = 32 ∨ (Rect.block (s := S2x128) S2x128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S6x128.size a ≤ S6x128.size a
  hwx2_16 : ∀ i : grid2.Coords, EltTy.bits .f32 = 32 ∨ (Rect.block (s := S6x128) S6x128.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S4000x128.size a ≤ S100000x128.size a
  hwx2_17 : ∀ i : grid2.Coords, EltTy.bits .f32 = 32 ∨ (Rect.block (s := S100000x128) S4000x128.size (cc2_transform_17 i) (hinb2_17 i)).WholeWords (EltTy.packing .f32)
  hstage2_18 : ∀ j, (stage2_18 j).IsWhole
  nbuf2_18 : grid2.bufCount reads2_18 false = 2
  hreads2_18 : ∀ i i' : grid2.Coords, (∀ a, reads2_18 a = true → i a = i' a) → cc2_transform_18 i = cc2_transform_18 i'
  hinb2_18 : ∀ (i : grid2.Coords) a, (cc2_transform_18 i a + 1) * S4000x128.size a ≤ S100000x128.size a
  hwx2_18 : ∀ i : grid2.Coords, EltTy.bits .f32 = 32 ∨ (Rect.block (s := S100000x128) S4000x128.size (cc2_transform_18 i) (hinb2_18 i)).WholeWords (EltTy.packing .f32)

variable [Facts₀]

def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x6_S6x8_S4000x8_1_0_0_1_n_n : DotDims S4000x6 S6x8 S4000x8 where
  lhsContracting := [1]
  rhsContracting := [0]
  lhsNonContracting := [0]
  rhsNonContracting := [1]
  lhsBatch := []
  rhsBatch := []
  wf := dot_S4000x6_S6x8_S4000x8_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S5000x42_S42x8_S5000x8_1_0_0_1_n_n : DotDims S5000x42 S42x8 S5000x8 where
  lhsContracting := [1]
  rhsContracting := [0]
  lhsNonContracting := [0]
  rhsNonContracting := [1]
  lhsBatch := []
  rhsBatch := []
  wf := dot_S5000x42_S42x8_S5000x8_1_0_0_1_n_n_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def dot_S5000x294_S294x8_S5000x8_1_0_0_1_n_n : DotDims S5000x294 S294x8 S5000x8 where
  lhsContracting := [1]
  rhsContracting := [0]
  lhsNonContracting := [0]
  rhsNonContracting := [1]
  lhsBatch := []
  rhsBatch := []
  wf := dot_S5000x294_S294x8_S5000x8_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x6_S6x128_S4000x128_1_0_0_1_n_n : DotDims S4000x6 S6x128 S4000x128 where
  lhsContracting := [1]
  rhsContracting := [0]
  lhsNonContracting := [0]
  rhsNonContracting := [1]
  lhsBatch := []
  rhsBatch := []
  wf := dot_S4000x6_S6x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg14) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S6x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg17) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v0) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg2) S5000x42.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S5000x294.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S42x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S8x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S294x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S8x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v1) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_call0_v13) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S4000x6.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg18) S64x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg19) S1x128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg20) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg21) S1x128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg22) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg23) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg24) S128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg25) S2x128x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg26) S2x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_arg27) S2x128x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_arg28) S2x128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_arg12) S6x128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v0_0) S4000x128.size cc2_transform_17 reads2_17 true false 2 stage2_17 sem2_17
    hrank2 hreads2_17 hinb2_17 nbuf2_17 (Memref.isWhole_whole _) hwx2_17 hstage2_17

abbrev win2_18 : Pipeline.Window sig grid2 :=
  Pipeline.Window.ofSpec (Memref.whole main_v0_1) S4000x128.size cc2_transform_18 reads2_18 true false 2 stage2_18 sem2_18
    hrank2 hreads2_18 hinb2_18 nbuf2_18 (Memref.isWhole_whole _) hwx2_18 hstage2_18

abbrev win2 : Fin 19 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | ⟨_ + 19, h⟩ => absurd h (Nat.not_lt.2 (Nat.le_add_left _ _))
abbrev spec2 : Fin 19 → Pipeline.WinSpec sig grid2.rank := fun w => (win2 w).toWinSpec

class Facts : Prop extends Facts₀ where

variable [Facts]
-- ==== ReferenceIdeal.lean ====
abbrev S100000x128 : Shape := ⟨2, ![100000, 128]⟩
abbrev S100000x6 : Shape := ⟨2, ![100000, 6]⟩
abbrev S500000x42 : Shape := ⟨2, ![500000, 42]⟩
abbrev S500000x294 : Shape := ⟨2, ![500000, 294]⟩
abbrev S500000 : Shape := ⟨1, ![500000]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S294x8 : Shape := ⟨2, ![294, 8]⟩
abbrev S6x128 : Shape := ⟨2, ![6, 128]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128x128 : Shape := ⟨3, ![1, 128, 128]⟩
abbrev S1x128 : Shape := ⟨2, ![1, 128]⟩
abbrev S2x128x128 : Shape := ⟨3, ![2, 128, 128]⟩
abbrev S2x128 : Shape := ⟨2, ![2, 128]⟩
abbrev S_ : Shape := ⟨0, ![]⟩
abbrev S100000x8 : Shape := ⟨2, ![100000, 8]⟩
abbrev S100000x64 : Shape := ⟨2, ![100000, 64]⟩
abbrev S500000x8 : Shape := ⟨2, ![500000, 8]⟩
abbrev S500000x64 : Shape := ⟨2, ![500000, 64]⟩
abbrev S500000x1 : Shape := ⟨2, ![500000, 1]⟩

abbrev nBuf : Space → Nat
  | .hbm => 215
  | .vmem => 0
  | .smem => 0
  | _ => 0

abbrev hbmTy0_0 (i : Nat) : BufTy := match i % 128 with
  | 0 => ⟨S100000x128, .f32⟩
  | 1 => ⟨S100000x6, .f32⟩
  | 2 => ⟨S500000x42, .f32⟩
  | 3 => ⟨S500000x294, .f32⟩
  | 4 => ⟨S500000, .i32⟩
  | 5 => ⟨S500000, .i32⟩
  | 6 => ⟨S6x8, .f32⟩
  | 7 => ⟨S8x128, .f32⟩
  | 8 => ⟨S42x8, .f32⟩
  | 9 => ⟨S8x64, .f32⟩
  | 10 => ⟨S294x8, .f32⟩
  | 11 => ⟨S8x64, .f32⟩
  | 12 => ⟨S6x128, .f32⟩
  | 13 => ⟨S128x128, .f32⟩
  | 14 => ⟨S128, .f32⟩
  | 15 => ⟨S128x128, .f32⟩
  | 16 => ⟨S128, .f32⟩
  | 17 => ⟨S128x64, .f32⟩
  | 18 => ⟨S64x128, .f32⟩
  | 19 => ⟨S1x128x128, .f32⟩
  | 20 => ⟨S1x128, .f32⟩
  | 21 => ⟨S1x128x128, .f32⟩
  | 22 => ⟨S1x128, .f32⟩
  | 23 => ⟨S128x128, .f32⟩
  | 24 => ⟨S128, .f32⟩
  | 25 => ⟨S2x128x128, .f32⟩
  | 26 => ⟨S2x128, .f32⟩
  | 27 => ⟨S2x128x128, .f32⟩
  | 28 => ⟨S2x128, .f32⟩
  | 29 => ⟨S100000x128, .f32⟩
  | 30 => ⟨S1x128, .f32⟩
  | 31 => ⟨S100000x128, .f32⟩
  | 32 => ⟨S100000x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S100000x128, .f32⟩
  | 55 => ⟨S100000x8, .f32⟩
  | 56 => ⟨S100000x128, .f32⟩
  | 57 => ⟨S100000x128, .f32⟩
  | 58 => ⟨S100000x64, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x64, .f32⟩
  | 68 => ⟨S500000x8, .f32⟩
  | 69 => ⟨S500000x64, .f32⟩
  | 70 => ⟨S500000x8, .f32⟩
  | 71 => ⟨S500000x64, .f32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S500000x1, .i32⟩
  | 80 => ⟨S500000x64, .f32⟩
  | 81 => ⟨S500000x64, .f32⟩
  | 82 => ⟨S500000x64, .f32⟩
  | 83 => ⟨S_, .f32⟩
  | 84 => ⟨S100000x64, .f32⟩
  | 85 => ⟨S500000x1, .i32⟩
  | 86 => ⟨S100000x64, .f32⟩
  | 87 => ⟨S100000x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S100000x128, .f32⟩
  | 97 => ⟨S100000x128, .f32⟩
  | 98 => ⟨S128x128, .f32⟩
  | 99 => ⟨S128, .f32⟩
  | 100 => ⟨S128x128, .f32⟩
  | 101 => ⟨S128, .f32⟩
  | 102 => ⟨S100000x128, .f32⟩
  | 103 => ⟨S1x128, .f32⟩
  | 104 => ⟨S100000x128, .f32⟩
  | 105 => ⟨S100000x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S100000x128, .f32⟩
  | 14 => ⟨S100000x128, .f32⟩
  | 15 => ⟨S1x128x128, .f32⟩
  | 16 => ⟨S128x128, .f32⟩
  | 17 => ⟨S1x128, .f32⟩
  | 18 => ⟨S128, .f32⟩
  | 19 => ⟨S1x128x128, .f32⟩
  | 20 => ⟨S128x128, .f32⟩
  | 21 => ⟨S1x128, .f32⟩
  | 22 => ⟨S128, .f32⟩
  | 23 => ⟨S100000x128, .f32⟩
  | 24 => ⟨S1x128, .f32⟩
  | 25 => ⟨S100000x128, .f32⟩
  | 26 => ⟨S100000x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S100000x128, .f32⟩
  | 49 => ⟨S100000x128, .f32⟩
  | 50 => ⟨S1x128x128, .f32⟩
  | 51 => ⟨S128x128, .f32⟩
  | 52 => ⟨S1x128, .f32⟩
  | 53 => ⟨S128, .f32⟩
  | 54 => ⟨S1x128x128, .f32⟩
  | 55 => ⟨S128x128, .f32⟩
  | 56 => ⟨S1x128, .f32⟩
  | 57 => ⟨S128, .f32⟩
  | 58 => ⟨S100000x128, .f32⟩
  | 59 => ⟨S1x128, .f32⟩
  | 60 => ⟨S100000x128, .f32⟩
  | 61 => ⟨S100000x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S100000x128, .f32⟩
  | 85 => ⟨S100000x128, .f32⟩
  | 86 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_c : Ref sig .tc := ⟨.hbm, 72, rfl⟩
abbrev main_v19 : Ref sig .tc := ⟨.hbm, 73, rfl⟩
abbrev main_v20 : Ref sig .tc := ⟨.hbm, 74, rfl⟩
abbrev main_c_0 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_cst : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_call3_v0 : Ref sig .tc := ⟨.hbm, 88, rfl⟩
abbrev main_call3_v1 : Ref sig .tc := ⟨.hbm, 89, rfl⟩
abbrev main_call3_cst : Ref sig .tc := ⟨.hbm, 90, rfl⟩
abbrev main_call3_v2 : Ref sig .tc := ⟨.hbm, 91, rfl⟩
abbrev main_call3_v3 : Ref sig .tc := ⟨.hbm, 92, rfl⟩
abbrev main_call3_cst_0 : Ref sig .tc := ⟨.hbm, 93, rfl⟩
abbrev main_call3_v4 : Ref sig .tc := ⟨.hbm, 94, rfl⟩
abbrev main_call3_v5 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_call4_v0 : Ref sig .tc := ⟨.hbm, 106, rfl⟩
abbrev main_call4_v1 : Ref sig .tc := ⟨.hbm, 107, rfl⟩
abbrev main_call4_cst : Ref sig .tc := ⟨.hbm, 108, rfl⟩
abbrev main_call4_v2 : Ref sig .tc := ⟨.hbm, 109, rfl⟩
abbrev main_call4_v3 : Ref sig .tc := ⟨.hbm, 110, rfl⟩
abbrev main_call4_cst_0 : Ref sig .tc := ⟨.hbm, 111, rfl⟩
abbrev main_call4_v4 : Ref sig .tc := ⟨.hbm, 112, rfl⟩
abbrev main_call4_v5 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_call5_v0 : Ref sig .tc := ⟨.hbm, 119, rfl⟩
abbrev main_call5_v1 : Ref sig .tc := ⟨.hbm, 120, rfl⟩
abbrev main_call5_cst : Ref sig .tc := ⟨.hbm, 121, rfl⟩
abbrev main_call5_v2 : Ref sig .tc := ⟨.hbm, 122, rfl⟩
abbrev main_call5_v3 : Ref sig .tc := ⟨.hbm, 123, rfl⟩
abbrev main_call5_cst_0 : Ref sig .tc := ⟨.hbm, 124, rfl⟩
abbrev main_call5_v4 : Ref sig .tc := ⟨.hbm, 125, rfl⟩
abbrev main_call5_v5 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_call6_v0 : Ref sig .tc := ⟨.hbm, 133, rfl⟩
abbrev main_call6_v1 : Ref sig .tc := ⟨.hbm, 134, rfl⟩
abbrev main_call6_cst : Ref sig .tc := ⟨.hbm, 135, rfl⟩
abbrev main_call6_v2 : Ref sig .tc := ⟨.hbm, 136, rfl⟩
abbrev main_call6_v3 : Ref sig .tc := ⟨.hbm, 137, rfl⟩
abbrev main_call6_cst_0 : Ref sig .tc := ⟨.hbm, 138, rfl⟩
abbrev main_call6_v4 : Ref sig .tc := ⟨.hbm, 139, rfl⟩
abbrev main_call6_v5 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_call7_v0 : Ref sig .tc := ⟨.hbm, 155, rfl⟩
abbrev main_call7_v1 : Ref sig .tc := ⟨.hbm, 156, rfl⟩
abbrev main_call7_cst : Ref sig .tc := ⟨.hbm, 157, rfl⟩
abbrev main_call7_v2 : Ref sig .tc := ⟨.hbm, 158, rfl⟩
abbrev main_call7_v3 : Ref sig .tc := ⟨.hbm, 159, rfl⟩
abbrev main_call7_cst_0 : Ref sig .tc := ⟨.hbm, 160, rfl⟩
abbrev main_call7_v4 : Ref sig .tc := ⟨.hbm, 161, rfl⟩
abbrev main_call7_v5 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_call8_v0 : Ref sig .tc := ⟨.hbm, 168, rfl⟩
abbrev main_call8_v1 : Ref sig .tc := ⟨.hbm, 169, rfl⟩
abbrev main_call8_cst : Ref sig .tc := ⟨.hbm, 170, rfl⟩
abbrev main_call8_v2 : Ref sig .tc := ⟨.hbm, 171, rfl⟩
abbrev main_call8_v3 : Ref sig .tc := ⟨.hbm, 172, rfl⟩
abbrev main_call8_cst_0 : Ref sig .tc := ⟨.hbm, 173, rfl⟩
abbrev main_call8_v4 : Ref sig .tc := ⟨.hbm, 174, rfl⟩
abbrev main_call8_v5 : Ref sig .tc := ⟨.hbm, 175, rfl⟩
abbrev main_v72 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_v76 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_call9_v0 : Ref sig .tc := ⟨.hbm, 190, rfl⟩
abbrev main_call9_v1 : Ref sig .tc := ⟨.hbm, 191, rfl⟩
abbrev main_call9_cst : Ref sig .tc := ⟨.hbm, 192, rfl⟩
abbrev main_call9_v2 : Ref sig .tc := ⟨.hbm, 193, rfl⟩
abbrev main_call9_v3 : Ref sig .tc := ⟨.hbm, 194, rfl⟩
abbrev main_call9_cst_0 : Ref sig .tc := ⟨.hbm, 195, rfl⟩
abbrev main_call9_v4 : Ref sig .tc := ⟨.hbm, 196, rfl⟩
abbrev main_call9_v5 : Ref sig .tc := ⟨.hbm, 197, rfl⟩
abbrev main_v86 : Ref sig .tc := ⟨.hbm, 198, rfl⟩
abbrev main_v87 : Ref sig .tc := ⟨.hbm, 199, rfl⟩
abbrev main_v88 : Ref sig .tc := ⟨.hbm, 200, rfl⟩
abbrev main_v89 : Ref sig .tc := ⟨.hbm, 201, rfl⟩
abbrev main_v90 : Ref sig .tc := ⟨.hbm, 202, rfl⟩
abbrev main_call10_v0 : Ref sig .tc := ⟨.hbm, 203, rfl⟩
abbrev main_call10_v1 : Ref sig .tc := ⟨.hbm, 204, rfl⟩
abbrev main_call10_cst : Ref sig .tc := ⟨.hbm, 205, rfl⟩
abbrev main_call10_v2 : Ref sig .tc := ⟨.hbm, 206, rfl⟩
abbrev main_call10_v3 : Ref sig .tc := ⟨.hbm, 207, rfl⟩
abbrev main_call10_cst_0 : Ref sig .tc := ⟨.hbm, 208, rfl⟩
abbrev main_call10_v4 : Ref sig .tc := ⟨.hbm, 209, rfl⟩
abbrev main_call10_v5 : Ref sig .tc := ⟨.hbm, 210, rfl⟩
abbrev main_v91 : Ref sig .tc := ⟨.hbm, 211, rfl⟩
abbrev main_v92 : Ref sig .tc := ⟨.hbm, 212, rfl⟩
abbrev main_v93 : Ref sig .tc := ⟨.hbm, 213, rfl⟩
abbrev main_v94 : Ref sig .tc := ⟨.hbm, 214, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S100000x64 : S_.BroadcastsInDim S100000x64 (![] : Fin 0 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  shapeCasts_S1x128x128_S128x128 : S1x128x128.ShapeCasts S128x128
  shapeCasts_S1x128_S128 : S1x128.ShapeCasts S128
  slices_S2x128x128_S1x128x128_0_0_0 : S2x128x128.Slices ![0, 0, 0] S1x128x128
  slices_S2x128_S1x128_0_0 : S2x128.Slices ![0, 0] S1x128
  slices_S2x128x128_S1x128x128_1_0_0 : S2x128x128.Slices ![1, 0, 0] S1x128x128
  slices_S2x128_S1x128_1_0 : S2x128.Slices ![1, 0] S1x128
  dot_S100000x128_S128x128_S100000x128_1_0_0_1_n_n_wf : DotDims.WF S100000x128 S128x128 S100000x128 [1] [0] [0] [1] [] []
  dot_S100000x6_S6x8_S100000x8_1_0_0_1_n_n_wf : DotDims.WF S100000x6 S6x8 S100000x8 [1] [0] [0] [1] [] []
  dot_S100000x8_S8x128_S100000x128_1_0_0_1_n_n_wf : DotDims.WF S100000x8 S8x128 S100000x128 [1] [0] [0] [1] [] []
  dot_S100000x128_S128x64_S100000x64_1_0_0_1_n_n_wf : DotDims.WF S100000x128 S128x64 S100000x64 [1] [0] [0] [1] [] []
  dot_S500000x42_S42x8_S500000x8_1_0_0_1_n_n_wf : DotDims.WF S500000x42 S42x8 S500000x8 [1] [0] [0] [1] [] []
  dot_S500000x8_S8x64_S500000x64_1_0_0_1_n_n_wf : DotDims.WF S500000x8 S8x64 S500000x64 [1] [0] [0] [1] [] []
  dot_S500000x294_S294x8_S500000x8_1_0_0_1_n_n_wf : DotDims.WF S500000x294 S294x8 S500000x8 [1] [0] [0] [1] [] []
  gather_S100000x64_S500000x1_S500000x64_1_0_n_n_0_1_164_wf : GatherDims.WF S100000x64 S500000x1 S500000x64 [1] [0] [] [0] [] 1 ![1, 64]
  scatter_S100000x64_S500000x1_S500000x64_1_0_0_1_wf : ScatterDims.WF S100000x64 S500000x1 S500000x64 [1] [0] [0] 1
  dot_S100000x64_S64x128_S100000x128_1_0_0_1_n_n_wf : DotDims.WF S100000x64 S64x128 S100000x128 [1] [0] [0] [1] [] []
  dot_S100000x6_S6x128_S100000x128_1_0_0_1_n_n_wf : DotDims.WF S100000x6 S6x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x6_S6x8_S100000x8_1_0_0_1_n_n : DotDims S100000x6 S6x8 S100000x8 where
  lhsContracting := [1]
  rhsContracting := [0]
  lhsNonContracting := [0]
  rhsNonContracting := [1]
  lhsBatch := []
  rhsBatch := []
  wf := dot_S100000x6_S6x8_S100000x8_1_0_0_1_n_n_wf
def dot_S100000x8_S8x128_S100000x128_1_0_0_1_n_n : DotDims S100000x8 S8x128 S100000x128 where
  lhsContracting := [1]
  rhsContracting := [0]
  lhsNonContracting := [0]
  rhsNonContracting := [1]
  lhsBatch := []
  rhsBatch := []
  wf := dot_S100000x8_S8x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S500000x42_S42x8_S500000x8_1_0_0_1_n_n : DotDims S500000x42 S42x8 S500000x8 where
  lhsContracting := [1]
  rhsContracting := [0]
  lhsNonContracting := [0]
  rhsNonContracting := [1]
  lhsBatch := []
  rhsBatch := []
  wf := dot_S500000x42_S42x8_S500000x8_1_0_0_1_n_n_wf
def dot_S500000x8_S8x64_S500000x64_1_0_0_1_n_n : DotDims S500000x8 S8x64 S500000x64 where
  lhsContracting := [1]
  rhsContracting := [0]
  lhsNonContracting := [0]
  rhsNonContracting := [1]
  lhsBatch := []
  rhsBatch := []
  wf := dot_S500000x8_S8x64_S500000x64_1_0_0_1_n_n_wf
def dot_S500000x294_S294x8_S500000x8_1_0_0_1_n_n : DotDims S500000x294 S294x8 S500000x8 where
  lhsContracting := [1]
  rhsContracting := [0]
  lhsNonContracting := [0]
  rhsNonContracting := [1]
  lhsBatch := []
  rhsBatch := []
  wf := dot_S500000x294_S294x8_S500000x8_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x6_S6x128_S100000x128_1_0_0_1_n_n : DotDims S100000x6 S6x128 S100000x128 where
  lhsContracting := [1]
  rhsContracting := [0]
  lhsNonContracting := [0]
  rhsNonContracting := [1]
  lhsBatch := []
  rhsBatch := []
  wf := dot_S100000x6_S6x128_S100000x128_1_0_0_1_n_n_wf

class Facts : Prop extends Facts₀ where

variable [Facts]
-- ==== Proof.RunValue.lean ====
/-
  The kernel program's run with its two results named: every weakly fair execution terminates without a fault, each
  result buffer ends at the contents the last segment boundary gives it, and the arguments end as launched.  The
  program is three kernel regions around one stretch of host operations; the contents at each boundary are the fold
  W0 … W4 through those segments, and the final state holds W4 at every buffer that outlives the regions.
-/
import proofs.«178192_j4879082848306_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the three regions and the host stretch between them, with the last boundary's contents read at the two
    result buffers as well as at the arguments. -/
theorem run_results : θ_run defs (onTc (τ := τ) (main (F := F))) ⟨m, fun _ => 0, ρ⟩ (fun r => ∀ c : Dev nD,
      r.2.mem ((c.tc : Thread nD τ).loc main_v0_0) = W4 m ρ c (Proc.devRef .tc main_v0_0)
      ∧ r.2.mem ((c.tc : Thread nD τ).loc main_v0_1) = W4 m ρ c (Proc.devRef .tc main_v0_1)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0_0 (by decide)),
       h c _ (mem_uc main_v0_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c),
       (h c _ (mem_uc main_arg20 (by decide))).trans (W4_main_arg20 m ρ c),
       (h c _ (mem_uc main_arg21 (by decide))).trans (W4_main_arg21 m ρ c),
       (h c _ (mem_uc main_arg22 (by decide))).trans (W4_main_arg22 m ρ c),
       (h c _ (mem_uc main_arg23 (by decide))).trans (W4_main_arg23 m ρ c),
       (h c _ (mem_uc main_arg24 (by decide))).trans (W4_main_arg24 m ρ c),
       (h c _ (mem_uc main_arg25 (by decide))).trans (W4_main_arg25 m ρ c),
       (h c _ (mem_uc main_arg26 (by decide))).trans (W4_main_arg26 m ρ c),
       (h c _ (mem_uc main_arg27 (by decide))).trans (W4_main_arg27 m ρ c),
       (h c _ (mem_uc main_arg28 (by decide))).trans (W4_main_arg28 m ρ c)⟩)

end Cert.KernelIdeal.RunValue

end
-- ==== Proof.Spec.lean ====
/-
  The mathematics of one interaction block of a directional message-passing network, on the extended reals,
  with no program in sight.  A dense layer is x ↦ x·W (+ b); the activation is the sigmoid-weighted linear unit
  silu x = x · logistic x; a residual layer is e ↦ e + silu(silu(e·W₁ + b₁)·W₂ + b₂).  Every stage acts on ONE row of
  its input at a time, so each whole-array stage below is "row p of the result is a fixed function of row p of the
  inputs" — for any number of rows R.  That is what lets a stage computed block of rows by block of rows be compared
  with the same stage computed on the whole array.
-/
import Idealize.ShloMosaic.PureOps.Ideal
import Idealize.ShloMosaic.Lib.ValueIdx

noncomputable section

namespace Cert.Sphere

open Idealize.ShloMosaic Idealize.ShloMosaic.ValueIdx
open scoped BigOperators

/-! ## Rows: functions of one coordinate -/

/-- The sigmoid-weighted linear unit x · logistic x. -/
def silu (x : EReal) : EReal := x * Ideal.logistic x

/-- A row times a matrix: q ↦ Σₖ x k · W k q. -/
def lin {K N : ℕ} (x : Fin K → EReal) (W : Fin K → Fin N → EReal) : Fin N → EReal := fun q => ∑ k : Fin K, x k * W k q

/-- The activation applied to every entry of a row. -/
def act {N : ℕ} (y : Fin N → EReal) : Fin N → EReal := fun q => silu (y q)

/-- An affine layer on a row: x·W + b. -/
def aff {K N : ℕ} (x : Fin K → EReal) (W : Fin K → Fin N → EReal) (b : Fin N → EReal) : Fin N → EReal :=
  fun q => lin x W q + b q

/-- A residual layer on a row: e + silu(silu(e·W₁ + b₁)·W₂ + b₂). -/
def res {N : ℕ} (e : Fin N → EReal) (W1 : Fin N → Fin N → EReal) (b1 : Fin N → EReal) (W2 : Fin N → Fin N → EReal)
    (b2 : Fin N → EReal) : Fin N → EReal :=
  fun q => e q + act (aff (act (aff e W1 b1)) W2 b2) q

/-! ## Arrays read as rows, matrices and vectors -/

/-- Row p of a matrix. -/
def row {R C : ℕ} (a : (⟨2, ![R, C]⟩ : Shape).Idx → EReal) (p : Fin R) : Fin C → EReal := fun j => a (ix2 p j)
/-- A rank-2 array as a function of two coordinates. -/
def mat {K N : ℕ} (W : (⟨2, ![K, N]⟩ : Shape).Idx → EReal) : Fin K → Fin N → EReal := fun k q => W (ix2 k q)
/-- A rank-1 array as a function of its coordinate. -/
def vec {N : ℕ} (b : (⟨1, ![N]⟩ : Shape).Idx → EReal) : Fin N → EReal := fun q => b (ix1 q)
/-- Slot s of a stack of matrices. -/
def mat3 {A K N : ℕ} (W : (⟨3, ![A, K, N]⟩ : Shape).Idx → EReal) (s : Fin A) : Fin K → Fin N → EReal :=
  fun k q => W (ix3 s k q)

/-! ## The three dense stages on one row -/

/-- The edge stage: silu((silu(x·W_kj + b_kj) ⊙ (rbf·W₁·W₂))·W_down). -/
def xkjRow {H I NR B : ℕ} (x : Fin H → EReal) (rb : Fin NR → EReal) (Wkj : Fin H → Fin H → EReal) (bkj : Fin H → EReal)
    (W1 : Fin NR → Fin B → EReal) (W2 : Fin B → Fin H → EReal) (Wd : Fin H → Fin I → EReal) : Fin I → EReal :=
  act (lin (fun k => act (aff x Wkj bkj) k * lin (lin rb W1) W2 k) Wd)

/-- The triplet stage: (sbf·W_s1·W_s2) ⊙ (t·W_t1·W_t2). -/
def bpRow {NS NT B I : ℕ} (s : Fin NS → EReal) (t : Fin NT → EReal) (Ws1 : Fin NS → Fin B → EReal) (Ws2 : Fin B → Fin I → EReal)
    (Wt1 : Fin NT → Fin B → EReal) (Wt2 : Fin B → Fin I → EReal) : Fin I → EReal :=
  fun q => lin (lin s Ws1) Ws2 q * lin (lin t Wt1) Wt2 q

/-- The update stage after aggregation: silu(x·W_ji + b_ji) + silu(a·W_up), one residual layer, silu(·W_lin + b_lin) + x,
    two more residual layers. -/
def e1Row {H I : ℕ} (a : Fin I → EReal) (x : Fin H → EReal) (Wji : Fin H → Fin H → EReal) (bji : Fin H → EReal)
    (Wup : Fin I → Fin H → EReal)
    (bW1 : Fin H → Fin H → EReal) (bb1 : Fin H → EReal) (bW2 : Fin H → Fin H → EReal) (bb2 : Fin H → EReal)
    (Wlin : Fin H → Fin H → EReal) (blin : Fin H → EReal)
    (aW1 : Fin H → Fin H → EReal) (ab1 : Fin H → EReal) (aW2 : Fin H → Fin H → EReal) (ab2 : Fin H → EReal)
    (cW1 : Fin H → Fin H → EReal) (cb1 : Fin H → EReal) (cW2 : Fin H → Fin H → EReal) (cb2 : Fin H → EReal) : Fin H → EReal :=
  res (res (fun q => act (aff (res (fun q => act (aff x Wji bji) q + act (lin a Wup) q) bW1 bb1 bW2 bb2) Wlin blin) q + x q)
    aW1 ab1 aW2 ab2) cW1 cb1 cW2 cb2

/-- The second output: (rbf·W_rbf) ⊙ e1. -/
def e2Row {H NR : ℕ} (rb : Fin NR → EReal) (Wrbf : Fin NR → Fin H → EReal) (e1 : Fin H → EReal) : Fin H → EReal :=
  fun q => lin rb Wrbf q * e1 q

/-! ## The stages on whole arrays of R rows -/

/-- The edge stage of an array of R rows. -/
def XKJ {R : ℕ} (x1 : (⟨2, ![R, 128]⟩ : Shape).Idx → EReal) (rbf0 : (⟨2, ![R, 6]⟩ : Shape).Idx → EReal)
    (Wkj : (⟨2, ![128, 128]⟩ : Shape).Idx → EReal) (bkj : (⟨1, ![128]⟩ : Shape).Idx → EReal)
    (W1 : (⟨2, ![6, 8]⟩ : Shape).Idx → EReal) (W2 : (⟨2, ![8, 128]⟩ : Shape).Idx → EReal)
    (Wd : (⟨2, ![128, 64]⟩ : Shape).Idx → EReal) : (⟨2, ![R, 64]⟩ : Shape).Idx → EReal :=
  fun i => xkjRow (row x1 (i 0)) (row rbf0 (i 0)) (mat Wkj) (vec bkj) (mat W1) (mat W2) (mat Wd) (i 1)

/-- The triplet stage of an array of R rows. -/
def BP {R : ℕ} (sbf : (⟨2, ![R, 42]⟩ : Shape).Idx → EReal) (tb : (⟨2, ![R, 294]⟩ : Shape).Idx → EReal)
    (Ws1 : (⟨2, ![42, 8]⟩ : Shape).Idx → EReal) (Ws2 : (⟨2, ![8, 64]⟩ : Shape).Idx → EReal)
    (Wt1 : (⟨2, ![294, 8]⟩ : Shape).Idx → EReal) (Wt2 : (⟨2, ![8, 64]⟩ : Shape).Idx → EReal) :
    (⟨2, ![R, 64]⟩ : Shape).Idx → EReal :=
  fun i => bpRow (row sbf (i 0)) (row tb (i 0)) (mat Ws1) (mat Ws2) (mat Wt1) (mat Wt2) (i 1)

/-- Row p of the update stage of an array of R rows. -/
def e1At {R : ℕ} (agg : (⟨2, ![R, 64]⟩ : Shape).Idx → EReal) (x1 : (⟨2, ![R, 128]⟩ : Shape).Idx → EReal)
    (Wji : (⟨2, ![128, 128]⟩ : Shape).Idx → EReal) (bji : (⟨1, ![128]⟩ : Shape).Idx → EReal)
    (Wup : (⟨2, ![64, 128]⟩ : Shape).Idx → EReal)
    (bW1 : (⟨3, ![1, 128, 128]⟩ : Shape).Idx → EReal) (bb1 : (⟨2, ![1, 128]⟩ : Shape).Idx → EReal)
    (bW2 : (⟨3, ![1, 128, 128]⟩ : Shape).Idx → EReal) (bb2 : (⟨2, ![1, 128]⟩ : Shape).Idx → EReal)
    (Wlin : (⟨2, ![128, 128]⟩ : Shape).Idx → EReal) (blin : (⟨1, ![128]⟩ : Shape).Idx → EReal)
    (aW1 : (⟨3, ![2, 128, 128]⟩ : Shape).Idx → EReal) (ab1 : (⟨2, ![2, 128]⟩ : Shape).Idx → EReal)
    (aW2 : (⟨3, ![2, 128, 128]⟩ : Shape).Idx → EReal) (ab2 : (⟨2, ![2, 128]⟩ : Shape).Idx → EReal) (p : Fin R) :
    Fin 128 → EReal :=
  e1Row (row agg p) (row x1 p) (mat Wji) (vec bji) (mat Wup) (mat3 bW1 0) (row bb1 0) (mat3 bW2 0) (row bb2 0)
    (mat Wlin) (vec blin) (mat3 aW1 0) (row ab1 0) (mat3 aW2 0) (row ab2 0) (mat3 aW1 1) (row ab1 1) (mat3 aW2 1) (row ab2 1)

/-- The first output of an array of R rows. -/
def E1 {R : ℕ} (agg : (⟨2, ![R, 64]⟩ : Shape).Idx → EReal) (x1 : (⟨2, ![R, 128]⟩ : Shape).Idx → EReal)
    (Wji : (⟨2, ![128, 128]⟩ : Shape).Idx → EReal) (bji : (⟨1, ![128]⟩ : Shape).Idx → EReal)
    (Wup : (⟨2, ![64, 128]⟩ : Shape).Idx → EReal)
    (bW1 : (⟨3, ![1, 128, 128]⟩ : Shape).Idx → EReal) (bb1 : (⟨2, ![1, 128]⟩ : Shape).Idx → EReal)
    (bW2 : (⟨3, ![1, 128, 128]⟩ : Shape).Idx → EReal) (bb2 : (⟨2, ![1, 128]⟩ : Shape).Idx → EReal)
    (Wlin : (⟨2, ![128, 128]⟩ : Shape).Idx → EReal) (blin : (⟨1, ![128]⟩ : Shape).Idx → EReal)
    (aW1 : (⟨3, ![2, 128, 128]⟩ : Shape).Idx → EReal) (ab1 : (⟨2, ![2, 128]⟩ : Shape).Idx → EReal)
    (aW2 : (⟨3, ![2, 128, 128]⟩ : Shape).Idx → EReal) (ab2 : (⟨2, ![2, 128]⟩ : Shape).Idx → EReal) :
    (⟨2, ![R, 128]⟩ : Shape).Idx → EReal :=
  fun i => e1At agg x1 Wji bji Wup bW1 bb1 bW2 bb2 Wlin blin aW1 ab1 aW2 ab2 (i 0) (i 1)

/-- The second output of an array of R rows. -/
def E2 {R : ℕ} (agg : (⟨2, ![R, 64]⟩ : Shape).Idx → EReal) (x1 : (⟨2, ![R, 128]⟩ : Shape).Idx → EReal)
    (rbf0 : (⟨2, ![R, 6]⟩ : Shape).Idx → EReal)
    (Wji : (⟨2, ![128, 128]⟩ : Shape).Idx → EReal) (bji : (⟨1, ![128]⟩ : Shape).Idx → EReal)
    (Wup : (⟨2, ![64, 128]⟩ : Shape).Idx → EReal)
    (bW1 : (⟨3, ![1, 128, 128]⟩ : Shape).Idx → EReal) (bb1 : (⟨2, ![1, 128]⟩ : Shape).Idx → EReal)
    (bW2 : (⟨3, ![1, 128, 128]⟩ : Shape).Idx → EReal) (bb2 : (⟨2, ![1, 128]⟩ : Shape).Idx → EReal)
    (Wlin : (⟨2, ![128, 128]⟩ : Shape).Idx → EReal) (blin : (⟨1, ![128]⟩ : Shape).Idx → EReal)
    (aW1 : (⟨3, ![2, 128, 128]⟩ : Shape).Idx → EReal) (ab1 : (⟨2, ![2, 128]⟩ : Shape).Idx → EReal)
    (aW2 : (⟨3, ![2, 128, 128]⟩ : Shape).Idx → EReal) (ab2 : (⟨2, ![2, 128]⟩ : Shape).Idx → EReal)
    (Wrbf : (⟨2, ![6, 128]⟩ : Shape).Idx → EReal) : (⟨2, ![R, 128]⟩ : Shape).Idx → EReal :=
  fun i => e2Row (row rbf0 (i 0)) (mat Wrbf)
    (e1At agg x1 Wji bji Wup bW1 bb1 bW2 bb2 Wlin blin aW1 ab1 aW2 ab2 (i 0)) (i 1)

end Cert.Sphere

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibPlainDot.lean ====
/-
  GENERAL LEMMAS: the product of an [R, K] matrix with a [K, N] matrix under the plain dimension record (axis 1 of the left
  operand contracted with axis 0 of the right, no batch axes), read at (p, q) on extended reals as the sum over k of
  l(p, k) * r(k, q) — for the matrix unit's product into a zero accumulator and for the host's dot_general. Any extents; a
  printed record with these six lists is this record. It imports LibMatmulRows.lean of the same directory.
-/
import Idealize.ShloMosaic.PureOps.Ideal
import Idealize.ShloMosaic.PureOps.Ideal.Laws
import Idealize.ShloMosaic.Lib.ValueIdx
import proofs.«178192_j4879082848306_2_alg».proof.Proof.LibMatmulRows

noncomputable section

namespace Cert.LibPlainDot

open Idealize.ShloMosaic Idealize.ShloMosaic.ValueIdx
open scoped BigOperators

variable {R K N : ℕ}

theorem lhs0 (i : (⟨2, ![R, N]⟩ : Shape).Idx) (s : (DotDims.plain R K N).contr.Idx) :
    ((DotDims.plain R K N).lhsIdx i s 0).val = (i 0).val := by
  unfold DotDims.lhsIdx
  rw [dif_neg (show ¬(0 : Fin 2) ∈ (DotDims.plain R K N).lhsBatch from List.not_mem_nil),
    dif_pos (show (0 : Fin 2) ∈ (DotDims.plain R K N).lhsNonContracting from List.mem_singleton.mpr rfl)]
  rfl

theorem lhs1 (i : (⟨2, ![R, N]⟩ : Shape).Idx) (s : (DotDims.plain R K N).contr.Idx) :
    ((DotDims.plain R K N).lhsIdx i s 1).val = (s ⟨0, Nat.one_pos⟩).val :=
  (DotDims.plain R K N).lhsIdx_val_of_single rfl i s

theorem rhs0 (i : (⟨2, ![R, N]⟩ : Shape).Idx) (s : (DotDims.plain R K N).contr.Idx) :
    ((DotDims.plain R K N).rhsIdx i s 0).val = (s ⟨0, Nat.one_pos⟩).val :=
  (DotDims.plain R K N).rhsIdx_val_of_single rfl i s

theorem rhs1 (i : (⟨2, ![R, N]⟩ : Shape).Idx) (s : (DotDims.plain R K N).contr.Idx) :
    ((DotDims.plain R K N).rhsIdx i s 1).val = (i 1).val := by
  unfold DotDims.rhsIdx
  rw [dif_neg (show ¬(1 : Fin 2) ∈ (DotDims.plain R K N).rhsBatch from List.not_mem_nil),
    dif_pos (show (1 : Fin 2) ∈ (DotDims.plain R K N).rhsNonContracting from List.mem_singleton.mpr rfl)]
  rfl

/-- The matrix unit's product into a zero accumulator, read at (p, q). -/
theorem matmul_plain {φ₁ φ₂ : FTy} (l : FVec Ideal ⟨2, ![R, K]⟩ φ₁) (r : FVec Ideal ⟨2, ![K, N]⟩ φ₂) (p : Fin R) (q : Fin N) :
    matmul (DotDims.plain R K N) none l r (constant (F := Ideal) ⟨2, ![R, N]⟩ .f32 0x00000000#32) (ix2 p q)
      = ∑ k : Fin K, l (ix2 p k) * r (ix2 k q) :=
  Cert.LibMatmulRows.matmul_rows (DotDims.plain R K N) rfl rfl lhs0 lhs1 rhs0 rhs1 l r p q

/-- The host's dot_general, read at (p, q). -/
theorem hostdot_plain (l : FVec Ideal ⟨2, ![R, K]⟩ .f32) (r : FVec Ideal ⟨2, ![K, N]⟩ .f32) (p : Fin R) (q : Fin N) :
    Host.dotGeneral (DotDims.plain R K N) none l r (ix2 p q) = ∑ k : Fin K, l (ix2 p k) * r (ix2 k q) :=
  Cert.LibMatmulRows.hostdot_rows (DotDims.plain R K N) rfl rfl lhs0 lhs1 rhs0 rhs1 l r p q

end Cert.LibPlainDot

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.KerRows.lean ====
/-
  The kernel side of the comparison. Each of the three kernel bodies works on one block of rows; what it leaves in its
  output block is the corresponding dense stage of Spec.lean applied, row by row, to the block's inputs. The block has
  4000 rows (edge stage, update stage) or 5000 rows (triplet stage); the stage functions of Spec.lean are stated for any
  number of rows, so the statements here are "block out = stage of block in".

  Three facts carry everything: a product of an [R, K] block with a [K, N] matrix into a zero accumulator reads, at
  (p, q), the row-times-matrix sum lin (row p) W q (at either contraction precision: on extended reals the precision
  does not enter); a bias cast to one row and laid along R rows reads, at (p, c), the bias at c; and every pointwise
  operation, the changes of float format included, reads through an index by definition.
-/
import proofs.«178192_j4879082848306_2_alg».proof.Proof.Gen.KernelIdeal.Frame
import proofs.«178192_j4879082848306_2_alg».proof.Proof.Spec
import proofs.«178192_j4879082848306_2_alg».proof.Proof.LibPlainDot
import proofs.«178192_j4879082848306_2_alg».proof.Proof.LibBiasRows
import Idealize.ShloMosaic.Lib.Pipeline.Value
import Idealize.ShloMosaic.Lib.ValueLayout
import Idealize.ShloMosaic.Lib.ValueIdx
import Idealize.ShloMosaic.PureOps.Ideal.Laws

noncomputable section

namespace Cert.Sphere.Ker

open Idealize.ShloMosaic Idealize.ShloMosaic.ValueIdx
open Cert.KernelIdeal Cert.KernelIdeal.Gen Cert.Sphere
open scoped BigOperators

/-! ## General facts -/

/-- The offsets of a whole-buffer rectangle, rank 1, 2 and 3, are all zero. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A product of an [R, K] array with a [K, N] array into a zero accumulator, at either precision, read at (p, q): the
    row-times-matrix sum lin f g q of any row f and matrix g that the operands' entries in row p and column q are. -/
theorem mm_row {R K N : ℕ} {φ₁ φ₂ : FTy} (prec : Option ContractPrecision) (l : FVec Ideal ⟨2, ![R, K]⟩ φ₁)
    (r : FVec Ideal ⟨2, ![K, N]⟩ φ₂) (p : Fin R) (q : Fin N) (f : Fin K → EReal) (g : Fin K → Fin N → EReal)
    (hf : ∀ k, l (ix2 p k) = f k) (hg : ∀ k, r (ix2 k q) = g k q) :
    matmul (DotDims.plain R K N) prec l r (constant (F := Ideal) ⟨2, ![R, N]⟩ .f32 0x00000000#32) (ix2 p q) = lin f g q := by
  refine (Ideal.matmul_constant_zero_apply (DotDims.plain R K N) prec l r (ix2 p q)).trans ?_
  refine (Cert.LibMatmulRows.contraction_rows (DotDims.plain R K N) rfl rfl Cert.LibPlainDot.lhs0 Cert.LibPlainDot.lhs1
    Cert.LibPlainDot.rhs0 Cert.LibPlainDot.rhs1 l r p q).trans ?_
  exact Finset.sum_congr rfl fun k _ => by rw [hf k, hg k]

/-- The activation of an array's entry: the entry times its logistic value. -/
theorem silu_at {s : Shape} (a : FVec Ideal s .f32) (i : s.Idx) (y : EReal) (h : a i = y) :
    mulf a (logistic a) i = silu y := by
  rw [← h]; rfl

/-- A change of float format reads through an index. -/
theorem trunc_at {s : Shape} {φ ψ : FTy} (a : FVec Ideal s φ) (h : ψ.bits < φ.bits) (i : s.Idx) (y : EReal) (ha : a i = y) :
    (truncf ψ a h : FVec Ideal s ψ) i = y := ha

/-- A sum of arrays reads through an index. -/
theorem add_at {s : Shape} {φ : FTy} (a b : FVec Ideal s φ) (i : s.Idx) (y z : EReal) (ha : a i = y) (hb : b i = z) :
    addf a b i = y + z := by
  rw [← ha, ← hb]; rfl

/-- A product of arrays reads through an index. -/
theorem mul_at {s : Shape} {φ : FTy} (a b : FVec Ideal s φ) (i : s.Idx) (y z : EReal) (ha : a i = y) (hb : b i = z) :
    mulf a b i = y * z := by
  rw [← ha, ← hb]; rfl

/-- A bias cast to one row and laid along R rows reads, at (p, c), what the bias reads at c. -/
theorem bias_at {R n : ℕ} (b : FVec Ideal ⟨1, ![n]⟩ .f32) (hc : (⟨1, ![n]⟩ : Shape).ShapeCasts ⟨2, ![1, n]⟩)
    (hb : (⟨2, ![1, n]⟩ : Shape).Broadcasts ⟨2, ![R, n]⟩) (p : Fin R) (c : Fin n) (y : EReal) (h : b (ix1 c) = y) :
    broadcastTo ⟨2, ![R, n]⟩ (shapeCast ⟨2, ![1, n]⟩ b hc) hb (ix2 p c) = y :=
  (Cert.LibBiasRows.bias_rows b hc hb p c).trans h

/-! ## The edge stage: one block of 4000 rows -/

/-- The edge body's stored value at (r, q) is the edge stage of row r. -/
theorem k0_pay1_at (x0 : Vec Ideal S4000x128 .f32) (x1 : Vec Ideal S4000x6 .f32) (x2 : Vec Ideal S128x128 .f32)
    (x3 : Vec Ideal S128 .f32) (x4 : Vec Ideal S6x8 .f32) (x5 : Vec Ideal S8x128 .f32) (x6 : Vec Ideal S128x64 .f32)
    (r : Fin 4000) (q : Fin 64) :
    k0_pay1 (F := Ideal) x0 x1 x2 x3 x4 x5 x6 (ix2 r q)
      = xkjRow (row x0 r) (row x1 r) (mat x2) (vec x3) (mat x4) (mat x5) (mat x6) q := by
  unfold k0_pay1
  refine silu_at _ _ _ (mm_row none _ _ r q _ _ (fun k => trunc_at _ _ _ _ (mul_at _ _ _ _ _ ?_ ?_)) (fun k => rfl))
  · exact silu_at _ _ _ (add_at _ _ _ _ _ (mm_row none _ _ r k _ _ (fun j => rfl) (fun j => rfl))
      (bias_at x3 _ _ r k _ rfl))
  · exact mm_row (some .fp32) _ _ r k _ _ (fun j => mm_row (some .fp32) _ _ r j _ _ (fun _ => rfl) (fun _ => rfl))
      (fun j => rfl)

/-- What the edge body leaves in its output block is the edge stage of its input blocks. -/
theorem out0_7_eq (x0 : Vec Ideal S4000x128 .f32) (x1 : Vec Ideal S4000x6 .f32) (x2 : Vec Ideal S128x128 .f32)
    (x3 : Vec Ideal S128 .f32) (x4 : Vec Ideal S6x8 .f32) (x5 : Vec Ideal S8x128 .f32) (x6 : Vec Ideal S128x64 .f32) :
    out0_7 (F := Ideal) x0 x1 x2 x3 x4 x5 x6 = XKJ (R := 4000) x0 x1 x2 x3 x4 x5 x6 := by
  unfold out0_7
  rw [View.canon_unit_zero hz2]
  simp only [View.ld_unit_zero (S := S4000x128) hz2, View.ld_unit_zero (S := S4000x6) hz2,
    View.ld_unit_zero (S := S128x128) hz2, View.ld_unit_zero (S := S128) hz1, View.ld_unit_zero (S := S6x8) hz2,
    View.ld_unit_zero (S := S8x128) hz2, View.ld_unit_zero (S := S128x64) hz2]
  funext i
  obtain ⟨p, q, rfl⟩ : ∃ (p : Fin 4000) (q : Fin 64), i = ix2 p q := ⟨i 0, i 1, eq_ix2 i⟩
  exact k0_pay1_at x0 x1 x2 x3 x4 x5 x6 p q

/-! ## The triplet stage: one block of 5000 rows -/

/-- The triplet body's stored value at (r, q) is the triplet stage of row r. -/
theorem k1_pay1_at (x0 : Vec Ideal S5000x42 .f32) (x1 : Vec Ideal S5000x294 .f32) (x2 : Vec Ideal S42x8 .f32)
    (x3 : Vec Ideal S8x64 .f32) (x4 : Vec Ideal S294x8 .f32) (x5 : Vec Ideal S8x64 .f32) (r : Fin 5000) (q : Fin 64) :
    k1_pay1 (F := Ideal) x0 x1 x2 x3 x4 x5 (ix2 r q)
      = bpRow (row x0 r) (row x1 r) (mat x2) (mat x3) (mat x4) (mat x5) q := by
  unfold k1_pay1
  exact trunc_at _ _ _ _ (mul_at _ _ _ _ _
    (mm_row (some .fp32) _ _ r q _ _ (fun j => mm_row (some .fp32) _ _ r j _ _ (fun _ => rfl) (fun _ => rfl))
      (fun _ => rfl))
    (mm_row (some .fp32) _ _ r q _ _ (fun j => mm_row (some .fp32) _ _ r j _ _ (fun _ => rfl) (fun _ => rfl))
      (fun _ => rfl)))

/-- What the triplet body leaves in its output block is the triplet stage of its input blocks. -/
theorem out1_6_eq (x0 : Vec Ideal S5000x42 .f32) (x1 : Vec Ideal S5000x294 .f32) (x2 : Vec Ideal S42x8 .f32)
    (x3 : Vec Ideal S8x64 .f32) (x4 : Vec Ideal S294x8 .f32) (x5 : Vec Ideal S8x64 .f32) :
    out1_6 (F := Ideal) x0 x1 x2 x3 x4 x5 = BP (R := 5000) x0 x1 x2 x3 x4 x5 := by
  unfold out1_6
  rw [View.canon_unit_zero hz2]
  simp only [View.ld_unit_zero (S := S5000x42) hz2, View.ld_unit_zero (S := S5000x294) hz2,
    View.ld_unit_zero (S := S42x8) hz2, View.ld_unit_zero (S := S8x64) hz2, View.ld_unit_zero (S := S294x8) hz2]
  funext i
  obtain ⟨p, q, rfl⟩ : ∃ (p : Fin 5000) (q : Fin 64), i = ix2 p q := ⟨i 0, i 1, eq_ix2 i⟩
  exact k1_pay1_at x0 x1 x2 x3 x4 x5 p q

/-! ## The update stage: one block of 4000 rows

The body's arithmetic comes in ten pieces. Each is read at an entry (r, q) for arbitrary arrays in place of the pieces it
takes, given what each of those reads in row r; the pieces are put together at the end. -/

/-- The two branches added: silu(x·W_ji + b_ji) + silu(a·W_up). -/
theorem k2_pay3_at (v0 : Vec Ideal S4000x64 .f32) (v2 : Vec Ideal S4000x128 .f32) (v5 : Vec Ideal S128x128 .f32)
    (v8 : Vec Ideal S128 .f32) (v14 : Vec Ideal S64x128 .f32) (r : Fin 4000) (q : Fin 128) :
    k2_pay3 (F := Ideal) v0 v2 v5 v8 v14 (ix2 r q)
      = act (aff (row v2 r) (mat v5) (vec v8)) q + act (lin (row v0 r) (mat v14)) q := by
  unfold k2_pay3
  exact add_at _ _ _ _ _
    (silu_at _ _ _ (add_at _ _ _ _ _ (mm_row none _ _ r q _ _ (fun _ => rfl) (fun _ => rfl)) (bias_at v8 _ _ r q _ rfl)))
    (silu_at _ _ _ (mm_row none _ _ r q _ _
      (fun k => trunc_at _ _ _ _ (congrFun (shapeCast_self v0 _) (ix2 r k))) (fun _ => rfl)))

/-- A [1, 128, 128] stack's one matrix, as the matrix unit takes it. -/
theorem k2_pay4_at (v26 : Vec Ideal S1x128x128 .f32) (k q : Fin 128) :
    k2_pay4 (F := Ideal) v26 (ix2 k q) = mat3 v26 0 k q := by
  unfold k2_pay4
  exact trunc_at _ _ _ _ (shapeCast_1ab_ab_apply v26 _ k q)

/-- A [1, 128] stack's one bias. -/
theorem k2_pay5_at (v29 : Vec Ideal S1x128 .f32) (q : Fin 128) : k2_pay5 (F := Ideal) v29 (ix1 q) = row v29 0 q := by
  unfold k2_pay5
  exact shapeCast_1a_a_apply v29 _ q

/-- The first product of the residual layer before the skip connection. -/
theorem k2_pay6_at (v0 : Vec Ideal S4000x64 .f32) (v2 : Vec Ideal S4000x128 .f32) (v5 : Vec Ideal S128x128 .f32)
    (v8 : Vec Ideal S128 .f32) (v14 : Vec Ideal S64x128 .f32) (v21 : Vec Ideal S1x128x128 .f32) (r : Fin 4000)
    (q : Fin 128) :
    k2_pay6 (F := Ideal) v0 v2 v5 v8 v14 v21 (ix2 r q)
      = lin (fun k => act (aff (row v2 r) (mat v5) (vec v8)) k + act (lin (row v0 r) (mat v14)) k) (mat3 v21 0) q := by
  unfold k2_pay6
  exact mm_row none _ _ r q _ _ (fun k => trunc_at _ _ _ _ (k2_pay3_at v0 v2 v5 v8 v14 r k))
    (fun k => trunc_at _ _ _ _ (shapeCast_1ab_ab_apply v21 _ k q))

/-- A [1, 128] stack's one bias laid along the rows. -/
theorem k2_pay7_at (v24 : Vec Ideal S1x128 .f32) (r : Fin 4000) (q : Fin 128) :
    k2_pay7 (F := Ideal) v24 (ix2 r q) = row v24 0 q := by
  unfold k2_pay7
  exact bias_at _ _ _ r q _ (shapeCast_1a_a_apply v24 _ q)

/-- The rest of the residual layer before the skip, the dense layer after it, and the skip connection: from the row e
    of the two branches, its first product e·W₁ and the layer's other weights, silu(res(e)·W_lin + b_lin) + x. -/
theorem k2_pay8_at (v2 : Vec Ideal S4000x128 .f32) (v20 : FVec Ideal S4000x128 .f32) (v28 : FVec Ideal S128x128 .bf16)
    (v30 : FVec Ideal S128 .f32) (v32 v34 : FVec Ideal S4000x128 .f32) (v46 : Vec Ideal S128x128 .f32)
    (v48 : Vec Ideal S128 .f32) (r : Fin 4000) (x e b1 b2 : Fin 128 → EReal) (W1 W2 : Fin 128 → Fin 128 → EReal)
    (h2 : ∀ q, v2 (ix2 r q) = x q) (h20 : ∀ q, v20 (ix2 r q) = e q) (h28 : ∀ k q, v28 (ix2 k q) = W2 k q)
    (h30 : ∀ q, v30 (ix1 q) = b2 q) (h32 : ∀ q, v32 (ix2 r q) = lin e W1 q) (h34 : ∀ q, v34 (ix2 r q) = b1 q)
    (q : Fin 128) :
    k2_pay8 (F := Ideal) v2 v20 v28 v30 v32 v34 v46 v48 (ix2 r q)
      = act (aff (res e W1 b1 W2 b2) (mat v46) (vec v48)) q + x q := by
  unfold k2_pay8
  exact add_at _ _ _ _ _
    (silu_at _ _ _ (add_at _ _ _ _ _
      (mm_row none _ _ r q _ _
        (fun k => trunc_at _ _ _ _ (add_at _ _ _ _ _ (h20 k)
          (silu_at _ _ _ (add_at _ _ _ _ _
            (mm_row none _ _ r k _ _
              (fun j => trunc_at _ _ _ _ (silu_at _ _ _ (add_at _ _ _ _ _ (h32 j) (h34 j)))) (fun j => h28 j k))
            (bias_at v30 _ _ r k _ (h30 k))))))
        (fun _ => rfl))
      (bias_at v48 _ _ r q _ rfl)))
    (h2 q)

/-- The first residual layer after the skip, up to its second product. -/
theorem k2_pay9_at (v2 : Vec Ideal S4000x128 .f32) (v20 : FVec Ideal S4000x128 .f32) (v28 : FVec Ideal S128x128 .bf16)
    (v30 : FVec Ideal S128 .f32) (v32 v34 : FVec Ideal S4000x128 .f32) (v46 : Vec Ideal S128x128 .f32)
    (v48 : Vec Ideal S128 .f32) (v57 : Vec Ideal S1x128x128 .f32) (v60 : Vec Ideal S1x128 .f32)
    (v62 : Vec Ideal S1x128x128 .f32) (r : Fin 4000) (x e b1 b2 : Fin 128 → EReal) (W1 W2 : Fin 128 → Fin 128 → EReal)
    (h2 : ∀ q, v2 (ix2 r q) = x q) (h20 : ∀ q, v20 (ix2 r q) = e q) (h28 : ∀ k q, v28 (ix2 k q) = W2 k q)
    (h30 : ∀ q, v30 (ix1 q) = b2 q) (h32 : ∀ q, v32 (ix2 r q) = lin e W1 q) (h34 : ∀ q, v34 (ix2 r q) = b1 q)
    (A1 A2 : Fin 128 → Fin 128 → EReal) (a1 : Fin 128 → EReal)
    (h57 : ∀ k q, v57 (ix3 (0 : Fin 1) k q) = A1 k q) (h60 : ∀ q, v60 (ix2 (0 : Fin 1) q) = a1 q)
    (h62 : ∀ k q, v62 (ix3 (0 : Fin 1) k q) = A2 k q) (q : Fin 128) :
    k2_pay9 (F := Ideal) v2 v20 v28 v30 v32 v34 v46 v48 v57 v60 v62 (ix2 r q)
      = lin (act (aff (fun k => act (aff (res e W1 b1 W2 b2) (mat v46) (vec v48)) k + x k) A1 a1)) A2 q := by
  unfold k2_pay9
  exact mm_row none _ _ r q _ _
    (fun k => trunc_at _ _ _ _ (silu_at _ _ _ (add_at _ _ _ _ _
      (mm_row none _ _ r k _ _
        (fun j => trunc_at _ _ _ _
          (k2_pay8_at v2 v20 v28 v30 v32 v34 v46 v48 r x e b1 b2 W1 W2 h2 h20 h28 h30 h32 h34 j))
        (fun j => trunc_at _ _ _ _ ((shapeCast_1ab_ab_apply v57 _ j k).trans (h57 j k))))
      (bias_at _ _ _ r k _ ((shapeCast_1a_a_apply v60 _ k).trans (h60 k))))))
    (fun k => trunc_at _ _ _ _ ((shapeCast_1ab_ab_apply v62 _ k q).trans (h62 k q)))

/-- That layer's second bias laid along the rows. -/
theorem k2_pay10_at (v65 : Vec Ideal S1x128 .f32) (r : Fin 4000) (a2 : Fin 128 → EReal)
    (h65 : ∀ q, v65 (ix2 (0 : Fin 1) q) = a2 q) (q : Fin 128) : k2_pay10 (F := Ideal) v65 (ix2 r q) = a2 q := by
  unfold k2_pay10
  exact bias_at _ _ _ r q _ ((shapeCast_1a_a_apply v65 _ q).trans (h65 q))

/-- The end of the first residual layer after the skip and the whole second one: the first output. -/
theorem k2_pay1_at (v56 v75 v77 : FVec Ideal S4000x128 .f32) (v82 : Vec Ideal S1x128x128 .f32) (v85 : Vec Ideal S1x128 .f32)
    (v87 : Vec Ideal S1x128x128 .f32) (v90 : Vec Ideal S1x128 .f32) (r : Fin 4000) (e : Fin 128 → EReal)
    (A1 : Fin 128 → Fin 128 → EReal) (a1 : Fin 128 → EReal) (A2 : Fin 128 → Fin 128 → EReal) (a2 : Fin 128 → EReal)
    (C1 : Fin 128 → Fin 128 → EReal) (c1 : Fin 128 → EReal) (C2 : Fin 128 → Fin 128 → EReal) (c2 : Fin 128 → EReal)
    (h56 : ∀ q, v56 (ix2 r q) = e q) (h75 : ∀ q, v75 (ix2 r q) = lin (act (aff e A1 a1)) A2 q)
    (h77 : ∀ q, v77 (ix2 r q) = a2 q)
    (h82 : ∀ k q, v82 (ix3 (0 : Fin 1) k q) = C1 k q) (h85 : ∀ q, v85 (ix2 (0 : Fin 1) q) = c1 q)
    (h87 : ∀ k q, v87 (ix3 (0 : Fin 1) k q) = C2 k q) (h90 : ∀ q, v90 (ix2 (0 : Fin 1) q) = c2 q) (q : Fin 128) :
    k2_pay1 (F := Ideal) v56 v75 v77 v82 v85 v87 v90 (ix2 r q) = res (res e A1 a1 A2 a2) C1 c1 C2 c2 q := by
  have h81 : ∀ k, addf v56 (mulf (addf v75 v77) (logistic (addf v75 v77))) (ix2 r k) = res e A1 a1 A2 a2 k := fun k =>
    add_at _ _ _ _ _ (h56 k) (silu_at _ _ _ (add_at _ _ _ _ _ (h75 k) (h77 k)))
  unfold k2_pay1
  exact add_at _ _ _ _ _ (h81 q) (silu_at _ _ _ (add_at _ _ _ _ _
    (mm_row none _ _ r q _ _
      (fun k => trunc_at _ _ _ _ (silu_at _ _ _ (add_at _ _ _ _ _
        (mm_row none _ _ r k _ _ (fun j => trunc_at _ _ _ _ (h81 j))
          (fun j => trunc_at _ _ _ _ ((shapeCast_1ab_ab_apply v82 _ j k).trans (h82 j k))))
        (bias_at _ _ _ r k _ ((shapeCast_1a_a_apply v85 _ k).trans (h85 k))))))
      (fun k => trunc_at _ _ _ _ ((shapeCast_1ab_ab_apply v87 _ k q).trans (h87 k q))))
    (bias_at _ _ _ r q _ ((shapeCast_1a_a_apply v90 _ q).trans (h90 q)))))

/-- The second output: the first one times rbf·W_rbf. -/
theorem k2_pay2_at (v3 : Vec Ideal S4000x6 .f32) (v56 v75 v77 : FVec Ideal S4000x128 .f32) (v82 : Vec Ideal S1x128x128 .f32)
    (v85 : Vec Ideal S1x128 .f32) (v87 : Vec Ideal S1x128x128 .f32) (v90 : Vec Ideal S1x128 .f32)
    (v107 : Vec Ideal S6x128 .f32)
    (r : Fin 4000) (q : Fin 128) (y : EReal) (h : k2_pay1 (F := Ideal) v56 v75 v77 v82 v85 v87 v90 (ix2 r q) = y) :
    k2_pay2 (F := Ideal) v3 v56 v75 v77 v82 v85 v87 v90 v107 (ix2 r q) = lin (row v3 r) (mat v107) q * y := by
  unfold k2_pay2
  exact mul_at _ _ _ _ _ (mm_row none _ _ r q _ _ (fun _ => rfl) (fun _ => rfl)) h

/-! ### One slot of a stack of two -/

/-- Slot 0 of a [2, 128, 128] stack, loaded as a [1, 128, 128] array. -/
theorem ld_r2_8 (X : Vec Ideal S2x128x128 .f32) (j k : Fin 128) :
    View.ld X r2_8 (ix3 (0 : Fin 1) j k) = X (ix3 (0 : Fin 2) j k) :=
  congrArg X (funext fun a => Fin.ext (by
    match a with
    | ⟨0, _⟩ => rfl
    | ⟨1, _⟩ => show 0 + 1 * j.val = j.val; omega
    | ⟨2, _⟩ => show 0 + 1 * k.val = k.val; omega))

/-- Slot 1 of a [2, 128, 128] stack. -/
theorem ld_r2_10 (X : Vec Ideal S2x128x128 .f32) (j k : Fin 128) :
    View.ld X r2_10 (ix3 (0 : Fin 1) j k) = X (ix3 (1 : Fin 2) j k) :=
  congrArg X (funext fun a => Fin.ext (by
    match a with
    | ⟨0, _⟩ => rfl
    | ⟨1, _⟩ => show 0 + 1 * j.val = j.val; omega
    | ⟨2, _⟩ => show 0 + 1 * k.val = k.val; omega))

/-- Slot 0 of a [2, 128] stack, loaded as a [1, 128] array. -/
theorem ld_r2_9 (X : Vec Ideal S2x128 .f32) (k : Fin 128) :
    View.ld X r2_9 (ix2 (0 : Fin 1) k) = X (ix2 (0 : Fin 2) k) :=
  congrArg X (funext fun a => Fin.ext (by
    match a with
    | ⟨0, _⟩ => rfl
    | ⟨1, _⟩ => show 0 + 1 * k.val = k.val; omega))

/-- Slot 1 of a [2, 128] stack. -/
theorem ld_r2_11 (X : Vec Ideal S2x128 .f32) (k : Fin 128) :
    View.ld X r2_11 (ix2 (0 : Fin 1) k) = X (ix2 (1 : Fin 2) k) :=
  congrArg X (funext fun a => Fin.ext (by
    match a with
    | ⟨0, _⟩ => rfl
    | ⟨1, _⟩ => show 0 + 1 * k.val = k.val; omega))

/-! ### The two outputs -/

/-- The pieces put together: the first output's stored value at (r, q) is row r of the update stage. -/
theorem e1_rows (x0 : Vec Ideal S4000x64 .f32) (x1 : Vec Ideal S4000x128 .f32) (x3 : Vec Ideal S128x128 .f32)
    (x4 : Vec Ideal S128 .f32) (x5 : Vec Ideal S64x128 .f32) (x6 : Vec Ideal S1x128x128 .f32) (x7 : Vec Ideal S1x128 .f32)
    (x8 : Vec Ideal S1x128x128 .f32) (x9 : Vec Ideal S1x128 .f32) (x10 : Vec Ideal S128x128 .f32) (x11 : Vec Ideal S128 .f32)
    (x12 : Vec Ideal S2x128x128 .f32) (x13 : Vec Ideal S2x128 .f32) (x14 : Vec Ideal S2x128x128 .f32)
    (x15 : Vec Ideal S2x128 .f32) (r : Fin 4000) (q : Fin 128) :
    k2_pay1 (F := Ideal)
        (k2_pay8 x1 (k2_pay3 x0 x1 x3 x4 x5) (k2_pay4 x8) (k2_pay5 x9) (k2_pay6 x0 x1 x3 x4 x5 x6) (k2_pay7 x7) x10 x11)
        (k2_pay9 x1 (k2_pay3 x0 x1 x3 x4 x5) (k2_pay4 x8) (k2_pay5 x9) (k2_pay6 x0 x1 x3 x4 x5 x6) (k2_pay7 x7) x10 x11
          (View.ld x12 r2_8) (View.ld x13 r2_9) (View.ld x14 r2_8))
        (k2_pay10 (View.ld x15 r2_9)) (View.ld x12 r2_10) (View.ld x13 r2_11) (View.ld x14 r2_10) (View.ld x15 r2_11)
        (ix2 r q)
      = e1At x0 x1 x3 x4 x5 x6 x7 x8 x9 x10 x11 x12 x13 x14 x15 r q :=
  k2_pay1_at _ _ _ _ _ _ _ r
    (fun q => act (aff (res (fun q => act (aff (row x1 r) (mat x3) (vec x4)) q + act (lin (row x0 r) (mat x5)) q)
      (mat3 x6 0) (row x7 0) (mat3 x8 0) (row x9 0)) (mat x10) (vec x11)) q + row x1 r q)
    (mat3 x12 0) (row x13 0) (mat3 x14 0) (row x15 0) (mat3 x12 1) (row x13 1) (mat3 x14 1) (row x15 1)
    (k2_pay8_at x1 _ _ _ _ _ x10 x11 r (row x1 r)
      (fun q => act (aff (row x1 r) (mat x3) (vec x4)) q + act (lin (row x0 r) (mat x5)) q)
      (row x7 0) (row x9 0) (mat3 x6 0) (mat3 x8 0) (fun _ => rfl) (k2_pay3_at x0 x1 x3 x4 x5 r) (k2_pay4_at x8)
      (k2_pay5_at x9) (k2_pay6_at x0 x1 x3 x4 x5 x6 r) (k2_pay7_at x7 r))
    (k2_pay9_at x1 _ _ _ _ _ x10 x11 _ _ _ r (row x1 r)
      (fun q => act (aff (row x1 r) (mat x3) (vec x4)) q + act (lin (row x0 r) (mat x5)) q)
      (row x7 0) (row x9 0) (mat3 x6 0) (mat3 x8 0) (fun _ => rfl) (k2_pay3_at x0 x1 x3 x4 x5 r) (k2_pay4_at x8)
      (k2_pay5_at x9) (k2_pay6_at x0 x1 x3 x4 x5 x6 r) (k2_pay7_at x7 r)
      (mat3 x12 0) (mat3 x14 0) (row x13 0) (ld_r2_8 x12) (ld_r2_9 x13) (ld_r2_8 x14))
    (k2_pay10_at _ r (row x15 0) (ld_r2_9 x15))
    (ld_r2_10 x12) (ld_r2_11 x13) (ld_r2_10 x14) (ld_r2_11 x15) q

/-- What the update body leaves in its first output block is the first output of the update stage of its input
    blocks. -/
theorem out2_17_eq (x0 : Vec Ideal S4000x64 .f32) (x1 : Vec Ideal S4000x128 .f32) (x2 : Vec Ideal S4000x6 .f32)
    (x3 : Vec Ideal S128x128 .f32) (x4 : Vec Ideal S128 .f32) (x5 : Vec Ideal S64x128 .f32) (x6 : Vec Ideal S1x128x128 .f32)
    (x7 : Vec Ideal S1x128 .f32) (x8 : Vec Ideal S1x128x128 .f32) (x9 : Vec Ideal S1x128 .f32)
    (x10 : Vec Ideal S128x128 .f32) (x11 : Vec Ideal S128 .f32) (x12 : Vec Ideal S2x128x128 .f32) (x13 : Vec Ideal S2x128 .f32)
    (x14 : Vec Ideal S2x128x128 .f32) (x15 : Vec Ideal S2x128 .f32) (x16 : Vec Ideal S6x128 .f32) :
    out2_17 (F := Ideal) x0 x1 x2 x3 x4 x5 x6 x7 x8 x9 x10 x11 x12 x13 x14 x15 x16
      = E1 (R := 4000) x0 x1 x3 x4 x5 x6 x7 x8 x9 x10 x11 x12 x13 x14 x15 := by
  unfold out2_17
  rw [View.canon_unit_zero hz2]
  simp only [View.ld_unit_zero (S := S4000x64) hz2, View.ld_unit_zero (S := S4000x128) hz2,
    View.ld_unit_zero (S := S128x128) hz2, View.ld_unit_zero (S := S128) hz1, View.ld_unit_zero (S := S64x128) hz2,
    View.ld_unit_zero (S := S1x128x128) hz3, View.ld_unit_zero (S := S1x128) hz2]
  funext i
  obtain ⟨p, q, rfl⟩ : ∃ (p : Fin 4000) (q : Fin 128), i = ix2 p q := ⟨i 0, i 1, eq_ix2 i⟩
  exact e1_rows x0 x1 x3 x4 x5 x6 x7 x8 x9 x10 x11 x12 x13 x14 x15 p q

/-- What the update body leaves in its second output block is the second output of the update stage of its input
    blocks. -/
theorem out2_18_eq (x0 : Vec Ideal S4000x64 .f32) (x1 : Vec Ideal S4000x128 .f32) (x2 : Vec Ideal S4000x6 .f32)
    (x3 : Vec Ideal S128x128 .f32) (x4 : Vec Ideal S128 .f32) (x5 : Vec Ideal S64x128 .f32) (x6 : Vec Ideal S1x128x128 .f32)
    (x7 : Vec Ideal S1x128 .f32) (x8 : Vec Ideal S1x128x128 .f32) (x9 : Vec Ideal S1x128 .f32)
    (x10 : Vec Ideal S128x128 .f32) (x11 : Vec Ideal S128 .f32) (x12 : Vec Ideal S2x128x128 .f32) (x13 : Vec Ideal S2x128 .f32)
    (x14 : Vec Ideal S2x128x128 .f32) (x15 : Vec Ideal S2x128 .f32) (x16 : Vec Ideal S6x128 .f32) :
    out2_18 (F := Ideal) x0 x1 x2 x3 x4 x5 x6 x7 x8 x9 x10 x11 x12 x13 x14 x15 x16
      = E2 (R := 4000) x0 x1 x2 x3 x4 x5 x6 x7 x8 x9 x10 x11 x12 x13 x14 x15 x16 := by
  unfold out2_18
  rw [View.canon_unit_zero hz2]
  simp only [View.ld_unit_zero (S := S4000x64) hz2, View.ld_unit_zero (S := S4000x128) hz2,
    View.ld_unit_zero (S := S4000x6) hz2, View.ld_unit_zero (S := S128x128) hz2, View.ld_unit_zero (S := S128) hz1,
    View.ld_unit_zero (S := S64x128) hz2, View.ld_unit_zero (S := S1x128x128) hz3, View.ld_unit_zero (S := S1x128) hz2,
    View.ld_unit_zero (S := S6x128) hz2]
  funext i
  obtain ⟨p, q, rfl⟩ : ∃ (p : Fin 4000) (q : Fin 128), i = ix2 p q := ⟨i 0, i 1, eq_ix2 i⟩
  exact k2_pay2_at x2 _ _ _ _ _ _ _ x16 p q _ (e1_rows x0 x1 x3 x4 x5 x6 x7 x8 x9 x10 x11 x12 x13 x14 x15 p q)

end Cert.Sphere.Ker

end
-- ==== Proof.SpecRows.lean ====
/-
  Row-locality of the dense stages: an entry of a stage depends on ONE row of each row-indexed input.  So if row r of
  a block of R rows holds row p of an array of R' rows (for every row-indexed input), and the weights are the same,
  then entry (r, q) of the stage of the block is entry (p, q) of the stage of the whole array.
-/
import proofs.«178192_j4879082848306_2_alg».proof.Proof.Spec

noncomputable section

namespace Cert.Sphere

open Idealize.ShloMosaic Idealize.ShloMosaic.ValueIdx

theorem XKJ_rows {R R' : ℕ} (x1 : (⟨2, ![R, 128]⟩ : Shape).Idx → EReal) (rbf0 : (⟨2, ![R, 6]⟩ : Shape).Idx → EReal)
    (X1 : (⟨2, ![R', 128]⟩ : Shape).Idx → EReal) (RBF0 : (⟨2, ![R', 6]⟩ : Shape).Idx → EReal)
    (Wkj Wkj' : (⟨2, ![128, 128]⟩ : Shape).Idx → EReal) (bkj bkj' : (⟨1, ![128]⟩ : Shape).Idx → EReal)
    (W1 W1' : (⟨2, ![6, 8]⟩ : Shape).Idx → EReal) (W2 W2' : (⟨2, ![8, 128]⟩ : Shape).Idx → EReal)
    (Wd Wd' : (⟨2, ![128, 64]⟩ : Shape).Idx → EReal)
    (j : (⟨2, ![R, 64]⟩ : Shape).Idx) (i : (⟨2, ![R', 64]⟩ : Shape).Idx) (h1 : j 1 = i 1)
    (hx : ∀ k, x1 (ix2 (j 0) k) = X1 (ix2 (i 0) k)) (hr : ∀ k, rbf0 (ix2 (j 0) k) = RBF0 (ix2 (i 0) k))
    (e1 : Wkj = Wkj') (e2 : bkj = bkj') (e3 : W1 = W1') (e4 : W2 = W2') (e5 : Wd = Wd') :
    XKJ x1 rbf0 Wkj bkj W1 W2 Wd j = XKJ X1 RBF0 Wkj' bkj' W1' W2' Wd' i := by
  subst e1 e2 e3 e4 e5
  have a : row x1 (j 0) = row X1 (i 0) := funext hx
  have b : row rbf0 (j 0) = row RBF0 (i 0) := funext hr
  unfold XKJ
  rw [a, b, h1]

theorem BP_rows {R R' : ℕ} (s : (⟨2, ![R, 42]⟩ : Shape).Idx → EReal) (t : (⟨2, ![R, 294]⟩ : Shape).Idx → EReal)
    (S : (⟨2, ![R', 42]⟩ : Shape).Idx → EReal) (T : (⟨2, ![R', 294]⟩ : Shape).Idx → EReal)
    (Ws1 Ws1' : (⟨2, ![42, 8]⟩ : Shape).Idx → EReal) (Ws2 Ws2' : (⟨2, ![8, 64]⟩ : Shape).Idx → EReal)
    (Wt1 Wt1' : (⟨2, ![294, 8]⟩ : Shape).Idx → EReal) (Wt2 Wt2' : (⟨2, ![8, 64]⟩ : Shape).Idx → EReal)
    (j : (⟨2, ![R, 64]⟩ : Shape).Idx) (i : (⟨2, ![R', 64]⟩ : Shape).Idx) (h1 : j 1 = i 1)
    (hs : ∀ k, s (ix2 (j 0) k) = S (ix2 (i 0) k)) (ht : ∀ k, t (ix2 (j 0) k) = T (ix2 (i 0) k))
    (e1 : Ws1 = Ws1') (e2 : Ws2 = Ws2') (e3 : Wt1 = Wt1') (e4 : Wt2 = Wt2') :
    BP s t Ws1 Ws2 Wt1 Wt2 j = BP S T Ws1' Ws2' Wt1' Wt2' i := by
  subst e1 e2 e3 e4
  have a : row s (j 0) = row S (i 0) := funext hs
  have b : row t (j 0) = row T (i 0) := funext ht
  unfold BP
  rw [a, b, h1]

theorem e1At_rows {R R' : ℕ} (agg : (⟨2, ![R, 64]⟩ : Shape).Idx → EReal) (x1 : (⟨2, ![R, 128]⟩ : Shape).Idx → EReal)
    (AGG : (⟨2, ![R', 64]⟩ : Shape).Idx → EReal) (X1 : (⟨2, ![R', 128]⟩ : Shape).Idx → EReal)
    (Wji Wji' : (⟨2, ![128, 128]⟩ : Shape).Idx → EReal) (bji bji' : (⟨1, ![128]⟩ : Shape).Idx → EReal)
    (Wup Wup' : (⟨2, ![64, 128]⟩ : Shape).Idx → EReal)
    (bW1 bW1' : (⟨3, ![1, 128, 128]⟩ : Shape).Idx → EReal) (bb1 bb1' : (⟨2, ![1, 128]⟩ : Shape).Idx → EReal)
    (bW2 bW2' : (⟨3, ![1, 128, 128]⟩ : Shape).Idx → EReal) (bb2 bb2' : (⟨2, ![1, 128]⟩ : Shape).Idx → EReal)
    (Wlin Wlin' : (⟨2, ![128, 128]⟩ : Shape).Idx → EReal) (blin blin' : (⟨1, ![128]⟩ : Shape).Idx → EReal)
    (aW1 aW1' : (⟨3, ![2, 128, 128]⟩ : Shape).Idx → EReal) (ab1 ab1' : (⟨2, ![2, 128]⟩ : Shape).Idx → EReal)
    (aW2 aW2' : (⟨3, ![2, 128, 128]⟩ : Shape).Idx → EReal) (ab2 ab2' : (⟨2, ![2, 128]⟩ : Shape).Idx → EReal)
    (r : Fin R) (p : Fin R')
    (ha : ∀ k, agg (ix2 r k) = AGG (ix2 p k)) (hx : ∀ k, x1 (ix2 r k) = X1 (ix2 p k))
    (e1 : Wji = Wji') (e2 : bji = bji') (e3 : Wup = Wup') (e4 : bW1 = bW1') (e5 : bb1 = bb1') (e6 : bW2 = bW2')
    (e7 : bb2 = bb2') (e8 : Wlin = Wlin') (e9 : blin = blin') (e10 : aW1 = aW1') (e11 : ab1 = ab1') (e12 : aW2 = aW2')
    (e13 : ab2 = ab2') :
    e1At agg x1 Wji bji Wup bW1 bb1 bW2 bb2 Wlin blin aW1 ab1 aW2 ab2 r
      = e1At AGG X1 Wji' bji' Wup' bW1' bb1' bW2' bb2' Wlin' blin' aW1' ab1' aW2' ab2' p := by
  subst e1 e2 e3 e4 e5 e6 e7 e8 e9 e10 e11 e12 e13
  have a : row agg r = row AGG p := funext ha
  have b : row x1 r = row X1 p := funext hx
  unfold e1At
  rw [a, b]

theorem E1_rows {R R' : ℕ} (agg : (⟨2, ![R, 64]⟩ : Shape).Idx → EReal) (x1 : (⟨2, ![R, 128]⟩ : Shape).Idx → EReal)
    (AGG : (⟨2, ![R', 64]⟩ : Shape).Idx → EReal) (X1 : (⟨2, ![R', 128]⟩ : Shape).Idx → EReal)
    (Wji Wji' : (⟨2, ![128, 128]⟩ : Shape).Idx → EReal) (bji bji' : (⟨1, ![128]⟩ : Shape).Idx → EReal)
    (Wup Wup' : (⟨2, ![64, 128]⟩ : Shape).Idx → EReal)
    (bW1 bW1' : (⟨3, ![1, 128, 128]⟩ : Shape).Idx → EReal) (bb1 bb1' : (⟨2, ![1, 128]⟩ : Shape).Idx → EReal)
    (bW2 bW2' : (⟨3, ![1, 128, 128]⟩ : Shape).Idx → EReal) (bb2 bb2' : (⟨2, ![1, 128]⟩ : Shape).Idx → EReal)
    (Wlin Wlin' : (⟨2, ![128, 128]⟩ : Shape).Idx → EReal) (blin blin' : (⟨1, ![128]⟩ : Shape).Idx → EReal)
    (aW1 aW1' : (⟨3, ![2, 128, 128]⟩ : Shape).Idx → EReal) (ab1 ab1' : (⟨2, ![2, 128]⟩ : Shape).Idx → EReal)
    (aW2 aW2' : (⟨3, ![2, 128, 128]⟩ : Shape).Idx → EReal) (ab2 ab2' : (⟨2, ![2, 128]⟩ : Shape).Idx → EReal)
    (j : (⟨2, ![R, 128]⟩ : Shape).Idx) (i : (⟨2, ![R', 128]⟩ : Shape).Idx) (h1 : j 1 = i 1)
    (ha : ∀ k, agg (ix2 (j 0) k) = AGG (ix2 (i 0) k)) (hx : ∀ k, x1 (ix2 (j 0) k) = X1 (ix2 (i 0) k))
    (e1 : Wji = Wji') (e2 : bji = bji') (e3 : Wup = Wup') (e4 : bW1 = bW1') (e5 : bb1 = bb1') (e6 : bW2 = bW2')
    (e7 : bb2 = bb2') (e8 : Wlin = Wlin') (e9 : blin = blin') (e10 : aW1 = aW1') (e11 : ab1 = ab1') (e12 : aW2 = aW2')
    (e13 : ab2 = ab2') :
    E1 agg x1 Wji bji Wup bW1 bb1 bW2 bb2 Wlin blin aW1 ab1 aW2 ab2 j
      = E1 AGG X1 Wji' bji' Wup' bW1' bb1' bW2' bb2' Wlin' blin' aW1' ab1' aW2' ab2' i := by
  unfold E1
  rw [h1, e1At_rows agg x1 AGG X1 Wji Wji' bji bji' Wup Wup' bW1 bW1' bb1 bb1' bW2 bW2' bb2 bb2' Wlin Wlin' blin blin'
    aW1 aW1' ab1 ab1' aW2 aW2' ab2 ab2' (j 0) (i 0) ha hx e1 e2 e3 e4 e5 e6 e7 e8 e9 e10 e11 e12 e13]

theorem E2_rows {R R' : ℕ} (agg : (⟨2, ![R, 64]⟩ : Shape).Idx → EReal) (x1 : (⟨2, ![R, 128]⟩ : Shape).Idx → EReal)
    (rbf0 : (⟨2, ![R, 6]⟩ : Shape).Idx → EReal)
    (AGG : (⟨2, ![R', 64]⟩ : Shape).Idx → EReal) (X1 : (⟨2, ![R', 128]⟩ : Shape).Idx → EReal)
    (RBF0 : (⟨2, ![R', 6]⟩ : Shape).Idx → EReal)
    (Wji Wji' : (⟨2, ![128, 128]⟩ : Shape).Idx → EReal) (bji bji' : (⟨1, ![128]⟩ : Shape).Idx → EReal)
    (Wup Wup' : (⟨2, ![64, 128]⟩ : Shape).Idx → EReal)
    (bW1 bW1' : (⟨3, ![1, 128, 128]⟩ : Shape).Idx → EReal) (bb1 bb1' : (⟨2, ![1, 128]⟩ : Shape).Idx → EReal)
    (bW2 bW2' : (⟨3, ![1, 128, 128]⟩ : Shape).Idx → EReal) (bb2 bb2' : (⟨2, ![1, 128]⟩ : Shape).Idx → EReal)
    (Wlin Wlin' : (⟨2, ![128, 128]⟩ : Shape).Idx → EReal) (blin blin' : (⟨1, ![128]⟩ : Shape).Idx → EReal)
    (aW1 aW1' : (⟨3, ![2, 128, 128]⟩ : Shape).Idx → EReal) (ab1 ab1' : (⟨2, ![2, 128]⟩ : Shape).Idx → EReal)
    (aW2 aW2' : (⟨3, ![2, 128, 128]⟩ : Shape).Idx → EReal) (ab2 ab2' : (⟨2, ![2, 128]⟩ : Shape).Idx → EReal)
    (Wrbf Wrbf' : (⟨2, ![6, 128]⟩ : Shape).Idx → EReal)
    (j : (⟨2, ![R, 128]⟩ : Shape).Idx) (i : (⟨2, ![R', 128]⟩ : Shape).Idx) (h1 : j 1 = i 1)
    (ha : ∀ k, agg (ix2 (j 0) k) = AGG (ix2 (i 0) k)) (hx : ∀ k, x1 (ix2 (j 0) k) = X1 (ix2 (i 0) k))
    (hr : ∀ k, rbf0 (ix2 (j 0) k) = RBF0 (ix2 (i 0) k))
    (e1 : Wji = Wji') (e2 : bji = bji') (e3 : Wup = Wup') (e4 : bW1 = bW1') (e5 : bb1 = bb1') (e6 : bW2 = bW2')
    (e7 : bb2 = bb2') (e8 : Wlin = Wlin') (e9 : blin = blin') (e10 : aW1 = aW1') (e11 : ab1 = ab1') (e12 : aW2 = aW2')
    (e13 : ab2 = ab2') (e14 : Wrbf = Wrbf') :
    E2 agg x1 rbf0 Wji bji Wup bW1 bb1 bW2 bb2 Wlin blin aW1 ab1 aW2 ab2 Wrbf j
      = E2 AGG X1 RBF0 Wji' bji' Wup' bW1' bb1' bW2' bb2' Wlin' blin' aW1' ab1' aW2' ab2' Wrbf' i := by
  subst e14
  have b : row rbf0 (j 0) = row RBF0 (i 0) := funext hr
  unfold E2
  rw [h1, b, e1At_rows agg x1 AGG X1 Wji Wji' bji bji' Wup Wup' bW1 bW1' bb1 bb1' bW2 bW2' bb2 bb2' Wlin Wlin' blin blin'
    aW1 aW1' ab1 ab1' aW2 aW2' ab2 ab2' (j 0) (i 0) ha hx e1 e2 e3 e4 e5 e6 e7 e8 e9 e10 e11 e12 e13]

end Cert.Sphere

end
-- ==== Proof.Blocks0.lean ====
/-
  From blocks to the array, for the edge stage (region 0).  The region runs its body once per grid point t on blocks of 4000 rows:
  the row-indexed windows sit at block (t, 0), the weight windows at block 0, and point t writes back block (t, 0) of
  the output.  The body leaves in the output block the stage of its input blocks; a stage acts on one row at a time, and
  row r of block t of an input is row 4000·t + r of its array, so what point t writes back is block t of the stage of
  the WHOLE arrays.  The 25 blocks tile the 100000 rows (row p lies in block p / 4000), so the array ends
  holding that stage.
-/
import proofs.«178192_j4879082848306_2_alg».proof.Proof.Gen.KernelIdeal.Frame
import proofs.«178192_j4879082848306_2_alg».proof.Proof.SpecRows
import Idealize.ShloMosaic.Lib.Pipeline.Value
import Idealize.ShloMosaic.Lib.ValueIdx

set_option maxRecDepth 16384

noncomputable section

namespace Cert.Sphere.Blocks0

open Cert.KernelIdeal Cert.KernelIdeal.Gen Cert.Sphere
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the row-blocked windows sit at block (t, 0), the weights at block 0. -/
theorem idx0 : ∀ t : Fin cfg0.N,
    win0_0.index t (0 : Fin 2) = t.val ∧ win0_0.index t (1 : Fin 2) = 0 ∧
    win0_1.index t (0 : Fin 2) = t.val ∧ win0_1.index t (1 : Fin 2) = 0 ∧
    win0_2.index t (0 : Fin 2) = 0 ∧ win0_2.index t (1 : Fin 2) = 0 ∧
    win0_3.index t (0 : Fin 1) = 0 ∧
    win0_4.index t (0 : Fin 2) = 0 ∧ win0_4.index t (1 : Fin 2) = 0 ∧
    win0_5.index t (0 : Fin 2) = 0 ∧ win0_5.index t (1 : Fin 2) = 0 ∧
    win0_6.index t (0 : Fin 2) = 0 ∧ win0_6.index t (1 : Fin 2) = 0 ∧
    win0_7.index t (0 : Fin 2) = t.val ∧ win0_7.index t (1 : Fin 2) = 0 :=
  (by decide +kernel : ∀ t : Fin grid0.N, _)

theorem flushed0_7 (hout : ∀ x0 x1 x2 x3 x4 x5 x6, out0_7 (F := Ideal) x0 x1 x2 x3 x4 x5 x6 = XKJ (R := 4000) x0 x1 x2 x3 x4 x5 x6)
    (c : Dev nD) (t : Fin cfg0.N) :
    (dat0 V c).flushed 7 t = ((cfg0.win 7).blk t).view.read (Elt Ideal)
      (XKJ (R := 100000) (V c main_arg0) (V c main_arg1) (V c main_arg13) (V c main_arg14) (V c main_arg6) (V c main_arg7) (V c main_arg17)) := by
  show (cfg0.win 7).cut (grid0.coords t) ((dat0 V c).after 7 t) = _
  rw [after0_7, hout]
  obtain ⟨a0, a1, b0, b1, c0, c1, d0, e0, e1, f0, f1, g0, g1, h0, h1⟩ := idx0 t
  funext j
  show XKJ (R := 4000) (fun y => V c main_arg0 (((cfg0.win 0).blk t).view.emb y)) (fun y => V c main_arg1 (((cfg0.win 1).blk t).view.emb y))
      (fun y => V c main_arg13 (((cfg0.win 2).blk t).view.emb y)) (fun y => V c main_arg14 (((cfg0.win 3).blk t).view.emb y))
      (fun y => V c main_arg6 (((cfg0.win 4).blk t).view.emb y)) (fun y => V c main_arg7 (((cfg0.win 5).blk t).view.emb y))
      (fun y => V c main_arg17 (((cfg0.win 6).blk t).view.emb y)) j
    = XKJ (R := 100000) (V c main_arg0) (V c main_arg1) (V c main_arg13) (V c main_arg14) (V c main_arg6) (V c main_arg7) (V c main_arg17)
      (((cfg0.win 7).blk t).view.emb j)
  have hj0 : (j 0).val < 4000 := (j 0).isLt
  have hj1 : (j 1).val < 64 := (j 1).isLt
  refine XKJ_rows (R := 4000) (R' := 100000) _ _ _ _ _ _ _ _ _ _ _ _ _ _ j (((cfg0.win 7).blk t).view.emb j) ?_ ?_ ?_ ?_ ?_ ?_ ?_ ?_
  · apply Fin.ext
    show (j 1).val = win0_7.index t (1 : Fin 2) * 64 + 1 * (j 1).val
    omega
  · intro k
    refine congrArg (V c main_arg0) ?_
    funext a; apply Fin.ext
    match a with
    | ⟨0, _⟩ => show win0_0.index t (0 : Fin 2) * 4000 + 1 * (j 0).val = win0_7.index t (0 : Fin 2) * 4000 + 1 * (j 0).val; omega
    | ⟨1, _⟩ => show win0_0.index t (1 : Fin 2) * 128 + 1 * k.val = k.val; omega
  · intro k
    refine congrArg (V c main_arg1) ?_
    funext a; apply Fin.ext
    match a with
    | ⟨0, _⟩ => show win0_1.index t (0 : Fin 2) * 4000 + 1 * (j 0).val = win0_7.index t (0 : Fin 2) * 4000 + 1 * (j 0).val; omega
    | ⟨1, _⟩ => show win0_1.index t (1 : Fin 2) * 6 + 1 * k.val = k.val; omega
  · funext y; refine congrArg (V c main_arg13) ?_
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y; refine congrArg (V c main_arg14) ?_
    funext a; apply Fin.ext
    match a with
    | ⟨0, _⟩ => show win0_3.index t (0 : Fin 1) * 128 + 1 * (y 0).val = (y 0).val; omega
  · funext y; refine congrArg (V c main_arg6) ?_
    funext a; apply Fin.ext
    match a with
    | ⟨0, _⟩ => show win0_4.index t (0 : Fin 2) * 6 + 1 * (y 0).val = (y 0).val; omega
    | ⟨1, _⟩ => show win0_4.index t (1 : Fin 2) * 8 + 1 * (y 1).val = (y 1).val; omega
  · funext y; refine congrArg (V c main_arg7) ?_
    funext a; apply Fin.ext
    match a with
    | ⟨0, _⟩ => show win0_5.index t (0 : Fin 2) * 8 + 1 * (y 0).val = (y 0).val; omega
    | ⟨1, _⟩ => show win0_5.index t (1 : Fin 2) * 128 + 1 * (y 1).val = (y 1).val; omega
  · funext y; refine congrArg (V c main_arg17) ?_
    funext a; apply Fin.ext
    match a with
    | ⟨0, _⟩ => show win0_6.index t (0 : Fin 2) * 128 + 1 * (y 0).val = (y 0).val; omega
    | ⟨1, _⟩ => show win0_6.index t (1 : Fin 2) * 64 + 1 * (y 1).val = (y 1).val; omega

/-- An index of the output array is in point t's block iff each coordinate is in the block's range on its axis. -/
theorem mem_blk0_7 (t : Fin cfg0.N) (i : S100000x64.Idx) :
    i ∈ ((cfg0.win 7).blk t).view.set ↔ ∀ a : Fin 2, win0_7.index t a * S4000x64.size a ≤ (i a).val ∧ (i a).val < win0_7.index t a * S4000x64.size a + S4000x64.size a := by
  show i ∈ ((View.whole main_call0_v0).slice (win0_7.rect t)).set ↔ _
  rw [View.set_slice_whole, Rect.mem_set_unit]
  exact Iff.rfl

/-- Row r of the output array lies in the block of point r / 4000. -/
theorem cover0_7 (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 25 := N_0
  let t : Fin cfg0.N := ⟨(i 0).val / 4000, by omega⟩
  obtain ⟨-, -, -, -, -, -, -, -, -, -, -, -, -, h0, h1⟩ := idx0 t
  have ht : t.val = (i 0).val / 4000 := rfl
  refine ⟨t, flush0_7 t, ?_⟩
  rw [mem_blk0_7]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 64 ≤ (i 1).val ∧ (i 1).val < win0_7.index t (1 : Fin 2) * 64 + 64; omega

/-- The edge array after region 0: the edge stage of the whole argument arrays as the region finds them. -/
theorem final0_7 (hout : ∀ x0 x1 x2 x3 x4 x5 x6, out0_7 (F := Ideal) x0 x1 x2 x3 x4 x5 x6 = XKJ (R := 4000) x0 x1 x2 x3 x4 x5 x6)
    (c : Dev nD) :
    (dat0 V c).arrAt 7 cfg0.N
      = XKJ (R := 100000) (V c main_arg0) (V c main_arg1) (V c main_arg13) (V c main_arg14) (V c main_arg6) (V c main_arg7) (V c main_arg17) :=
  (dat0 V c).arrAt_eq_of_cover 7 _ (fun t _ => flushed0_7 V hout c t) cover0_7

end Cert.Sphere.Blocks0

end
-- ==== Proof.Blocks1.lean ====
/-
  From blocks to the array, for the triplet stage (region 1).  The region runs its body once per grid point t on blocks of 5000 rows:
  the row-indexed windows sit at block (t, 0), the weight windows at block 0, and point t writes back block (t, 0) of
  the output.  The body leaves in the output block the stage of its input blocks; a stage acts on one row at a time, and
  row r of block t of an input is row 5000·t + r of its array, so what point t writes back is block t of the stage of
  the WHOLE arrays.  The 100 blocks tile the 500000 rows (row p lies in block p / 5000), so the array ends
  holding that stage.
-/
import proofs.«178192_j4879082848306_2_alg».proof.Proof.Gen.KernelIdeal.Frame
import proofs.«178192_j4879082848306_2_alg».proof.Proof.SpecRows
import Idealize.ShloMosaic.Lib.Pipeline.Value
import Idealize.ShloMosaic.Lib.ValueIdx

set_option maxRecDepth 16384

noncomputable section

namespace Cert.Sphere.Blocks1

open Cert.KernelIdeal Cert.KernelIdeal.Gen Cert.Sphere
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the row-blocked windows sit at block (t, 0), the weights at block 0. -/
theorem idx1 : ∀ t : Fin cfg1.N,
    win1_0.index t (0 : Fin 2) = t.val ∧
    win1_0.index t (1 : Fin 2) = 0 ∧
    win1_1.index t (0 : Fin 2) = t.val ∧
    win1_1.index t (1 : Fin 2) = 0 ∧
    win1_2.index t (0 : Fin 2) = 0 ∧
    win1_2.index t (1 : Fin 2) = 0 ∧
    win1_3.index t (0 : Fin 2) = 0 ∧
    win1_3.index t (1 : Fin 2) = 0 ∧
    win1_4.index t (0 : Fin 2) = 0 ∧
    win1_4.index t (1 : Fin 2) = 0 ∧
    win1_5.index t (0 : Fin 2) = 0 ∧
    win1_5.index t (1 : Fin 2) = 0 ∧
    win1_6.index t (0 : Fin 2) = t.val ∧
    win1_6.index t (1 : Fin 2) = 0 :=
  (by decide +kernel : ∀ t : Fin grid1.N, _)

theorem flushed1_6 (hout6 : ∀ x0 x1 x2 x3 x4 x5, out1_6 (F := Ideal) x0 x1 x2 x3 x4 x5 = BP (R := 5000) x0 x1 x2 x3 x4 x5)
    (c : Dev nD) (t : Fin cfg1.N) :
    (dat1 V c).flushed 6 t = ((cfg1.win 6).blk t).view.read (Elt Ideal)
      (BP (R := 500000) (V c main_arg2) (V c main_arg3) (V c main_arg8) (V c main_arg9) (V c main_arg10) (V c main_arg11)) := by
  show (cfg1.win 6).cut (grid1.coords t) ((dat1 V c).after 6 t) = _
  rw [after1_6, hout6]
  obtain ⟨i0_0, i0_1, i1_0, i1_1, i2_0, i2_1, i3_0, i3_1, i4_0, i4_1, i5_0, i5_1, i6_0, i6_1⟩ := idx1 t
  funext j
  show BP (R := 5000) (fun y => V c main_arg2 (((cfg1.win 0).blk t).view.emb y))
      (fun y => V c main_arg3 (((cfg1.win 1).blk t).view.emb y))
      (fun y => V c main_arg8 (((cfg1.win 2).blk t).view.emb y))
      (fun y => V c main_arg9 (((cfg1.win 3).blk t).view.emb y))
      (fun y => V c main_arg10 (((cfg1.win 4).blk t).view.emb y))
      (fun y => V c main_arg11 (((cfg1.win 5).blk t).view.emb y)) j
    = BP (R := 500000) (V c main_arg2) (V c main_arg3) (V c main_arg8) (V c main_arg9) (V c main_arg10) (V c main_arg11)
      (((cfg1.win 6).blk t).view.emb j)
  have hj0 : (j 0).val < 5000 := (j 0).isLt
  have hj1 : (j 1).val < 64 := (j 1).isLt
  refine BP_rows (R := 5000) (R' := 500000) _ _ _ _ _ _ _ _ _ _ _ _ j (((cfg1.win 6).blk t).view.emb j) ?_ ?_ ?_ ?_ ?_ ?_ ?_
  · apply Fin.ext
    show (j 1).val = win1_6.index t (1 : Fin 2) * 64 + 1 * (j 1).val
    omega
  · intro k
    refine congrArg (V c main_arg2) ?_
    funext a; apply Fin.ext
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 42 + 1 * k.val = k.val; omega
  · intro k
    refine congrArg (V c main_arg3) ?_
    funext a; apply Fin.ext
    match a with
    | ⟨0, _⟩ => show win1_1.index t (0 : Fin 2) * 5000 + 1 * (j 0).val = win1_6.index t (0 : Fin 2) * 5000 + 1 * (j 0).val; omega
    | ⟨1, _⟩ => show win1_1.index t (1 : Fin 2) * 294 + 1 * k.val = k.val; omega
  · funext y; refine congrArg (V c main_arg8) ?_
    funext a; apply Fin.ext
    match a with
    | ⟨0, _⟩ => show win1_2.index t (0 : Fin 2) * 42 + 1 * (y 0).val = (y 0).val; omega
    | ⟨1, _⟩ => show win1_2.index t (1 : Fin 2) * 8 + 1 * (y 1).val = (y 1).val; omega
  · funext y; refine congrArg (V c main_arg9) ?_
    funext a; apply Fin.ext
    match a with
    | ⟨0, _⟩ => show win1_3.index t (0 : Fin 2) * 8 + 1 * (y 0).val = (y 0).val; omega
    | ⟨1, _⟩ => show win1_3.index t (1 : Fin 2) * 64 + 1 * (y 1).val = (y 1).val; omega
  · funext y; refine congrArg (V c main_arg10) ?_
    funext a; apply Fin.ext
    match a with
    | ⟨0, _⟩ => show win1_4.index t (0 : Fin 2) * 294 + 1 * (y 0).val = (y 0).val; omega
    | ⟨1, _⟩ => show win1_4.index t (1 : Fin 2) * 8 + 1 * (y 1).val = (y 1).val; omega
  · funext y; refine congrArg (V c main_arg11) ?_
    funext a; apply Fin.ext
    match a with
    | ⟨0, _⟩ => show win1_5.index t (0 : Fin 2) * 8 + 1 * (y 0).val = (y 0).val; omega
    | ⟨1, _⟩ => show win1_5.index t (1 : Fin 2) * 64 + 1 * (y 1).val = (y 1).val; omega

/-- An index of the output array is in point t's block iff each coordinate is in the block's range on its axis. -/
theorem mem_blk1_6 (t : Fin cfg1.N) (i : S500000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_call0_v1).slice (win1_6.rect t)).set ↔ _
  rw [View.set_slice_whole, Rect.mem_set_unit]
  exact Iff.rfl

/-- Row r of the output array lies in the block of point r / 5000. -/
theorem cover1_6 (i : S500000x64.Idx) : ∃ t : Fin cfg1.N, (cfg1.win 6).flush t = true ∧ i ∈ ((cfg1.win 6).blk t).view.set := by
  have hi0 : (i 0).val < 500000 := (i 0).isLt
  have hi1 : (i 1).val < 64 := (i 1).isLt
  have hN : cfg1.N = 100 := N_1
  let t : Fin cfg1.N := ⟨(i 0).val / 5000, by omega⟩
  obtain ⟨i0_0, i0_1, i1_0, i1_1, i2_0, i2_1, i3_0, i3_1, i4_0, i4_1, i5_0, i5_1, i6_0, i6_1⟩ := idx1 t
  have ht : t.val = (i 0).val / 5000 := rfl
  refine ⟨t, flush1_6 t, ?_⟩
  rw [mem_blk1_6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The per-triplet array after region 1: the triplet stage of the whole argument arrays as the region finds them. -/
theorem final1_6 (hout6 : ∀ x0 x1 x2 x3 x4 x5, out1_6 (F := Ideal) x0 x1 x2 x3 x4 x5 = BP (R := 5000) x0 x1 x2 x3 x4 x5)
    (c : Dev nD) :
    (dat1 V c).arrAt 6 cfg1.N
      = BP (R := 500000) (V c main_arg2) (V c main_arg3) (V c main_arg8) (V c main_arg9) (V c main_arg10) (V c main_arg11) :=
  (dat1 V c).arrAt_eq_of_cover 6 _ (fun t _ => flushed1_6 V hout6 c t) cover1_6

end Cert.Sphere.Blocks1

end
-- ==== Proof.Blocks2.lean ====
/-
  From blocks to the array, for the update stage and the second output (region 2).  The region runs its body once per grid point t on blocks of 4000 rows:
  the row-indexed windows sit at block (t, 0), the weight windows at block 0, and point t writes back block (t, 0) of
  the output.  The body leaves in the output block the stage of its input blocks; a stage acts on one row at a time, and
  row r of block t of an input is row 4000·t + r of its array, so what point t writes back is block t of the stage of
  the WHOLE arrays.  The 25 blocks tile the 100000 rows (row p lies in block p / 4000), so the array ends
  holding that stage.
-/
import proofs.«178192_j4879082848306_2_alg».proof.Proof.Gen.KernelIdeal.Frame
import proofs.«178192_j4879082848306_2_alg».proof.Proof.SpecRows
import Idealize.ShloMosaic.Lib.Pipeline.Value
import Idealize.ShloMosaic.Lib.ValueIdx

set_option maxRecDepth 16384

noncomputable section

namespace Cert.Sphere.Blocks2

open Cert.KernelIdeal Cert.KernelIdeal.Gen Cert.Sphere
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the row-blocked windows sit at block (t, 0), the weights at block 0. -/
theorem idx2 : ∀ t : Fin cfg2.N,
    win2_0.index t (0 : Fin 2) = t.val ∧
    win2_0.index t (1 : Fin 2) = 0 ∧
    win2_1.index t (0 : Fin 2) = t.val ∧
    win2_1.index t (1 : Fin 2) = 0 ∧
    win2_2.index t (0 : Fin 2) = t.val ∧
    win2_2.index t (1 : Fin 2) = 0 ∧
    win2_3.index t (0 : Fin 2) = 0 ∧
    win2_3.index t (1 : Fin 2) = 0 ∧
    win2_4.index t (0 : Fin 1) = 0 ∧
    win2_5.index t (0 : Fin 2) = 0 ∧
    win2_5.index t (1 : Fin 2) = 0 ∧
    win2_6.index t (0 : Fin 3) = 0 ∧
    win2_6.index t (1 : Fin 3) = 0 ∧
    win2_6.index t (2 : Fin 3) = 0 ∧
    win2_7.index t (0 : Fin 2) = 0 ∧
    win2_7.index t (1 : Fin 2) = 0 ∧
    win2_8.index t (0 : Fin 3) = 0 ∧
    win2_8.index t (1 : Fin 3) = 0 ∧
    win2_8.index t (2 : Fin 3) = 0 ∧
    win2_9.index t (0 : Fin 2) = 0 ∧
    win2_9.index t (1 : Fin 2) = 0 ∧
    win2_10.index t (0 : Fin 2) = 0 ∧
    win2_10.index t (1 : Fin 2) = 0 ∧
    win2_11.index t (0 : Fin 1) = 0 ∧
    win2_12.index t (0 : Fin 3) = 0 ∧
    win2_12.index t (1 : Fin 3) = 0 ∧
    win2_12.index t (2 : Fin 3) = 0 ∧
    win2_13.index t (0 : Fin 2) = 0 ∧
    win2_13.index t (1 : Fin 2) = 0 ∧
    win2_14.index t (0 : Fin 3) = 0 ∧
    win2_14.index t (1 : Fin 3) = 0 ∧
    win2_14.index t (2 : Fin 3) = 0 ∧
    win2_15.index t (0 : Fin 2) = 0 ∧
    win2_15.index t (1 : Fin 2) = 0 ∧
    win2_16.index t (0 : Fin 2) = 0 ∧
    win2_16.index t (1 : Fin 2) = 0 ∧
    win2_17.index t (0 : Fin 2) = t.val ∧
    win2_17.index t (1 : Fin 2) = 0 ∧
    win2_18.index t (0 : Fin 2) = t.val ∧
    win2_18.index t (1 : Fin 2) = 0 :=
  (by decide +kernel : ∀ t : Fin grid2.N, _)

set_option maxHeartbeats 4000000 in
theorem flushed2_17 (hout17 : ∀ x0 x1 x2 x3 x4 x5 x6 x7 x8 x9 x10 x11 x12 x13 x14 x15 x16, out2_17 (F := Ideal) x0 x1 x2 x3 x4 x5 x6 x7 x8 x9 x10 x11 x12 x13 x14 x15 x16 = E1 (R := 4000) x0 x1 x3 x4 x5 x6 x7 x8 x9 x10 x11 x12 x13 x14 x15)
    (c : Dev nD) (t : Fin cfg2.N) :
    (dat2 V c).flushed 17 t = ((cfg2.win 17).blk t).view.read (Elt Ideal)
      (E1 (R := 100000) (V c main_call0_v13) (V c main_arg0) (V c main_arg15) (V c main_arg16) (V c main_arg18) (V c main_arg19) (V c main_arg20) (V c main_arg21) (V c main_arg22) (V c main_arg23) (V c main_arg24) (V c main_arg25) (V c main_arg26) (V c main_arg27) (V c main_arg28)) := by
  show (cfg2.win 17).cut (grid2.coords t) ((dat2 V c).after 17 t) = _
  rw [after2_17, hout17]
  obtain ⟨i0_0, i0_1, i1_0, i1_1, i2_0, i2_1, i3_0, i3_1, i4_0, i5_0, i5_1, i6_0, i6_1, i6_2, i7_0, i7_1, i8_0, i8_1, i8_2, i9_0, i9_1, i10_0, i10_1, i11_0, i12_0, i12_1, i12_2, i13_0, i13_1, i14_0, i14_1, i14_2, i15_0, i15_1, i16_0, i16_1, i17_0, i17_1, i18_0, i18_1⟩ := idx2 t
  funext j
  show E1 (R := 4000) (fun y => V c main_call0_v13 (((cfg2.win 0).blk t).view.emb y))
      (fun y => V c main_arg0 (((cfg2.win 1).blk t).view.emb y))
      (fun y => V c main_arg15 (((cfg2.win 3).blk t).view.emb y))
      (fun y => V c main_arg16 (((cfg2.win 4).blk t).view.emb y))
      (fun y => V c main_arg18 (((cfg2.win 5).blk t).view.emb y))
      (fun y => V c main_arg19 (((cfg2.win 6).blk t).view.emb y))
      (fun y => V c main_arg20 (((cfg2.win 7).blk t).view.emb y))
      (fun y => V c main_arg21 (((cfg2.win 8).blk t).view.emb y))
      (fun y => V c main_arg22 (((cfg2.win 9).blk t).view.emb y))
      (fun y => V c main_arg23 (((cfg2.win 10).blk t).view.emb y))
      (fun y => V c main_arg24 (((cfg2.win 11).blk t).view.emb y))
      (fun y => V c main_arg25 (((cfg2.win 12).blk t).view.emb y))
      (fun y => V c main_arg26 (((cfg2.win 13).blk t).view.emb y))
      (fun y => V c main_arg27 (((cfg2.win 14).blk t).view.emb y))
      (fun y => V c main_arg28 (((cfg2.win 15).blk t).view.emb y)) j
    = E1 (R := 100000) (V c main_call0_v13) (V c main_arg0) (V c main_arg15) (V c main_arg16) (V c main_arg18) (V c main_arg19) (V c main_arg20) (V c main_arg21) (V c main_arg22) (V c main_arg23) (V c main_arg24) (V c main_arg25) (V c main_arg26) (V c main_arg27) (V c main_arg28)
      (((cfg2.win 17).blk t).view.emb j)
  have hj0 : (j 0).val < 4000 := (j 0).isLt
  have hj1 : (j 1).val < 128 := (j 1).isLt
  refine E1_rows (R := 4000) (R' := 100000) _ _ _ _ _ _ _ _ _ _ _ _ _ _ _ _ _ _ _ _ _ _ _ _ _ _ _ _ _ _ j (((cfg2.win 17).blk t).view.emb j) ?_ ?_ ?_ ?_ ?_ ?_ ?_ ?_ ?_ ?_ ?_ ?_ ?_ ?_ ?_ ?_
  · apply Fin.ext
    show (j 1).val = win2_17.index t (1 : Fin 2) * 128 + 1 * (j 1).val
    omega
  · intro k
    refine congrArg (V c main_call0_v13) ?_
    funext a; apply Fin.ext
    match a with
    | ⟨0, _⟩ => show win2_0.index t (0 : Fin 2) * 4000 + 1 * (j 0).val = win2_17.index t (0 : Fin 2) * 4000 + 1 * (j 0).val; omega
    | ⟨1, _⟩ => show win2_0.index t (1 : Fin 2) * 64 + 1 * k.val = k.val; omega
  · intro k
    refine congrArg (V c main_arg0) ?_
    funext a; apply Fin.ext
    match a with
    | ⟨0, _⟩ => show win2_1.index t (0 : Fin 2) * 4000 + 1 * (j 0).val = win2_17.index t (0 : Fin 2) * 4000 + 1 * (j 0).val; omega
    | ⟨1, _⟩ => show win2_1.index t (1 : Fin 2) * 128 + 1 * k.val = k.val; omega
  · funext y; refine congrArg (V c main_arg15) ?_
    funext a; apply Fin.ext
    match a with
    | ⟨0, _⟩ => show win2_3.index t (0 : Fin 2) * 128 + 1 * (y 0).val = (y 0).val; omega
    | ⟨1, _⟩ => show win2_3.index t (1 : Fin 2) * 128 + 1 * (y 1).val = (y 1).val; omega
  · funext y; refine congrArg (V c main_arg16) ?_
    funext a; apply Fin.ext
    match a with
    | ⟨0, _⟩ => show win2_4.index t (0 : Fin 1) * 128 + 1 * (y 0).val = (y 0).val; omega
  · funext y; refine congrArg (V c main_arg18) ?_
    funext a; apply Fin.ext
    match a with
    | ⟨0, _⟩ => show win2_5.index t (0 : Fin 2) * 64 + 1 * (y 0).val = (y 0).val; omega
    | ⟨1, _⟩ => show win2_5.index t (1 : Fin 2) * 128 + 1 * (y 1).val = (y 1).val; omega
  · funext y; refine congrArg (V c main_arg19) ?_
    funext a; apply Fin.ext
    match a with
    | ⟨0, _⟩ => show win2_6.index t (0 : Fin 3) * 1 + 1 * (y 0).val = (y 0).val; omega
    | ⟨1, _⟩ => show win2_6.index t (1 : Fin 3) * 128 + 1 * (y 1).val = (y 1).val; omega
    | ⟨2, _⟩ => show win2_6.index t (2 : Fin 3) * 128 + 1 * (y 2).val = (y 2).val; omega
  · funext y; refine congrArg (V c main_arg20) ?_
    funext a; apply Fin.ext
    match a with
    | ⟨0, _⟩ => show win2_7.index t (0 : Fin 2) * 1 + 1 * (y 0).val = (y 0).val; omega
    | ⟨1, _⟩ => show win2_7.index t (1 : Fin 2) * 128 + 1 * (y 1).val = (y 1).val; omega
  · funext y; refine congrArg (V c main_arg21) ?_
    funext a; apply Fin.ext
    match a with
    | ⟨0, _⟩ => show win2_8.index t (0 : Fin 3) * 1 + 1 * (y 0).val = (y 0).val; omega
    | ⟨1, _⟩ => show win2_8.index t (1 : Fin 3) * 128 + 1 * (y 1).val = (y 1).val; omega
    | ⟨2, _⟩ => show win2_8.index t (2 : Fin 3) * 128 + 1 * (y 2).val = (y 2).val; omega
  · funext y; refine congrArg (V c main_arg22) ?_
    funext a; apply Fin.ext
    match a with
    | ⟨0, _⟩ => show win2_9.index t (0 : Fin 2) * 1 + 1 * (y 0).val = (y 0).val; omega
    | ⟨1, _⟩ => show win2_9.index t (1 : Fin 2) * 128 + 1 * (y 1).val = (y 1).val; omega
  · funext y; refine congrArg (V c main_arg23) ?_
    funext a; apply Fin.ext
    match a with
    | ⟨0, _⟩ => show win2_10.index t (0 : Fin 2) * 128 + 1 * (y 0).val = (y 0).val; omega
    | ⟨1, _⟩ => show win2_10.index t (1 : Fin 2) * 128 + 1 * (y 1).val = (y 1).val; omega
  · funext y; refine congrArg (V c main_arg24) ?_
    funext a; apply Fin.ext
    match a with
    | ⟨0, _⟩ => show win2_11.index t (0 : Fin 1) * 128 + 1 * (y 0).val = (y 0).val; omega
  · funext y; refine congrArg (V c main_arg25) ?_
    funext a; apply Fin.ext
    match a with
    | ⟨0, _⟩ => show win2_12.index t (0 : Fin 3) * 2 + 1 * (y 0).val = (y 0).val; omega
    | ⟨1, _⟩ => show win2_12.index t (1 : Fin 3) * 128 + 1 * (y 1).val = (y 1).val; omega
    | ⟨2, _⟩ => show win2_12.index t (2 : Fin 3) * 128 + 1 * (y 2).val = (y 2).val; omega
  · funext y; refine congrArg (V c main_arg26) ?_
    funext a; apply Fin.ext
    match a with
    | ⟨0, _⟩ => show win2_13.index t (0 : Fin 2) * 2 + 1 * (y 0).val = (y 0).val; omega
    | ⟨1, _⟩ => show win2_13.index t (1 : Fin 2) * 128 + 1 * (y 1).val = (y 1).val; omega
  · funext y; refine congrArg (V c main_arg27) ?_
    funext a; apply Fin.ext
    match a with
    | ⟨0, _⟩ => show win2_14.index t (0 : Fin 3) * 2 + 1 * (y 0).val = (y 0).val; omega
    | ⟨1, _⟩ => show win2_14.index t (1 : Fin 3) * 128 + 1 * (y 1).val = (y 1).val; omega
    | ⟨2, _⟩ => show win2_14.index t (2 : Fin 3) * 128 + 1 * (y 2).val = (y 2).val; omega
  · funext y; refine congrArg (V c main_arg28) ?_
    funext a; apply Fin.ext
    match a with
    | ⟨0, _⟩ => show win2_15.index t (0 : Fin 2) * 2 + 1 * (y 0).val = (y 0).val; omega
    | ⟨1, _⟩ => show win2_15.index t (1 : Fin 2) * 128 + 1 * (y 1).val = (y 1).val; omega

/-- An index of the output array is in point t's block iff each coordinate is in the block's range on its axis. -/
theorem mem_blk2_17 (t : Fin cfg2.N) (i : S100000x128.Idx) :
    i ∈ ((cfg2.win 17).blk t).view.set ↔ ∀ a : Fin 2, win2_17.index t a * S4000x128.size a ≤ (i a).val ∧ (i a).val < win2_17.index t a * S4000x128.size a + S4000x128.size a := by
  show i ∈ ((View.whole main_v0_0).slice (win2_17.rect t)).set ↔ _
  rw [View.set_slice_whole, Rect.mem_set_unit]
  exact Iff.rfl

/-- Row r of the output array lies in the block of point r / 4000. -/
theorem cover2_17 (i : S100000x128.Idx) : ∃ t : Fin cfg2.N, (cfg2.win 17).flush t = true ∧ i ∈ ((cfg2.win 17).blk t).view.set := by
  have hi0 : (i 0).val < 100000 := (i 0).isLt
  have hi1 : (i 1).val < 128 := (i 1).isLt
  have hN : cfg2.N = 25 := N_2
  let t : Fin cfg2.N := ⟨(i 0).val / 4000, by omega⟩
  obtain ⟨i0_0, i0_1, i1_0, i1_1, i2_0, i2_1, i3_0, i3_1, i4_0, i5_0, i5_1, i6_0, i6_1, i6_2, i7_0, i7_1, i8_0, i8_1, i8_2, i9_0, i9_1, i10_0, i10_1, i11_0, i12_0, i12_1, i12_2, i13_0, i13_1, i14_0, i14_1, i14_2, i15_0, i15_1, i16_0, i16_1, i17_0, i17_1, i18_0, i18_1⟩ := idx2 t
  have ht : t.val = (i 0).val / 4000 := rfl
  refine ⟨t, flush2_17 t, ?_⟩
  rw [mem_blk2_17]
  intro a
  match a with
  | ⟨0, _⟩ => show win2_17.index t (0 : Fin 2) * 4000 ≤ (i 0).val ∧ (i 0).val < win2_17.index t (0 : Fin 2) * 4000 + 4000; omega
  | ⟨1, _⟩ => show win2_17.index t (1 : Fin 2) * 128 ≤ (i 1).val ∧ (i 1).val < win2_17.index t (1 : Fin 2) * 128 + 128; omega

/-- The first result after region 2: the update stage of the whole arrays as the region finds them. -/
theorem final2_17 (hout17 : ∀ x0 x1 x2 x3 x4 x5 x6 x7 x8 x9 x10 x11 x12 x13 x14 x15 x16, out2_17 (F := Ideal) x0 x1 x2 x3 x4 x5 x6 x7 x8 x9 x10 x11 x12 x13 x14 x15 x16 = E1 (R := 4000) x0 x1 x3 x4 x5 x6 x7 x8 x9 x10 x11 x12 x13 x14 x15)
    (c : Dev nD) :
    (dat2 V c).arrAt 17 cfg2.N
      = E1 (R := 100000) (V c main_call0_v13) (V c main_arg0) (V c main_arg15) (V c main_arg16) (V c main_arg18) (V c main_arg19) (V c main_arg20) (V c main_arg21) (V c main_arg22) (V c main_arg23) (V c main_arg24) (V c main_arg25) (V c main_arg26) (V c main_arg27) (V c main_arg28) :=
  (dat2 V c).arrAt_eq_of_cover 17 _ (fun t _ => flushed2_17 V hout17 c t) cover2_17

set_option maxHeartbeats 4000000 in
theorem flushed2_18 (hout18 : ∀ x0 x1 x2 x3 x4 x5 x6 x7 x8 x9 x10 x11 x12 x13 x14 x15 x16, out2_18 (F := Ideal) x0 x1 x2 x3 x4 x5 x6 x7 x8 x9 x10 x11 x12 x13 x14 x15 x16 = E2 (R := 4000) x0 x1 x2 x3 x4 x5 x6 x7 x8 x9 x10 x11 x12 x13 x14 x15 x16)
    (c : Dev nD) (t : Fin cfg2.N) :
    (dat2 V c).flushed 18 t = ((cfg2.win 18).blk t).view.read (Elt Ideal)
      (E2 (R := 100000) (V c main_call0_v13) (V c main_arg0) (V c main_arg1) (V c main_arg15) (V c main_arg16) (V c main_arg18) (V c main_arg19) (V c main_arg20) (V c main_arg21) (V c main_arg22) (V c main_arg23) (V c main_arg24) (V c main_arg25) (V c main_arg26) (V c main_arg27) (V c main_arg28) (V c main_arg12)) := by
  show (cfg2.win 18).cut (grid2.coords t) ((dat2 V c).after 18 t) = _
  rw [after2_18, hout18]
  obtain ⟨i0_0, i0_1, i1_0, i1_1, i2_0, i2_1, i3_0, i3_1, i4_0, i5_0, i5_1, i6_0, i6_1, i6_2, i7_0, i7_1, i8_0, i8_1, i8_2, i9_0, i9_1, i10_0, i10_1, i11_0, i12_0, i12_1, i12_2, i13_0, i13_1, i14_0, i14_1, i14_2, i15_0, i15_1, i16_0, i16_1, i17_0, i17_1, i18_0, i18_1⟩ := idx2 t
  funext j
  show E2 (R := 4000) (fun y => V c main_call0_v13 (((cfg2.win 0).blk t).view.emb y))
      (fun y => V c main_arg0 (((cfg2.win 1).blk t).view.emb y))
      (fun y => V c main_arg1 (((cfg2.win 2).blk t).view.emb y))
      (fun y => V c main_arg15 (((cfg2.win 3).blk t).view.emb y))
      (fun y => V c main_arg16 (((cfg2.win 4).blk t).view.emb y))
      (fun y => V c main_arg18 (((cfg2.win 5).blk t).view.emb y))
      (fun y => V c main_arg19 (((cfg2.win 6).blk t).view.emb y))
      (fun y => V c main_arg20 (((cfg2.win 7).blk t).view.emb y))
      (fun y => V c main_arg21 (((cfg2.win 8).blk t).view.emb y))
      (fun y => V c main_arg22 (((cfg2.win 9).blk t).view.emb y))
      (fun y => V c main_arg23 (((cfg2.win 10).blk t).view.emb y))
      (fun y => V c main_arg24 (((cfg2.win 11).blk t).view.emb y))
      (fun y => V c main_arg25 (((cfg2.win 12).blk t).view.emb y))
      (fun y => V c main_arg26 (((cfg2.win 13).blk t).view.emb y))
      (fun y => V c main_arg27 (((cfg2.win 14).blk t).view.emb y))
      (fun y => V c main_arg28 (((cfg2.win 15).blk t).view.emb y))
      (fun y => V c main_arg12 (((cfg2.win 16).blk t).view.emb y)) j
    = E2 (R := 100000) (V c main_call0_v13) (V c main_arg0) (V c main_arg1) (V c main_arg15) (V c main_arg16) (V c main_arg18) (V c main_arg19) (V c main_arg20) (V c main_arg21) (V c main_arg22) (V c main_arg23) (V c main_arg24) (V c main_arg25) (V c main_arg26) (V c main_arg27) (V c main_arg28) (V c main_arg12)
      (((cfg2.win 18).blk t).view.emb j)
  have hj0 : (j 0).val < 4000 := (j 0).isLt
  have hj1 : (j 1).val < 128 := (j 1).isLt
  refine E2_rows (R := 4000) (R' := 100000) _ _ _ _ _ _ _ _ _ _ _ _ _ _ _ _ _ _ _ _ _ _ _ _ _ _ _ _ _ _ _ _ _ _ j (((cfg2.win 18).blk t).view.emb j) ?_ ?_ ?_ ?_ ?_ ?_ ?_ ?_ ?_ ?_ ?_ ?_ ?_ ?_ ?_ ?_ ?_ ?_
  · apply Fin.ext
    show (j 1).val = win2_18.index t (1 : Fin 2) * 128 + 1 * (j 1).val
    omega
  · intro k
    refine congrArg (V c main_call0_v13) ?_
    funext a; apply Fin.ext
    match a with
    | ⟨0, _⟩ => show win2_0.index t (0 : Fin 2) * 4000 + 1 * (j 0).val = win2_18.index t (0 : Fin 2) * 4000 + 1 * (j 0).val; omega
    | ⟨1, _⟩ => show win2_0.index t (1 : Fin 2) * 64 + 1 * k.val = k.val; omega
  · intro k
    refine congrArg (V c main_arg0) ?_
    funext a; apply Fin.ext
    match a with
    | ⟨0, _⟩ => show win2_1.index t (0 : Fin 2) * 4000 + 1 * (j 0).val = win2_18.index t (0 : Fin 2) * 4000 + 1 * (j 0).val; omega
    | ⟨1, _⟩ => show win2_1.index t (1 : Fin 2) * 128 + 1 * k.val = k.val; omega
  · intro k
    refine congrArg (V c main_arg1) ?_
    funext a; apply Fin.ext
    match a with
    | ⟨0, _⟩ => show win2_2.index t (0 : Fin 2) * 4000 + 1 * (j 0).val = win2_18.index t (0 : Fin 2) * 4000 + 1 * (j 0).val; omega
    | ⟨1, _⟩ => show win2_2.index t (1 : Fin 2) * 6 + 1 * k.val = k.val; omega
  · funext y; refine congrArg (V c main_arg15) ?_
    funext a; apply Fin.ext
    match a with
    | ⟨0, _⟩ => show win2_3.index t (0 : Fin 2) * 128 + 1 * (y 0).val = (y 0).val; omega
    | ⟨1, _⟩ => show win2_3.index t (1 : Fin 2) * 128 + 1 * (y 1).val = (y 1).val; omega
  · funext y; refine congrArg (V c main_arg16) ?_
    funext a; apply Fin.ext
    match a with
    | ⟨0, _⟩ => show win2_4.index t (0 : Fin 1) * 128 + 1 * (y 0).val = (y 0).val; omega
  · funext y; refine congrArg (V c main_arg18) ?_
    funext a; apply Fin.ext
    match a with
    | ⟨0, _⟩ => show win2_5.index t (0 : Fin 2) * 64 + 1 * (y 0).val = (y 0).val; omega
    | ⟨1, _⟩ => show win2_5.index t (1 : Fin 2) * 128 + 1 * (y 1).val = (y 1).val; omega
  · funext y; refine congrArg (V c main_arg19) ?_
    funext a; apply Fin.ext
    match a with
    | ⟨0, _⟩ => show win2_6.index t (0 : Fin 3) * 1 + 1 * (y 0).val = (y 0).val; omega
    | ⟨1, _⟩ => show win2_6.index t (1 : Fin 3) * 128 + 1 * (y 1).val = (y 1).val; omega
    | ⟨2, _⟩ => show win2_6.index t (2 : Fin 3) * 128 + 1 * (y 2).val = (y 2).val; omega
  · funext y; refine congrArg (V c main_arg20) ?_
    funext a; apply Fin.ext
    match a with
    | ⟨0, _⟩ => show win2_7.index t (0 : Fin 2) * 1 + 1 * (y 0).val = (y 0).val; omega
    | ⟨1, _⟩ => show win2_7.index t (1 : Fin 2) * 128 + 1 * (y 1).val = (y 1).val; omega
  · funext y; refine congrArg (V c main_arg21) ?_
    funext a; apply Fin.ext
    match a with
    | ⟨0, _⟩ => show win2_8.index t (0 : Fin 3) * 1 + 1 * (y 0).val = (y 0).val; omega
    | ⟨1, _⟩ => show win2_8.index t (1 : Fin 3) * 128 + 1 * (y 1).val = (y 1).val; omega
    | ⟨2, _⟩ => show win2_8.index t (2 : Fin 3) * 128 + 1 * (y 2).val = (y 2).val; omega
  · funext y; refine congrArg (V c main_arg22) ?_
    funext a; apply Fin.ext
    match a with
    | ⟨0, _⟩ => show win2_9.index t (0 : Fin 2) * 1 + 1 * (y 0).val = (y 0).val; omega
    | ⟨1, _⟩ => show win2_9.index t (1 : Fin 2) * 128 + 1 * (y 1).val = (y 1).val; omega
  · funext y; refine congrArg (V c main_arg23) ?_
    funext a; apply Fin.ext
    match a with
    | ⟨0, _⟩ => show win2_10.index t (0 : Fin 2) * 128 + 1 * (y 0).val = (y 0).val; omega
    | ⟨1, _⟩ => show win2_10.index t (1 : Fin 2) * 128 + 1 * (y 1).val = (y 1).val; omega
  · funext y; refine congrArg (V c main_arg24) ?_
    funext a; apply Fin.ext
    match a with
    | ⟨0, _⟩ => show win2_11.index t (0 : Fin 1) * 128 + 1 * (y 0).val = (y 0).val; omega
  · funext y; refine congrArg (V c main_arg25) ?_
    funext a; apply Fin.ext
    match a with
    | ⟨0, _⟩ => show win2_12.index t (0 : Fin 3) * 2 + 1 * (y 0).val = (y 0).val; omega
    | ⟨1, _⟩ => show win2_12.index t (1 : Fin 3) * 128 + 1 * (y 1).val = (y 1).val; omega
    | ⟨2, _⟩ => show win2_12.index t (2 : Fin 3) * 128 + 1 * (y 2).val = (y 2).val; omega
  · funext y; refine congrArg (V c main_arg26) ?_
    funext a; apply Fin.ext
    match a with
    | ⟨0, _⟩ => show win2_13.index t (0 : Fin 2) * 2 + 1 * (y 0).val = (y 0).val; omega
    | ⟨1, _⟩ => show win2_13.index t (1 : Fin 2) * 128 + 1 * (y 1).val = (y 1).val; omega
  · funext y; refine congrArg (V c main_arg27) ?_
    funext a; apply Fin.ext
    match a with
    | ⟨0, _⟩ => show win2_14.index t (0 : Fin 3) * 2 + 1 * (y 0).val = (y 0).val; omega
    | ⟨1, _⟩ => show win2_14.index t (1 : Fin 3) * 128 + 1 * (y 1).val = (y 1).val; omega
    | ⟨2, _⟩ => show win2_14.index t (2 : Fin 3) * 128 + 1 * (y 2).val = (y 2).val; omega
  · funext y; refine congrArg (V c main_arg28) ?_
    funext a; apply Fin.ext
    match a with
    | ⟨0, _⟩ => show win2_15.index t (0 : Fin 2) * 2 + 1 * (y 0).val = (y 0).val; omega
    | ⟨1, _⟩ => show win2_15.index t (1 : Fin 2) * 128 + 1 * (y 1).val = (y 1).val; omega
  · funext y; refine congrArg (V c main_arg12) ?_
    funext a; apply Fin.ext
    match a with
    | ⟨0, _⟩ => show win2_16.index t (0 : Fin 2) * 6 + 1 * (y 0).val = (y 0).val; omega
    | ⟨1, _⟩ => show win2_16.index t (1 : Fin 2) * 128 + 1 * (y 1).val = (y 1).val; omega

/-- An index of the output array is in point t's block iff each coordinate is in the block's range on its axis. -/
theorem mem_blk2_18 (t : Fin cfg2.N) (i : S100000x128.Idx) :
    i ∈ ((cfg2.win 18).blk t).view.set ↔ ∀ a : Fin 2, win2_18.index t a * S4000x128.size a ≤ (i a).val ∧ (i a).val < win2_18.index t a * S4000x128.size a + S4000x128.size a := by
  show i ∈ ((View.whole main_v0_1).slice (win2_18.rect t)).set ↔ _
  rw [View.set_slice_whole, Rect.mem_set_unit]
  exact Iff.rfl

/-- Row r of the output array lies in the block of point r / 4000. -/
theorem cover2_18 (i : S100000x128.Idx) : ∃ t : Fin cfg2.N, (cfg2.win 18).flush t = true ∧ i ∈ ((cfg2.win 18).blk t).view.set := by
  have hi0 : (i 0).val < 100000 := (i 0).isLt
  have hi1 : (i 1).val < 128 := (i 1).isLt
  have hN : cfg2.N = 25 := N_2
  let t : Fin cfg2.N := ⟨(i 0).val / 4000, by omega⟩
  obtain ⟨i0_0, i0_1, i1_0, i1_1, i2_0, i2_1, i3_0, i3_1, i4_0, i5_0, i5_1, i6_0, i6_1, i6_2, i7_0, i7_1, i8_0, i8_1, i8_2, i9_0, i9_1, i10_0, i10_1, i11_0, i12_0, i12_1, i12_2, i13_0, i13_1, i14_0, i14_1, i14_2, i15_0, i15_1, i16_0, i16_1, i17_0, i17_1, i18_0, i18_1⟩ := idx2 t
  have ht : t.val = (i 0).val / 4000 := rfl
  refine ⟨t, flush2_18 t, ?_⟩
  rw [mem_blk2_18]
  intro a
  match a with
  | ⟨0, _⟩ => show win2_18.index t (0 : Fin 2) * 4000 ≤ (i 0).val ∧ (i 0).val < win2_18.index t (0 : Fin 2) * 4000 + 4000; omega
  | ⟨1, _⟩ => show win2_18.index t (1 : Fin 2) * 128 ≤ (i 1).val ∧ (i 1).val < win2_18.index t (1 : Fin 2) * 128 + 128; omega

/-- The second result after region 2: the radial projection times the update stage, of the whole arrays as the region finds them. -/
theorem final2_18 (hout18 : ∀ x0 x1 x2 x3 x4 x5 x6 x7 x8 x9 x10 x11 x12 x13 x14 x15 x16, out2_18 (F := Ideal) x0 x1 x2 x3 x4 x5 x6 x7 x8 x9 x10 x11 x12 x13 x14 x15 x16 = E2 (R := 4000) x0 x1 x2 x3 x4 x5 x6 x7 x8 x9 x10 x11 x12 x13 x14 x15 x16)
    (c : Dev nD) :
    (dat2 V c).arrAt 18 cfg2.N
      = E2 (R := 100000) (V c main_call0_v13) (V c main_arg0) (V c main_arg1) (V c main_arg15) (V c main_arg16) (V c main_arg18) (V c main_arg19) (V c main_arg20) (V c main_arg21) (V c main_arg22) (V c main_arg23) (V c main_arg24) (V c main_arg25) (V c main_arg26) (V c main_arg27) (V c main_arg28) (V c main_arg12) :=
  (dat2 V c).arrAt_eq_of_cover 18 _ (fun t _ => flushed2_18 V hout18 c t) cover2_18

end Cert.Sphere.Blocks2

end
-- ==== Proof.RefStages.lean ====
/-
  The reference program's stages, each as a short composition of the host operations the program applies, in the
  program's own order: a dense layer is a dot_general plus a bias laid along the rows, the activation is spelt out as
  v · (1 / (1 + exp(−v))), a residual layer is e + dense(dense(e)).  The aggregate is a gather of edge rows by the
  (wrapped) first index list, two entrywise products, and a scatter-add into zeros by the second index list.  Naming
  the stages keeps every later statement about the reference short: a value used twice appears once.
-/
import proofs.«178192_j4879082848306_2_alg».proof.ReferenceIdeal
import proofs.«178192_j4879082848306_2_alg».proof.Proof.Gen.ReferenceIdeal

noncomputable section

namespace Cert.Sphere.RefStages

open Cert.ReferenceIdeal Cert.ReferenceIdeal.Facts₀ Cert.ReferenceIdeal.Facts Idealize.ShloMosaic

variable {F : FTy → Type} [FloatOps F]

/-- The activation on a [100000,128] array, as the host spells it: v · (1 / (1 + exp(−v))). -/
def hsilu128 (v : FVec F S100000x128 .f32) : FVec F S100000x128 .f32 :=
  mulf v (Host.divf (broadcastInDim S100000x128 ![] bcast_S_S100000x128 (constant S_ .f32 0x3F800000#32))
    (addf (broadcastInDim S100000x128 ![] bcast_S_S100000x128 (constant S_ .f32 0x3F800000#32)) (Host.exp (Host.negf v))))

/-- The same on a [100000,64] array. -/
def hsilu64 (v : FVec F S100000x64 .f32) : FVec F S100000x64 .f32 :=
  mulf v (Host.divf (broadcastInDim S100000x64 ![] bcast_S_S100000x64 (constant S_ .f32 0x3F800000#32))
    (addf (broadcastInDim S100000x64 ![] bcast_S_S100000x64 (constant S_ .f32 0x3F800000#32)) (Host.exp (Host.negf v))))

/-- A bias vector laid along the 100000 rows. -/
def hbias (b : FVec F S128 .f32) : FVec F S100000x128 .f32 :=
  broadcastInDim S100000x128 ![0, 1] bcast_S1x128_S100000x128_0_1 (broadcastInDim S1x128 ![1] bcast_S128_S1x128_1 b)

/-- x·W for a [100000,128] array and a [128,128] matrix. -/
def hdot (x : FVec F S100000x128 .f32) (W : FVec F S128x128 .f32) : FVec F S100000x128 .f32 :=
  Host.dotGeneral dot_S100000x128_S128x128_S100000x128_1_0_0_1_n_n none x W

/-- A dense layer with activation: silu(x·W + b). -/
def hdense (x : FVec F S100000x128 .f32) (W : FVec F S128x128 .f32) (b : FVec F S128 .f32) : FVec F S100000x128 .f32 :=
  hsilu128 (addf (hdot x W) (hbias b))

/-- A residual layer: e + dense(dense(e)). -/
def hres (e : FVec F S100000x128 .f32) (W1 : FVec F S128x128 .f32) (b1 : FVec F S128 .f32) (W2 : FVec F S128x128 .f32)
    (b2 : FVec F S128 .f32) : FVec F S100000x128 .f32 :=
  addf e (hdense (hdense e W1 b1) W2 b2)

/-- The edge stage: silu((dense(x1; W_kj, b_kj) ⊙ (rbf0·W₁·W₂))·W_down). -/
def refXkj (x0 : FVec F S100000x128 .f32) (x1 : FVec F S100000x6 .f32) (x6 : FVec F S6x8 .f32) (x7 : FVec F S8x128 .f32)
    (x13 : FVec F S128x128 .f32) (x14 : FVec F S128 .f32) (x17 : FVec F S128x64 .f32) : FVec F S100000x64 .f32 :=
  hsilu64 (Host.dotGeneral dot_S100000x128_S128x64_S100000x64_1_0_0_1_n_n none
    (mulf (hdense x0 x13 x14)
      (Host.dotGeneral dot_S100000x8_S8x128_S100000x128_1_0_0_1_n_n none
        (Host.dotGeneral dot_S100000x6_S6x8_S100000x8_1_0_0_1_n_n none x1 x6) x7)) x17)

/-- sbf·W_s1·W_s2. -/
def refSbf (x2 : FVec F S500000x42 .f32) (x8 : FVec F S42x8 .f32) (x9 : FVec F S8x64 .f32) : FVec F S500000x64 .f32 :=
  Host.dotGeneral dot_S500000x8_S8x64_S500000x64_1_0_0_1_n_n none
    (Host.dotGeneral dot_S500000x42_S42x8_S500000x8_1_0_0_1_n_n none x2 x8) x9

/-- t·W_t1·W_t2. -/
def refT (x3 : FVec F S500000x294 .f32) (x10 : FVec F S294x8 .f32) (x11 : FVec F S8x64 .f32) : FVec F S500000x64 .f32 :=
  Host.dotGeneral dot_S500000x8_S8x64_S500000x64_1_0_0_1_n_n none
    (Host.dotGeneral dot_S500000x294_S294x8_S500000x8_1_0_0_1_n_n none x3 x10) x11

/-- The first index list with negative entries wrapped by the row count, as a column. -/
def wrapIdx (x4 : IVec S500000 32) : IVec S500000x1 32 :=
  broadcastInDim S500000x1 ![0] bcast_S500000_S500000x1_0
    (select (cmpi .slt x4 (broadcastInDim S500000 ![] bcast_S_S500000 (constantI S_ 32 0#32)))
      (addi x4 (broadcastInDim S500000 ![] bcast_S_S500000 (constantI S_ 32 100000#32))) x4)

/-- The aggregate: rows of the edge array gathered by the first index list, times a per-triplet array of messages,
    scatter-added into zeros by the second index list. -/
def aggOf (xkj : FVec F S100000x64 .f32) (msg : FVec F S500000x64 .f32 → FVec F S500000x64 .f32)
    (x4 x5 : IVec S500000 32) : FVec F S100000x64 .f32 :=
  Host.scatterAdd scatter_S100000x64_S500000x1_S500000x64_1_0_0_1
    (broadcastInDim S100000x64 ![] bcast_S_S100000x64 (constant S_ .f32 0x00000000#32))
    (broadcastInDim S500000x1 ![0] bcast_S500000_S500000x1_0 x5)
    (msg (Host.gather gather_S100000x64_S500000x1_S500000x64_1_0_n_n_0_1_164 xkj (wrapIdx x4)))

/-- The reference's aggregate: the gathered rows times sbf·W·W, then times t·W·W. -/
def refAgg (x0 : FVec F S100000x128 .f32) (x1 : FVec F S100000x6 .f32) (x2 : FVec F S500000x42 .f32)
    (x3 : FVec F S500000x294 .f32) (x4 x5 : IVec S500000 32) (x6 : FVec F S6x8 .f32) (x7 : FVec F S8x128 .f32)
    (x8 : FVec F S42x8 .f32) (x9 : FVec F S8x64 .f32) (x10 : FVec F S294x8 .f32) (x11 : FVec F S8x64 .f32)
    (x13 : FVec F S128x128 .f32) (x14 : FVec F S128 .f32) (x17 : FVec F S128x64 .f32) : FVec F S100000x64 .f32 :=
  aggOf (refXkj x0 x1 x6 x7 x13 x14 x17) (fun g => mulf (mulf g (refSbf x2 x8 x9)) (refT x3 x10 x11)) x4 x5

/-- Slot 0 / slot 1 of a stack of two matrices, as a matrix. -/
def slotW0 (x : FVec F S2x128x128 .f32) : FVec F S128x128 .f32 :=
  shapeCast S128x128 (extractStridedSlice S1x128x128 ![0, 0, 0] x slices_S2x128x128_S1x128x128_0_0_0) shapeCasts_S1x128x128_S128x128
def slotW1 (x : FVec F S2x128x128 .f32) : FVec F S128x128 .f32 :=
  shapeCast S128x128 (extractStridedSlice S1x128x128 ![1, 0, 0] x slices_S2x128x128_S1x128x128_1_0_0) shapeCasts_S1x128x128_S128x128
/-- Slot 0 / slot 1 of a stack of two bias vectors, as a vector. -/
def slotB0 (x : FVec F S2x128 .f32) : FVec F S128 .f32 :=
  shapeCast S128 (extractStridedSlice S1x128 ![0, 0] x slices_S2x128_S1x128_0_0) shapeCasts_S1x128_S128
def slotB1 (x : FVec F S2x128 .f32) : FVec F S128 .f32 :=
  shapeCast S128 (extractStridedSlice S1x128 ![1, 0] x slices_S2x128_S1x128_1_0) shapeCasts_S1x128_S128

/-- The update stage from the aggregate: dense(x1; W_ji, b_ji) + silu(agg·W_up), one residual layer,
    dense(·; W_lin, b_lin) + x1, two residual layers. -/
def refE1 (agg : FVec F S100000x64 .f32) (x0 : FVec F S100000x128 .f32) (x15 : FVec F S128x128 .f32) (x16 : FVec F S128 .f32)
    (x18 : FVec F S64x128 .f32) (x19 : FVec F S1x128x128 .f32) (x20 : FVec F S1x128 .f32) (x21 : FVec F S1x128x128 .f32)
    (x22 : FVec F S1x128 .f32) (x23 : FVec F S128x128 .f32) (x24 : FVec F S128 .f32) (x25 : FVec F S2x128x128 .f32)
    (x26 : FVec F S2x128 .f32) (x27 : FVec F S2x128x128 .f32) (x28 : FVec F S2x128 .f32) : FVec F S100000x128 .f32 :=
  hres (hres (addf (hdense
      (hres (addf (hdense x0 x15 x16) (hsilu128 (Host.dotGeneral dot_S100000x64_S64x128_S100000x128_1_0_0_1_n_n none agg x18)))
        (shapeCast S128x128 x19 shapeCasts_S1x128x128_S128x128) (shapeCast S128 x20 shapeCasts_S1x128_S128)
        (shapeCast S128x128 x21 shapeCasts_S1x128x128_S128x128) (shapeCast S128 x22 shapeCasts_S1x128_S128))
      x23 x24) x0)
    (slotW0 x25) (slotB0 x26) (slotW0 x27) (slotB0 x28))
    (slotW1 x25) (slotB1 x26) (slotW1 x27) (slotB1 x28)

/-- The second output: (rbf0·W_rbf) ⊙ e1. -/
def refE2 (e1 : FVec F S100000x128 .f32) (x1 : FVec F S100000x6 .f32) (x12 : FVec F S6x128 .f32) : FVec F S100000x128 .f32 :=
  mulf (Host.dotGeneral dot_S100000x6_S6x128_S100000x128_1_0_0_1_n_n none x1 x12) e1

end Cert.Sphere.RefStages

end
-- ==== Proof.Middle.lean ====
/-
  The kernel program's two results as functions of the launch contents.  Region 0 leaves the edge stage of the
  arguments in its output array, region 1 the triplet stage; the host stretch between the regions gathers edge rows,
  multiplies by the triplet array and scatter-adds into zeros; region 2 leaves the update stage of that aggregate and
  of the arguments in the two result arrays.  Every array a later segment reads is walked back, boundary by boundary,
  to what wrote it or to the launch memory.
-/
import proofs.«178192_j4879082848306_2_alg».proof.Proof.Gen.KernelIdeal.Frame
import proofs.«178192_j4879082848306_2_alg».proof.Proof.Blocks0
import proofs.«178192_j4879082848306_2_alg».proof.Proof.Blocks1
import proofs.«178192_j4879082848306_2_alg».proof.Proof.Blocks2
import proofs.«178192_j4879082848306_2_alg».proof.Proof.RefStages
import Idealize.ShloMosaic.Lib.StableHlo.Run

set_option maxRecDepth 16384

noncomputable section

namespace Cert.Sphere.Middle

open Cert.KernelIdeal Cert.KernelIdeal.Gen Cert.Sphere Cert.Sphere.RefStages
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## The arguments as region 2 and the host stretch find them -/

theorem v3_arg0 (c : Dev nD) : V3 m ρ c main_arg0 = m ((c : Thread nD τ).loc main_arg0) :=
  ((W4_arr m ρ c 1).trans (((dat2 (V3 m ρ) c).arrAt_in 1 rfl _).trans (A_eq2 (V3 m ρ) c 1))).symm.trans (W4_main_arg0 m ρ c)
theorem v3_arg1 (c : Dev nD) : V3 m ρ c main_arg1 = m ((c : Thread nD τ).loc main_arg1) :=
  ((W4_arr m ρ c 2).trans (((dat2 (V3 m ρ) c).arrAt_in 2 rfl _).trans (A_eq2 (V3 m ρ) c 2))).symm.trans (W4_main_arg1 m ρ c)
theorem v3_arg15 (c : Dev nD) : V3 m ρ c main_arg15 = m ((c : Thread nD τ).loc main_arg15) :=
  ((W4_arr m ρ c 3).trans (((dat2 (V3 m ρ) c).arrAt_in 3 rfl _).trans (A_eq2 (V3 m ρ) c 3))).symm.trans (W4_main_arg15 m ρ c)
theorem v3_arg16 (c : Dev nD) : V3 m ρ c main_arg16 = m ((c : Thread nD τ).loc main_arg16) :=
  ((W4_arr m ρ c 4).trans (((dat2 (V3 m ρ) c).arrAt_in 4 rfl _).trans (A_eq2 (V3 m ρ) c 4))).symm.trans (W4_main_arg16 m ρ c)
theorem v3_arg18 (c : Dev nD) : V3 m ρ c main_arg18 = m ((c : Thread nD τ).loc main_arg18) :=
  ((W4_arr m ρ c 5).trans (((dat2 (V3 m ρ) c).arrAt_in 5 rfl _).trans (A_eq2 (V3 m ρ) c 5))).symm.trans (W4_main_arg18 m ρ c)
theorem v3_arg19 (c : Dev nD) : V3 m ρ c main_arg19 = m ((c : Thread nD τ).loc main_arg19) :=
  ((W4_arr m ρ c 6).trans (((dat2 (V3 m ρ) c).arrAt_in 6 rfl _).trans (A_eq2 (V3 m ρ) c 6))).symm.trans (W4_main_arg19 m ρ c)
theorem v3_arg20 (c : Dev nD) : V3 m ρ c main_arg20 = m ((c : Thread nD τ).loc main_arg20) :=
  ((W4_arr m ρ c 7).trans (((dat2 (V3 m ρ) c).arrAt_in 7 rfl _).trans (A_eq2 (V3 m ρ) c 7))).symm.trans (W4_main_arg20 m ρ c)
theorem v3_arg21 (c : Dev nD) : V3 m ρ c main_arg21 = m ((c : Thread nD τ).loc main_arg21) :=
  ((W4_arr m ρ c 8).trans (((dat2 (V3 m ρ) c).arrAt_in 8 rfl _).trans (A_eq2 (V3 m ρ) c 8))).symm.trans (W4_main_arg21 m ρ c)
theorem v3_arg22 (c : Dev nD) : V3 m ρ c main_arg22 = m ((c : Thread nD τ).loc main_arg22) :=
  ((W4_arr m ρ c 9).trans (((dat2 (V3 m ρ) c).arrAt_in 9 rfl _).trans (A_eq2 (V3 m ρ) c 9))).symm.trans (W4_main_arg22 m ρ c)
theorem v3_arg23 (c : Dev nD) : V3 m ρ c main_arg23 = m ((c : Thread nD τ).loc main_arg23) :=
  ((W4_arr m ρ c 10).trans (((dat2 (V3 m ρ) c).arrAt_in 10 rfl _).trans (A_eq2 (V3 m ρ) c 10))).symm.trans (W4_main_arg23 m ρ c)
theorem v3_arg24 (c : Dev nD) : V3 m ρ c main_arg24 = m ((c : Thread nD τ).loc main_arg24) :=
  ((W4_arr m ρ c 11).trans (((dat2 (V3 m ρ) c).arrAt_in 11 rfl _).trans (A_eq2 (V3 m ρ) c 11))).symm.trans (W4_main_arg24 m ρ c)
theorem v3_arg25 (c : Dev nD) : V3 m ρ c main_arg25 = m ((c : Thread nD τ).loc main_arg25) :=
  ((W4_arr m ρ c 12).trans (((dat2 (V3 m ρ) c).arrAt_in 12 rfl _).trans (A_eq2 (V3 m ρ) c 12))).symm.trans (W4_main_arg25 m ρ c)
theorem v3_arg26 (c : Dev nD) : V3 m ρ c main_arg26 = m ((c : Thread nD τ).loc main_arg26) :=
  ((W4_arr m ρ c 13).trans (((dat2 (V3 m ρ) c).arrAt_in 13 rfl _).trans (A_eq2 (V3 m ρ) c 13))).symm.trans (W4_main_arg26 m ρ c)
theorem v3_arg27 (c : Dev nD) : V3 m ρ c main_arg27 = m ((c : Thread nD τ).loc main_arg27) :=
  ((W4_arr m ρ c 14).trans (((dat2 (V3 m ρ) c).arrAt_in 14 rfl _).trans (A_eq2 (V3 m ρ) c 14))).symm.trans (W4_main_arg27 m ρ c)
theorem v3_arg28 (c : Dev nD) : V3 m ρ c main_arg28 = m ((c : Thread nD τ).loc main_arg28) :=
  ((W4_arr m ρ c 15).trans (((dat2 (V3 m ρ) c).arrAt_in 15 rfl _).trans (A_eq2 (V3 m ρ) c 15))).symm.trans (W4_main_arg28 m ρ c)
theorem v3_arg12 (c : Dev nD) : V3 m ρ c main_arg12 = m ((c : Thread nD τ).loc main_arg12) :=
  ((W4_arr m ρ c 16).trans (((dat2 (V3 m ρ) c).arrAt_in 16 rfl _).trans (A_eq2 (V3 m ρ) c 16))).symm.trans (W4_main_arg12 m ρ c)

theorem v2_arg4 (c : Dev nD) : V2 m ρ c main_arg4 = m ((c : Thread nD τ).loc main_arg4) :=
  (W2_of_ne m ρ c main_arg4 (by decide)).trans (W1_of_ne m ρ c main_arg4 (by decide))
theorem v2_arg5 (c : Dev nD) : V2 m ρ c main_arg5 = m ((c : Thread nD τ).loc main_arg5) :=
  (W2_of_ne m ρ c main_arg5 (by decide)).trans (W1_of_ne m ρ c main_arg5 (by decide))

theorem v1_arg2 (c : Dev nD) : V1 m ρ c main_arg2 = m ((c : Thread nD τ).loc main_arg2) :=
  W1_of_ne m ρ c main_arg2 (by decide)
theorem v1_arg3 (c : Dev nD) : V1 m ρ c main_arg3 = m ((c : Thread nD τ).loc main_arg3) :=
  W1_of_ne m ρ c main_arg3 (by decide)
theorem v1_arg8 (c : Dev nD) : V1 m ρ c main_arg8 = m ((c : Thread nD τ).loc main_arg8) :=
  W1_of_ne m ρ c main_arg8 (by decide)
theorem v1_arg9 (c : Dev nD) : V1 m ρ c main_arg9 = m ((c : Thread nD τ).loc main_arg9) :=
  W1_of_ne m ρ c main_arg9 (by decide)
theorem v1_arg10 (c : Dev nD) : V1 m ρ c main_arg10 = m ((c : Thread nD τ).loc main_arg10) :=
  W1_of_ne m ρ c main_arg10 (by decide)
theorem v1_arg11 (c : Dev nD) : V1 m ρ c main_arg11 = m ((c : Thread nD τ).loc main_arg11) :=
  W1_of_ne m ρ c main_arg11 (by decide)

/-! ## The two intermediate arrays -/

/-- The edge array as the host stretch finds it. -/
theorem xkj_at (hk0 : ∀ x0 x1 x2 x3 x4 x5 x6, out0_7 (F := Ideal) x0 x1 x2 x3 x4 x5 x6 = XKJ (R := 4000) x0 x1 x2 x3 x4 x5 x6) (c : Dev nD) :
    V2 m ρ c main_call0_v0 = (XKJ (R := 100000) (m ((c : Thread nD τ).loc main_arg0)) (m ((c : Thread nD τ).loc main_arg1)) (m ((c : Thread nD τ).loc main_arg13)) (m ((c : Thread nD τ).loc main_arg14)) (m ((c : Thread nD τ).loc main_arg6)) (m ((c : Thread nD τ).loc main_arg7)) (m ((c : Thread nD τ).loc main_arg17))) :=
  ((W2_of_ne m ρ c main_call0_v0 (by decide)).trans (W1_arr m ρ c 7)).trans (Blocks0.final0_7 (V0 m ρ) hk0 c)

/-- The per-triplet array as the host stretch finds it. -/
theorem bp_at (hk1 : ∀ x0 x1 x2 x3 x4 x5, out1_6 (F := Ideal) x0 x1 x2 x3 x4 x5 = BP (R := 5000) x0 x1 x2 x3 x4 x5) (c : Dev nD) :
    V2 m ρ c main_call0_v1 = (BP (R := 500000) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11))) := by
  refine ((W2_arr m ρ c 6).trans (Blocks1.final1_6 (V1 m ρ) hk1 c)).trans ?_
  rw [v1_arg2, v1_arg3, v1_arg8, v1_arg9, v1_arg10, v1_arg11]

/-! ## The aggregate -/

/-- The aggregate as region 2 finds it: the host stretch's operations applied to the two intermediate arrays and
    the two index lists. -/
theorem agg_host (c : Dev nD) :
    V3 m ρ c main_call0_v13
      = aggOf (F := Ideal) (V2 m ρ c main_call0_v0) (fun g => mulf g (extf .f32 (V2 m ρ c main_call0_v1) bitsLt_bf16_f32))
          (V2 m ρ c main_arg4) (V2 m ρ c main_arg5) := by
  show StableHlo.after hostOps2 (W2 m ρ c) (Proc.devRef .tc main_call0_v13) = _
  after_results_simp
  rfl

/-! ## The two results -/

/-- The first result as a function of the launch contents. -/
def res0 (c : Dev nD) : Buf (Elt Ideal) ((c.tc : Thread nD τ).loc main_v0_0) :=
  E1 (R := 100000) (aggOf (F := Ideal) (XKJ (R := 100000) (m ((c : Thread nD τ).loc main_arg0)) (m ((c : Thread nD τ).loc main_arg1)) (m ((c : Thread nD τ).loc main_arg13)) (m ((c : Thread nD τ).loc main_arg14)) (m ((c : Thread nD τ).loc main_arg6)) (m ((c : Thread nD τ).loc main_arg7)) (m ((c : Thread nD τ).loc main_arg17))) (fun g => mulf g (BP (R := 500000) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)))) (m ((c : Thread nD τ).loc main_arg4)) (m ((c : Thread nD τ).loc main_arg5))) (m ((c : Thread nD τ).loc main_arg0)) (m ((c : Thread nD τ).loc main_arg15)) (m ((c : Thread nD τ).loc main_arg16)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28))

/-- The second result as a function of the launch contents. -/
def res1 (c : Dev nD) : Buf (Elt Ideal) ((c.tc : Thread nD τ).loc main_v0_1) :=
  E2 (R := 100000) (aggOf (F := Ideal) (XKJ (R := 100000) (m ((c : Thread nD τ).loc main_arg0)) (m ((c : Thread nD τ).loc main_arg1)) (m ((c : Thread nD τ).loc main_arg13)) (m ((c : Thread nD τ).loc main_arg14)) (m ((c : Thread nD τ).loc main_arg6)) (m ((c : Thread nD τ).loc main_arg7)) (m ((c : Thread nD τ).loc main_arg17))) (fun g => mulf g (BP (R := 500000) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)))) (m ((c : Thread nD τ).loc main_arg4)) (m ((c : Thread nD τ).loc main_arg5))) (m ((c : Thread nD τ).loc main_arg0)) (m ((c : Thread nD τ).loc main_arg1)) (m ((c : Thread nD τ).loc main_arg15)) (m ((c : Thread nD τ).loc main_arg16)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg12))

theorem e1_at (hk0 : ∀ x0 x1 x2 x3 x4 x5 x6, out0_7 (F := Ideal) x0 x1 x2 x3 x4 x5 x6 = XKJ (R := 4000) x0 x1 x2 x3 x4 x5 x6) (hk1 : ∀ x0 x1 x2 x3 x4 x5, out1_6 (F := Ideal) x0 x1 x2 x3 x4 x5 = BP (R := 5000) x0 x1 x2 x3 x4 x5)
    (hk17 : ∀ x0 x1 x2 x3 x4 x5 x6 x7 x8 x9 x10 x11 x12 x13 x14 x15 x16, out2_17 (F := Ideal) x0 x1 x2 x3 x4 x5 x6 x7 x8 x9 x10 x11 x12 x13 x14 x15 x16 = E1 (R := 4000) x0 x1 x3 x4 x5 x6 x7 x8 x9 x10 x11 x12 x13 x14 x15) (c : Dev nD) :
    W4 m ρ c (Proc.devRef .tc main_v0_0) = res0 m c := by
  refine ((W4_arr m ρ c 17).trans (Blocks2.final2_17 (V3 m ρ) hk17 c)).trans ?_
  rw [agg_host m ρ c, xkj_at m ρ hk0 c, bp_at m ρ hk1 c, v2_arg4, v2_arg5, v3_arg0, v3_arg15, v3_arg16, v3_arg18, v3_arg19, v3_arg20, v3_arg21, v3_arg22, v3_arg23, v3_arg24, v3_arg25, v3_arg26, v3_arg27, v3_arg28]
  rfl

theorem e2_at (hk0 : ∀ x0 x1 x2 x3 x4 x5 x6, out0_7 (F := Ideal) x0 x1 x2 x3 x4 x5 x6 = XKJ (R := 4000) x0 x1 x2 x3 x4 x5 x6) (hk1 : ∀ x0 x1 x2 x3 x4 x5, out1_6 (F := Ideal) x0 x1 x2 x3 x4 x5 = BP (R := 5000) x0 x1 x2 x3 x4 x5)
    (hk18 : ∀ x0 x1 x2 x3 x4 x5 x6 x7 x8 x9 x10 x11 x12 x13 x14 x15 x16, out2_18 (F := Ideal) x0 x1 x2 x3 x4 x5 x6 x7 x8 x9 x10 x11 x12 x13 x14 x15 x16 = E2 (R := 4000) x0 x1 x2 x3 x4 x5 x6 x7 x8 x9 x10 x11 x12 x13 x14 x15 x16) (c : Dev nD) :
    W4 m ρ c (Proc.devRef .tc main_v0_1) = res1 m c := by
  refine ((W4_arr m ρ c 18).trans (Blocks2.final2_18 (V3 m ρ) hk18 c)).trans ?_
  rw [agg_host m ρ c, xkj_at m ρ hk0 c, bp_at m ρ hk1 c, v2_arg4, v2_arg5, v3_arg0, v3_arg1, v3_arg15, v3_arg16, v3_arg18, v3_arg19, v3_arg20, v3_arg21, v3_arg22, v3_arg23, v3_arg24, v3_arg25, v3_arg26, v3_arg27, v3_arg28, v3_arg12]
  rfl

end Cert.Sphere.Middle

end
-- ==== Proof.RefRun.lean ====
/-
  The reference program's run: its @main is a straight line of 186 host operations, so every weakly fair execution
  terminates with each buffer at the operations' composed value of the launch contents.  The two results are stated
  through the named stages (a dense layer, the spelt-out activation, a residual layer, the gather / scatter-add
  aggregate), in which a value used twice appears once; the arguments end unchanged.
-/
import proofs.«178192_j4879082848306_2_alg».proof.Proof.Gen.ReferenceIdeal
import proofs.«178192_j4879082848306_2_alg».proof.Proof.RefStages
import Idealize.ShloMosaic.Lib.StableHlo.Run

noncomputable section

namespace Cert.Sphere.RefRun

open Cert.ReferenceIdeal Cert.ReferenceIdeal.Gen Idealize.ShloMosaic Idealize.ShloMosaic.TcCoe Idealize.SL.Sem Idealize.ShloMosaic.StableHlo
open Cert.Sphere.RefStages

variable {F : FTy → Type} [FloatOps F]

/-- @main's 186 operations, in order (a called function's operations stand in its call's place, spelt `TRef.…`). -/
abbrev ops : List (HloOp τ sig (Elt F)) :=
  [ binary main_arg0 main_arg15 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg16 main_v1 (broadcastInDim S1x128 ![1] bcast_S128_S1x128_1 : (⟨S128, .f32⟩ : BufTy).Contents (Elt F) → (⟨S1x128, .f32⟩ : BufTy).Contents (Elt F)),
    unary main_v1 main_v2 (broadcastInDim S100000x128 ![0, 1] bcast_S1x128_S100000x128_0_1 : (⟨S1x128, .f32⟩ : BufTy).Contents (Elt F) → (⟨S100000x128, .f32⟩ : BufTy).Contents (Elt F)),
    binary main_v0 main_v2 main_v3 (addf : (⟨S100000x128, .f32⟩ : BufTy).Contents (Elt F) → (⟨S100000x128, .f32⟩ : BufTy).Contents (Elt F) → (⟨S100000x128, .f32⟩ : BufTy).Contents (Elt F)),
    TRef.unary (TRef.of (T := ⟨S100000x128, .f32⟩) main_v3) (TRef.of (T := ⟨S100000x128, .f32⟩) main_call0_v0) Host.negf,
    TRef.unary (TRef.of (T := ⟨S100000x128, .f32⟩) main_call0_v0) (TRef.of (T := ⟨S100000x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S100000x128, .f32⟩) main_call0_v2) (broadcastInDim S100000x128 ![] bcast_S_S100000x128),
    TRef.binary (TRef.of (T := ⟨S100000x128, .f32⟩) main_call0_v2) (TRef.of (T := ⟨S100000x128, .f32⟩) main_call0_v1) (TRef.of (T := ⟨S100000x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S100000x128, .f32⟩) main_call0_v4) (broadcastInDim S100000x128 ![] bcast_S_S100000x128),
    TRef.binary (TRef.of (T := ⟨S100000x128, .f32⟩) main_call0_v4) (TRef.of (T := ⟨S100000x128, .f32⟩) main_call0_v3) (TRef.of (T := ⟨S100000x128, .f32⟩) main_call0_v5) Host.divf,
    TRef.binary (TRef.of (T := ⟨S100000x128, .f32⟩) main_v3) (TRef.of (T := ⟨S100000x128, .f32⟩) main_call0_v5) (TRef.of (T := ⟨S100000x128, .f32⟩) main_v4) mulf,
    binary main_arg0 main_arg13 main_v5 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg14 main_v6 (broadcastInDim S1x128 ![1] bcast_S128_S1x128_1 : (⟨S128, .f32⟩ : BufTy).Contents (Elt F) → (⟨S1x128, .f32⟩ : BufTy).Contents (Elt F)),
    unary main_v6 main_v7 (broadcastInDim S100000x128 ![0, 1] bcast_S1x128_S100000x128_0_1 : (⟨S1x128, .f32⟩ : BufTy).Contents (Elt F) → (⟨S100000x128, .f32⟩ : BufTy).Contents (Elt F)),
    binary main_v5 main_v7 main_v8 (addf : (⟨S100000x128, .f32⟩ : BufTy).Contents (Elt F) → (⟨S100000x128, .f32⟩ : BufTy).Contents (Elt F) → (⟨S100000x128, .f32⟩ : BufTy).Contents (Elt F)),
    TRef.unary (TRef.of (T := ⟨S100000x128, .f32⟩) main_v8) (TRef.of (T := ⟨S100000x128, .f32⟩) main_call1_v0) Host.negf,
    TRef.unary (TRef.of (T := ⟨S100000x128, .f32⟩) main_call1_v0) (TRef.of (T := ⟨S100000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S100000x128, .f32⟩) main_call1_v2) (broadcastInDim S100000x128 ![] bcast_S_S100000x128),
    TRef.binary (TRef.of (T := ⟨S100000x128, .f32⟩) main_call1_v2) (TRef.of (T := ⟨S100000x128, .f32⟩) main_call1_v1) (TRef.of (T := ⟨S100000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S100000x128, .f32⟩) main_call1_v4) (broadcastInDim S100000x128 ![] bcast_S_S100000x128),
    TRef.binary (TRef.of (T := ⟨S100000x128, .f32⟩) main_call1_v4) (TRef.of (T := ⟨S100000x128, .f32⟩) main_call1_v3) (TRef.of (T := ⟨S100000x128, .f32⟩) main_call1_v5) Host.divf,
    TRef.binary (TRef.of (T := ⟨S100000x128, .f32⟩) main_v8) (TRef.of (T := ⟨S100000x128, .f32⟩) main_call1_v5) (TRef.of (T := ⟨S100000x128, .f32⟩) main_v9) mulf,
    binary main_arg1 main_arg6 main_v10 ((fun l r => Host.dotGeneral dot_S100000x6_S6x8_S100000x8_1_0_0_1_n_n none l r) : (⟨S100000x6, .f32⟩ : BufTy).Contents (Elt F) → (⟨S6x8, .f32⟩ : BufTy).Contents (Elt F) → (⟨S100000x8, .f32⟩ : BufTy).Contents (Elt F)),
    binary main_v10 main_arg7 main_v11 ((fun l r => Host.dotGeneral dot_S100000x8_S8x128_S100000x128_1_0_0_1_n_n none l r) : (⟨S100000x8, .f32⟩ : BufTy).Contents (Elt F) → (⟨S8x128, .f32⟩ : BufTy).Contents (Elt F) → (⟨S100000x128, .f32⟩ : BufTy).Contents (Elt F)),
    binary main_v9 main_v11 main_v12 (mulf : (⟨S100000x128, .f32⟩ : BufTy).Contents (Elt F) → (⟨S100000x128, .f32⟩ : BufTy).Contents (Elt F) → (⟨S100000x128, .f32⟩ : BufTy).Contents (Elt F)),
    binary main_v12 main_arg17 main_v13 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    TRef.unary (TRef.of (T := ⟨S100000x64, .f32⟩) main_v13) (TRef.of (T := ⟨S100000x64, .f32⟩) main_call2_v0) Host.negf,
    TRef.unary (TRef.of (T := ⟨S100000x64, .f32⟩) main_call2_v0) (TRef.of (T := ⟨S100000x64, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S100000x64, .f32⟩) main_call2_v2) (broadcastInDim S100000x64 ![] bcast_S_S100000x64),
    TRef.binary (TRef.of (T := ⟨S100000x64, .f32⟩) main_call2_v2) (TRef.of (T := ⟨S100000x64, .f32⟩) main_call2_v1) (TRef.of (T := ⟨S100000x64, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S100000x64, .f32⟩) main_call2_v4) (broadcastInDim S100000x64 ![] bcast_S_S100000x64),
    TRef.binary (TRef.of (T := ⟨S100000x64, .f32⟩) main_call2_v4) (TRef.of (T := ⟨S100000x64, .f32⟩) main_call2_v3) (TRef.of (T := ⟨S100000x64, .f32⟩) main_call2_v5) Host.divf,
    TRef.binary (TRef.of (T := ⟨S100000x64, .f32⟩) main_v13) (TRef.of (T := ⟨S100000x64, .f32⟩) main_call2_v5) (TRef.of (T := ⟨S100000x64, .f32⟩) main_v14) mulf,
    binary main_arg2 main_arg8 main_v15 ((fun l r => Host.dotGeneral dot_S500000x42_S42x8_S500000x8_1_0_0_1_n_n none l r) : (⟨S500000x42, .f32⟩ : BufTy).Contents (Elt F) → (⟨S42x8, .f32⟩ : BufTy).Contents (Elt F) → (⟨S500000x8, .f32⟩ : BufTy).Contents (Elt F)),
    binary main_v15 main_arg9 main_v16 ((fun l r => Host.dotGeneral dot_S500000x8_S8x64_S500000x64_1_0_0_1_n_n none l r) : (⟨S500000x8, .f32⟩ : BufTy).Contents (Elt F) → (⟨S8x64, .f32⟩ : BufTy).Contents (Elt F) → (⟨S500000x64, .f32⟩ : BufTy).Contents (Elt F)),
    binary main_arg3 main_arg10 main_v17 ((fun l r => Host.dotGeneral dot_S500000x294_S294x8_S500000x8_1_0_0_1_n_n none l r) : (⟨S500000x294, .f32⟩ : BufTy).Contents (Elt F) → (⟨S294x8, .f32⟩ : BufTy).Contents (Elt F) → (⟨S500000x8, .f32⟩ : BufTy).Contents (Elt F)),
    binary main_v17 main_arg11 main_v18 ((fun l r => Host.dotGeneral dot_S500000x8_S8x64_S500000x64_1_0_0_1_n_n none l r) : (⟨S500000x8, .f32⟩ : BufTy).Contents (Elt F) → (⟨S8x64, .f32⟩ : BufTy).Contents (Elt F) → (⟨S500000x64, .f32⟩ : BufTy).Contents (Elt F)),
    nullary main_c (constantI S_ 32 0#32),
    unary main_c main_v19 (broadcastInDim S500000 ![] bcast_S_S500000 : (⟨S_, .i32⟩ : BufTy).Contents (Elt F) → (⟨S500000, .i32⟩ : BufTy).Contents (Elt F)),
    binary main_arg4 main_v19 main_v20 (cmpi .slt : (⟨S500000, .i32⟩ : BufTy).Contents (Elt F) → (⟨S500000, .i32⟩ : BufTy).Contents (Elt F) → (⟨S500000, .i1⟩ : BufTy).Contents (Elt F)),
    nullary main_c_0 (constantI S_ 32 100000#32),
    unary main_c_0 main_v21 (broadcastInDim S500000 ![] bcast_S_S500000 : (⟨S_, .i32⟩ : BufTy).Contents (Elt F) → (⟨S500000, .i32⟩ : BufTy).Contents (Elt F)),
    binary main_arg4 main_v21 main_v22 (addi : (⟨S500000, .i32⟩ : BufTy).Contents (Elt F) → (⟨S500000, .i32⟩ : BufTy).Contents (Elt F) → (⟨S500000, .i32⟩ : BufTy).Contents (Elt F)),
    ternary main_v20 main_v22 main_arg4 main_v23 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v23 main_v24 (broadcastInDim S500000x1 ![0] bcast_S500000_S500000x1_0 : (⟨S500000, .i32⟩ : BufTy).Contents (Elt F) → (⟨S500000x1, .i32⟩ : BufTy).Contents (Elt F)),
    binary main_v14 main_v24 main_v25 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    binary main_v25 main_v16 main_v26 (mulf : (⟨S500000x64, .f32⟩ : BufTy).Contents (Elt F) → (⟨S500000x64, .f32⟩ : BufTy).Contents (Elt F) → (⟨S500000x64, .f32⟩ : BufTy).Contents (Elt F)),
    binary main_v26 main_v18 main_v27 (mulf : (⟨S500000x64, .f32⟩ : BufTy).Contents (Elt F) → (⟨S500000x64, .f32⟩ : BufTy).Contents (Elt F) → (⟨S500000x64, .f32⟩ : BufTy).Contents (Elt F)),
    nullary main_cst (constant S_ .f32 0x00000000#32),
    unary main_cst main_v28 (broadcastInDim S100000x64 ![] bcast_S_S100000x64 : (⟨S_, .f32⟩ : BufTy).Contents (Elt F) → (⟨S100000x64, .f32⟩ : BufTy).Contents (Elt F)),
    unary main_arg5 main_v29 (broadcastInDim S500000x1 ![0] bcast_S500000_S500000x1_0 : (⟨S500000, .i32⟩ : BufTy).Contents (Elt F) → (⟨S500000x1, .i32⟩ : BufTy).Contents (Elt F)),
    ternary main_v28 main_v29 main_v27 main_v30 ((fun x i u => Host.scatterAdd scatter_S100000x64_S500000x1_S500000x64_1_0_0_1 x i u) : (⟨S100000x64, .f32⟩ : BufTy).Contents (Elt F) → (⟨S500000x1, .i32⟩ : BufTy).Contents (Elt F) → (⟨S500000x64, .f32⟩ : BufTy).Contents (Elt F) → (⟨S100000x64, .f32⟩ : BufTy).Contents (Elt F)),
    binary main_v30 main_arg18 main_v31 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    TRef.unary (TRef.of (T := ⟨S100000x128, .f32⟩) main_v31) (TRef.of (T := ⟨S100000x128, .f32⟩) main_call3_v0) Host.negf,
    TRef.unary (TRef.of (T := ⟨S100000x128, .f32⟩) main_call3_v0) (TRef.of (T := ⟨S100000x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S100000x128, .f32⟩) main_call3_v2) (broadcastInDim S100000x128 ![] bcast_S_S100000x128),
    TRef.binary (TRef.of (T := ⟨S100000x128, .f32⟩) main_call3_v2) (TRef.of (T := ⟨S100000x128, .f32⟩) main_call3_v1) (TRef.of (T := ⟨S100000x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S100000x128, .f32⟩) main_call3_v4) (broadcastInDim S100000x128 ![] bcast_S_S100000x128),
    TRef.binary (TRef.of (T := ⟨S100000x128, .f32⟩) main_call3_v4) (TRef.of (T := ⟨S100000x128, .f32⟩) main_call3_v3) (TRef.of (T := ⟨S100000x128, .f32⟩) main_call3_v5) Host.divf,
    TRef.binary (TRef.of (T := ⟨S100000x128, .f32⟩) main_v31) (TRef.of (T := ⟨S100000x128, .f32⟩) main_call3_v5) (TRef.of (T := ⟨S100000x128, .f32⟩) main_v32) mulf,
    binary main_v4 main_v32 main_v33 (addf : (⟨S100000x128, .f32⟩ : BufTy).Contents (Elt F) → (⟨S100000x128, .f32⟩ : BufTy).Contents (Elt F) → (⟨S100000x128, .f32⟩ : BufTy).Contents (Elt F)),
    reshape main_arg19 main_v34 rfl shapeCasts_S1x128x128_S128x128,
    reshape main_arg20 main_v35 rfl shapeCasts_S1x128_S128,
    reshape main_arg21 main_v36 rfl shapeCasts_S1x128x128_S128x128,
    reshape main_arg22 main_v37 rfl shapeCasts_S1x128_S128,
    binary main_v33 main_v34 main_v38 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v35 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v38 main_v40 main_v41 (addf : (⟨S100000x128, .f32⟩ : BufTy).Contents (Elt F) → (⟨S100000x128, .f32⟩ : BufTy).Contents (Elt F) → (⟨S100000x128, .f32⟩ : BufTy).Contents (Elt F)),
    TRef.unary (TRef.of (T := ⟨S100000x128, .f32⟩) main_v41) (TRef.of (T := ⟨S100000x128, .f32⟩) main_call4_v0) Host.negf,
    TRef.unary (TRef.of (T := ⟨S100000x128, .f32⟩) main_call4_v0) (TRef.of (T := ⟨S100000x128, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S100000x128, .f32⟩) main_call4_v2) (broadcastInDim S100000x128 ![] bcast_S_S100000x128),
    TRef.binary (TRef.of (T := ⟨S100000x128, .f32⟩) main_call4_v2) (TRef.of (T := ⟨S100000x128, .f32⟩) main_call4_v1) (TRef.of (T := ⟨S100000x128, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S100000x128, .f32⟩) main_call4_v4) (broadcastInDim S100000x128 ![] bcast_S_S100000x128),
    TRef.binary (TRef.of (T := ⟨S100000x128, .f32⟩) main_call4_v4) (TRef.of (T := ⟨S100000x128, .f32⟩) main_call4_v3) (TRef.of (T := ⟨S100000x128, .f32⟩) main_call4_v5) Host.divf,
    TRef.binary (TRef.of (T := ⟨S100000x128, .f32⟩) main_v41) (TRef.of (T := ⟨S100000x128, .f32⟩) main_call4_v5) (TRef.of (T := ⟨S100000x128, .f32⟩) main_v42) mulf,
    binary main_v42 main_v36 main_v43 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v37 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.unary (TRef.of (T := ⟨S100000x128, .f32⟩) main_v46) (TRef.of (T := ⟨S100000x128, .f32⟩) main_call5_v0) Host.negf,
    TRef.unary (TRef.of (T := ⟨S100000x128, .f32⟩) main_call5_v0) (TRef.of (T := ⟨S100000x128, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S100000x128, .f32⟩) main_call5_v2) (broadcastInDim S100000x128 ![] bcast_S_S100000x128),
    TRef.binary (TRef.of (T := ⟨S100000x128, .f32⟩) main_call5_v2) (TRef.of (T := ⟨S100000x128, .f32⟩) main_call5_v1) (TRef.of (T := ⟨S100000x128, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S100000x128, .f32⟩) main_call5_v4) (broadcastInDim S100000x128 ![] bcast_S_S100000x128),
    TRef.binary (TRef.of (T := ⟨S100000x128, .f32⟩) main_call5_v4) (TRef.of (T := ⟨S100000x128, .f32⟩) main_call5_v3) (TRef.of (T := ⟨S100000x128, .f32⟩) main_call5_v5) Host.divf,
    TRef.binary (TRef.of (T := ⟨S100000x128, .f32⟩) main_v46) (TRef.of (T := ⟨S100000x128, .f32⟩) main_call5_v5) (TRef.of (T := ⟨S100000x128, .f32⟩) main_v47) mulf,
    binary main_v33 main_v47 main_v48 (addf : (⟨S100000x128, .f32⟩ : BufTy).Contents (Elt F) → (⟨S100000x128, .f32⟩ : BufTy).Contents (Elt F) → (⟨S100000x128, .f32⟩ : BufTy).Contents (Elt F)),
    binary main_v48 main_arg23 main_v49 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg24 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v49 main_v51 main_v52 (addf : (⟨S100000x128, .f32⟩ : BufTy).Contents (Elt F) → (⟨S100000x128, .f32⟩ : BufTy).Contents (Elt F) → (⟨S100000x128, .f32⟩ : BufTy).Contents (Elt F)),
    TRef.unary (TRef.of (T := ⟨S100000x128, .f32⟩) main_v52) (TRef.of (T := ⟨S100000x128, .f32⟩) main_call6_v0) Host.negf,
    TRef.unary (TRef.of (T := ⟨S100000x128, .f32⟩) main_call6_v0) (TRef.of (T := ⟨S100000x128, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S100000x128, .f32⟩) main_call6_v2) (broadcastInDim S100000x128 ![] bcast_S_S100000x128),
    TRef.binary (TRef.of (T := ⟨S100000x128, .f32⟩) main_call6_v2) (TRef.of (T := ⟨S100000x128, .f32⟩) main_call6_v1) (TRef.of (T := ⟨S100000x128, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S100000x128, .f32⟩) main_call6_v4) (broadcastInDim S100000x128 ![] bcast_S_S100000x128),
    TRef.binary (TRef.of (T := ⟨S100000x128, .f32⟩) main_call6_v4) (TRef.of (T := ⟨S100000x128, .f32⟩) main_call6_v3) (TRef.of (T := ⟨S100000x128, .f32⟩) main_call6_v5) Host.divf,
    TRef.binary (TRef.of (T := ⟨S100000x128, .f32⟩) main_v52) (TRef.of (T := ⟨S100000x128, .f32⟩) main_call6_v5) (TRef.of (T := ⟨S100000x128, .f32⟩) main_v53) mulf,
    binary main_v53 main_arg0 main_v54 (addf : (⟨S100000x128, .f32⟩ : BufTy).Contents (Elt F) → (⟨S100000x128, .f32⟩ : BufTy).Contents (Elt F) → (⟨S100000x128, .f32⟩ : BufTy).Contents (Elt F)),
    unary main_arg25 main_v55 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v55 main_v56 rfl shapeCasts_S1x128x128_S128x128,
    unary main_arg26 main_v57 ((extractStridedSlice S1x128 ![0, 0] · slices_S2x128_S1x128_0_0) : (⟨S2x128, .f32⟩ : BufTy).Contents (Elt F) → (⟨S1x128, .f32⟩ : BufTy).Contents (Elt F)),
    reshape main_v57 main_v58 rfl shapeCasts_S1x128_S128,
    unary main_arg27 main_v59 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v59 main_v60 rfl shapeCasts_S1x128x128_S128x128,
    unary main_arg28 main_v61 ((extractStridedSlice S1x128 ![0, 0] · slices_S2x128_S1x128_0_0) : (⟨S2x128, .f32⟩ : BufTy).Contents (Elt F) → (⟨S1x128, .f32⟩ : BufTy).Contents (Elt F)),
    reshape main_v61 main_v62 rfl shapeCasts_S1x128_S128,
    binary main_v54 main_v56 main_v63 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v58 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)),
    TRef.unary (TRef.of (T := ⟨S100000x128, .f32⟩) main_v66) (TRef.of (T := ⟨S100000x128, .f32⟩) main_call7_v0) Host.negf,
    TRef.unary (TRef.of (T := ⟨S100000x128, .f32⟩) main_call7_v0) (TRef.of (T := ⟨S100000x128, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S100000x128, .f32⟩) main_call7_v2) (broadcastInDim S100000x128 ![] bcast_S_S100000x128),
    TRef.binary (TRef.of (T := ⟨S100000x128, .f32⟩) main_call7_v2) (TRef.of (T := ⟨S100000x128, .f32⟩) main_call7_v1) (TRef.of (T := ⟨S100000x128, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S100000x128, .f32⟩) main_call7_v4) (broadcastInDim S100000x128 ![] bcast_S_S100000x128),
    TRef.binary (TRef.of (T := ⟨S100000x128, .f32⟩) main_call7_v4) (TRef.of (T := ⟨S100000x128, .f32⟩) main_call7_v3) (TRef.of (T := ⟨S100000x128, .f32⟩) main_call7_v5) Host.divf,
    TRef.binary (TRef.of (T := ⟨S100000x128, .f32⟩) main_v66) (TRef.of (T := ⟨S100000x128, .f32⟩) main_call7_v5) (TRef.of (T := ⟨S100000x128, .f32⟩) main_v67) mulf,
    binary main_v67 main_v60 main_v68 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v62 main_v69 (broadcastInDim S1x128 ![1] bcast_S128_S1x128_1 : (⟨S128, .f32⟩ : BufTy).Contents (Elt F) → (⟨S1x128, .f32⟩ : BufTy).Contents (Elt F)),
    unary main_v69 main_v70 (broadcastInDim S100000x128 ![0, 1] bcast_S1x128_S100000x128_0_1 : (⟨S1x128, .f32⟩ : BufTy).Contents (Elt F) → (⟨S100000x128, .f32⟩ : BufTy).Contents (Elt F)),
    binary main_v68 main_v70 main_v71 (addf : (⟨S100000x128, .f32⟩ : BufTy).Contents (Elt F) → (⟨S100000x128, .f32⟩ : BufTy).Contents (Elt F) → (⟨S100000x128, .f32⟩ : BufTy).Contents (Elt F)),
    TRef.unary (TRef.of (T := ⟨S100000x128, .f32⟩) main_v71) (TRef.of (T := ⟨S100000x128, .f32⟩) main_call8_v0) Host.negf,
    TRef.unary (TRef.of (T := ⟨S100000x128, .f32⟩) main_call8_v0) (TRef.of (T := ⟨S100000x128, .f32⟩) main_call8_v1) Host.exp,
    TRef.nullary (TRef.of (T := ⟨S_, .f32⟩) main_call8_cst) (constant S_ .f32 0x3F800000#32),
    TRef.unary (TRef.of (T := ⟨S_, .f32⟩) main_call8_cst) (TRef.of (T := ⟨S100000x128, .f32⟩) main_call8_v2) (broadcastInDim S100000x128 ![] bcast_S_S100000x128),
    TRef.binary (TRef.of (T := ⟨S100000x128, .f32⟩) main_call8_v2) (TRef.of (T := ⟨S100000x128, .f32⟩) main_call8_v1) (TRef.of (T := ⟨S100000x128, .f32⟩) main_call8_v3) addf,
    TRef.nullary (TRef.of (T := ⟨S_, .f32⟩) main_call8_cst_0) (constant S_ .f32 0x3F800000#32),
    TRef.unary (TRef.of (T := ⟨S_, .f32⟩) main_call8_cst_0) (TRef.of (T := ⟨S100000x128, .f32⟩) main_call8_v4) (broadcastInDim S100000x128 ![] bcast_S_S100000x128),
    TRef.binary (TRef.of (T := ⟨S100000x128, .f32⟩) main_call8_v4) (TRef.of (T := ⟨S100000x128, .f32⟩) main_call8_v3) (TRef.of (T := ⟨S100000x128, .f32⟩) main_call8_v5) Host.divf,
    TRef.binary (TRef.of (T := ⟨S100000x128, .f32⟩) main_v71) (TRef.of (T := ⟨S100000x128, .f32⟩) main_call8_v5) (TRef.of (T := ⟨S100000x128, .f32⟩) main_v72) mulf,
    binary main_v54 main_v72 main_v73 (addf : (⟨S100000x128, .f32⟩ : BufTy).Contents (Elt F) → (⟨S100000x128, .f32⟩ : BufTy).Contents (Elt F) → (⟨S100000x128, .f32⟩ : BufTy).Contents (Elt F)),
    unary main_arg25 main_v74 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v74 main_v75 rfl shapeCasts_S1x128x128_S128x128,
    unary main_arg26 main_v76 ((extractStridedSlice S1x128 ![1, 0] · slices_S2x128_S1x128_1_0) : (⟨S2x128, .f32⟩ : BufTy).Contents (Elt F) → (⟨S1x128, .f32⟩ : BufTy).Contents (Elt F)),
    reshape main_v76 main_v77 rfl shapeCasts_S1x128_S128,
    unary main_arg27 main_v78 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v78 main_v79 rfl shapeCasts_S1x128x128_S128x128,
    unary main_arg28 main_v80 ((extractStridedSlice S1x128 ![1, 0] · slices_S2x128_S1x128_1_0) : (⟨S2x128, .f32⟩ : BufTy).Contents (Elt F) → (⟨S1x128, .f32⟩ : BufTy).Contents (Elt F)),
    reshape main_v80 main_v81 rfl shapeCasts_S1x128_S128,
    binary main_v73 main_v75 main_v82 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v77 main_v83 (broadcastInDim S1x128 ![1] bcast_S128_S1x128_1 : (⟨S128, .f32⟩ : BufTy).Contents (Elt F) → (⟨S1x128, .f32⟩ : BufTy).Contents (Elt F)),
    unary main_v83 main_v84 (broadcastInDim S100000x128 ![0, 1] bcast_S1x128_S100000x128_0_1 : (⟨S1x128, .f32⟩ : BufTy).Contents (Elt F) → (⟨S100000x128, .f32⟩ : BufTy).Contents (Elt F)),
    binary main_v82 main_v84 main_v85 (addf : (⟨S100000x128, .f32⟩ : BufTy).Contents (Elt F) → (⟨S100000x128, .f32⟩ : BufTy).Contents (Elt F) → (⟨S100000x128, .f32⟩ : BufTy).Contents (Elt F)),
    TRef.unary (TRef.of (T := ⟨S100000x128, .f32⟩) main_v85) (TRef.of (T := ⟨S100000x128, .f32⟩) main_call9_v0) Host.negf,
    TRef.unary (TRef.of (T := ⟨S100000x128, .f32⟩) main_call9_v0) (TRef.of (T := ⟨S100000x128, .f32⟩) main_call9_v1) Host.exp,
    TRef.nullary (TRef.of (T := ⟨S_, .f32⟩) main_call9_cst) (constant S_ .f32 0x3F800000#32),
    TRef.unary (TRef.of (T := ⟨S_, .f32⟩) main_call9_cst) (TRef.of (T := ⟨S100000x128, .f32⟩) main_call9_v2) (broadcastInDim S100000x128 ![] bcast_S_S100000x128),
    TRef.binary (TRef.of (T := ⟨S100000x128, .f32⟩) main_call9_v2) (TRef.of (T := ⟨S100000x128, .f32⟩) main_call9_v1) (TRef.of (T := ⟨S100000x128, .f32⟩) main_call9_v3) addf,
    TRef.nullary (TRef.of (T := ⟨S_, .f32⟩) main_call9_cst_0) (constant S_ .f32 0x3F800000#32),
    TRef.unary (TRef.of (T := ⟨S_, .f32⟩) main_call9_cst_0) (TRef.of (T := ⟨S100000x128, .f32⟩) main_call9_v4) (broadcastInDim S100000x128 ![] bcast_S_S100000x128),
    TRef.binary (TRef.of (T := ⟨S100000x128, .f32⟩) main_call9_v4) (TRef.of (T := ⟨S100000x128, .f32⟩) main_call9_v3) (TRef.of (T := ⟨S100000x128, .f32⟩) main_call9_v5) Host.divf,
    TRef.binary (TRef.of (T := ⟨S100000x128, .f32⟩) main_v85) (TRef.of (T := ⟨S100000x128, .f32⟩) main_call9_v5) (TRef.of (T := ⟨S100000x128, .f32⟩) main_v86) mulf,
    binary main_v86 main_v79 main_v87 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v81 main_v88 (broadcastInDim S1x128 ![1] bcast_S128_S1x128_1 : (⟨S128, .f32⟩ : BufTy).Contents (Elt F) → (⟨S1x128, .f32⟩ : BufTy).Contents (Elt F)),
    unary main_v88 main_v89 (broadcastInDim S100000x128 ![0, 1] bcast_S1x128_S100000x128_0_1 : (⟨S1x128, .f32⟩ : BufTy).Contents (Elt F) → (⟨S100000x128, .f32⟩ : BufTy).Contents (Elt F)),
    binary main_v87 main_v89 main_v90 (addf : (⟨S100000x128, .f32⟩ : BufTy).Contents (Elt F) → (⟨S100000x128, .f32⟩ : BufTy).Contents (Elt F) → (⟨S100000x128, .f32⟩ : BufTy).Contents (Elt F)),
    TRef.unary (TRef.of (T := ⟨S100000x128, .f32⟩) main_v90) (TRef.of (T := ⟨S100000x128, .f32⟩) main_call10_v0) Host.negf,
    TRef.unary (TRef.of (T := ⟨S100000x128, .f32⟩) main_call10_v0) (TRef.of (T := ⟨S100000x128, .f32⟩) main_call10_v1) Host.exp,
    TRef.nullary (TRef.of (T := ⟨S_, .f32⟩) main_call10_cst) (constant S_ .f32 0x3F800000#32),
    TRef.unary (TRef.of (T := ⟨S_, .f32⟩) main_call10_cst) (TRef.of (T := ⟨S100000x128, .f32⟩) main_call10_v2) (broadcastInDim S100000x128 ![] bcast_S_S100000x128),
    TRef.binary (TRef.of (T := ⟨S100000x128, .f32⟩) main_call10_v2) (TRef.of (T := ⟨S100000x128, .f32⟩) main_call10_v1) (TRef.of (T := ⟨S100000x128, .f32⟩) main_call10_v3) addf,
    TRef.nullary (TRef.of (T := ⟨S_, .f32⟩) main_call10_cst_0) (constant S_ .f32 0x3F800000#32),
    TRef.unary (TRef.of (T := ⟨S_, .f32⟩) main_call10_cst_0) (TRef.of (T := ⟨S100000x128, .f32⟩) main_call10_v4) (broadcastInDim S100000x128 ![] bcast_S_S100000x128),
    TRef.binary (TRef.of (T := ⟨S100000x128, .f32⟩) main_call10_v4) (TRef.of (T := ⟨S100000x128, .f32⟩) main_call10_v3) (TRef.of (T := ⟨S100000x128, .f32⟩) main_call10_v5) Host.divf,
    TRef.binary (TRef.of (T := ⟨S100000x128, .f32⟩) main_v90) (TRef.of (T := ⟨S100000x128, .f32⟩) main_call10_v5) (TRef.of (T := ⟨S100000x128, .f32⟩) main_v91) mulf,
    binary main_v73 main_v91 main_v92 (addf : (⟨S100000x128, .f32⟩ : BufTy).Contents (Elt F) → (⟨S100000x128, .f32⟩ : BufTy).Contents (Elt F) → (⟨S100000x128, .f32⟩ : BufTy).Contents (Elt F)),
    binary main_arg1 main_arg12 main_v93 ((fun l r => Host.dotGeneral dot_S100000x6_S6x128_S100000x128_1_0_0_1_n_n none l r) : (⟨S100000x6, .f32⟩ : BufTy).Contents (Elt F) → (⟨S6x128, .f32⟩ : BufTy).Contents (Elt F) → (⟨S100000x128, .f32⟩ : BufTy).Contents (Elt F)),
    binary main_v93 main_v92 main_v94 (mulf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., unary_bufs_sub .., ternary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., reshape_bufs_sub .., reshape_bufs_sub .., reshape_bufs_sub .., reshape_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub ..⟩

/-- The first result's value of the launch contents: the update stage of the reference's aggregate. -/
def out0 (m : (ℓ : Loc nD τ sig) → Buf (Elt F) ℓ) (c : Dev nD) : Buf (Elt F) ((c.tc : Thread nD τ).loc main_v92) :=
  refE1 (refAgg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg13)) (m ((c.tc : Thread nD τ).loc main_arg14)) (m ((c.tc : Thread nD τ).loc main_arg17))) (m ((c.tc : Thread nD τ).loc main_arg0)) (m ((c.tc : Thread nD τ).loc main_arg15)) (m ((c.tc : Thread nD τ).loc main_arg16)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))

/-- The second result's value of the launch contents: the radial projection times the first result. -/
def out1 (m : (ℓ : Loc nD τ sig) → Buf (Elt F) ℓ) (c : Dev nD) : Buf (Elt F) ((c.tc : Thread nD τ).loc main_v94) :=
  refE2 (out0 m c) (m ((c.tc : Thread nD τ).loc main_arg1)) (m ((c.tc : Thread nD τ).loc main_arg12))

set_option maxRecDepth 8192 in
set_option maxHeartbeats 74400000 in
/-- On every device, from any memory with zero counters: every weakly fair execution of @main terminates with each
    result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v92) = out0 m c
      ∧ r.2.mem ((c.tc : Thread nD τ).loc main_v94) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun _ h c => ⟨(h c main_v92).trans (by after_results_simp <;> rfl),
      (h c main_v94).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl),
      (h c main_arg19).trans (by after_results_simp <;> rfl),
      (h c main_arg20).trans (by after_results_simp <;> rfl),
      (h c main_arg21).trans (by after_results_simp <;> rfl),
      (h c main_arg22).trans (by after_results_simp <;> rfl),
      (h c main_arg23).trans (by after_results_simp <;> rfl),
      (h c main_arg24).trans (by after_results_simp <;> rfl),
      (h c main_arg25).trans (by after_results_simp <;> rfl),
      (h c main_arg26).trans (by after_results_simp <;> rfl),
      (h c main_arg27).trans (by after_results_simp <;> rfl),
      (h c main_arg28).trans (by after_results_simp <;> rfl)⟩)
    (run_seq scopedRefs_eq scopedSems_eq defs main (fun _ => ops) main_eq (fun _ => ops_sub) m ρ)

end Cert.Sphere.RefRun

end
-- ==== Proof.LibMoments.lean ====
/-
  GENERAL lemmas on the extended reals with the exact ("ideal") float operations: entries that are real
  numbers, the quotient by a nonzero real, a few float literals, and the two formulas for a variance.

  On the extended reals a difference of infinities is a junk value, so E[x²] − E[x]² and E[(x − E[x])²] agree
  only where the entries are real numbers. The predicate IsR x says "x is (the image of) a real number"; it is
  closed under the ring operations, finite sums, max, if-then-else and the quotient by a nonzero real, and on
  such entries every identity below is the identity of real numbers transported along the inclusion ℝ → EReal.
-/
import Mathlib.Data.EReal.Inv
import Mathlib.Analysis.SpecialFunctions.Pow.Real
import Mathlib.Algebra.BigOperators.Group.Finset.Basic
import Mathlib.Algebra.BigOperators.Fin
import Mathlib.Tactic.Ring
import Mathlib.Tactic.Linarith
import Mathlib.Tactic.FieldSimp
import Mathlib.Tactic.Positivity
import Idealize.ShloMosaic.PureOps.Ideal

noncomputable section

namespace Cert.LibMoments

open Idealize.ShloMosaic
open scoped BigOperators

/-! ## Entries that are real numbers -/

/-- The extended real x is a real number. -/
def IsR (x : EReal) : Prop := ∃ r : ℝ, x = (r : EReal)

theorem IsR.coe (r : ℝ) : IsR (r : EReal) := ⟨r, rfl⟩

theorem IsR_zero : IsR 0 := ⟨0, EReal.coe_zero.symm⟩

theorem IsR_one : IsR 1 := ⟨1, EReal.coe_one.symm⟩

theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The inclusion of the reals commutes with finite sums. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real entries is a real entry. -/
theorem IsR.finset_sum {ι : Type*} (s : Finset ι) (f : ι → EReal) (h : ∀ i ∈ s, IsR (f i)) :
    IsR (∑ i ∈ s, f i) := by
  classical
  induction s using Finset.induction_on with
  | empty => simpa using IsR_zero
  | insert a s ha ih =>
    rw [Finset.sum_insert ha]
    exact (h a (Finset.mem_insert_self a s)).add (ih fun i hi => h i (Finset.mem_insert_of_mem hi))

theorem IsR.sum {ι : Type*} [Fintype ι] (f : ι → EReal) (h : ∀ i, IsR (f i)) : IsR (∑ i, f i) :=
  IsR.finset_sum Finset.univ f fun i _ => h i

theorem IsR.max {x y : EReal} (hx : IsR x) (hy : IsR y) : IsR (max x y) := by
  rcases le_total x y with h | h
  · rw [max_eq_right h]; exact hy
  · rw [max_eq_left h]; exact hx

theorem IsR.min {x y : EReal} (hx : IsR x) (hy : IsR y) : IsR (min x y) := by
  rcases le_total x y with h | h
  · rw [min_eq_left h]; exact hx
  · rw [min_eq_right h]; exact hy

theorem IsR.ite {p : Prop} [Decidable p] {x y : EReal} (hx : IsR x) (hy : IsR y) :
    IsR (if p then x else y) := by
  split
  · exact hx
  · exact hy

/-- The quotient of a real by a nonzero real, read as extended reals, is the real quotient. -/
theorem div_coe_coe (a b : ℝ) (hb : b ≠ 0) : Ideal.div (a : EReal) (b : EReal) = ((a / b : ℝ) : EReal) := by
  rw [Ideal.div_coe hb, ← EReal.coe_mul, mul_one_div]

theorem IsR.div_real {x : EReal} (hx : IsR x) (c : EReal) (hc : IsR c) (hc0 : c ≠ 0) : IsR (Ideal.div x c) := by
  obtain ⟨a, rfl⟩ := hx; obtain ⟨b, rfl⟩ := hc
  have hb : b ≠ 0 := fun h => hc0 (by rw [h, EReal.coe_zero])
  exact ⟨a / b, div_coe_coe a b hb⟩

/-! ## The quotient as a product with the reciprocal; max x 1 -/

/-- x * (1 / c) = x / c for every nonzero divisor, the infinities included. -/
theorem mul_one_div (x c : EReal) (hc : c ≠ 0) : x * Ideal.div 1 c = Ideal.div x c := by
  rw [Ideal.div, Ideal.div, if_neg hc, if_neg hc, one_mul]

theorem max_one_ne_zero (x : EReal) : max x 1 ≠ 0 :=
  ne_of_gt (lt_of_lt_of_le zero_lt_one (le_max_right x 1))

theorem isR_max_one {x : EReal} (hx : IsR x) : IsR (max x 1) := hx.max IsR_one

/-! ## Float literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## The two formulas for a variance

  For real numbers x₁ … xₙ with mean m = (∑ x) / n:  (∑ (x − m)²) / n = (∑ x²) / n − m².
  Expand the square: ∑ (x − m)² = ∑ x² − 2 m ∑ x + n m², and ∑ x = n m. -/

/-- The identity on the reals, with the sum of the entries named S. -/
theorem real_variance (n : ℕ) (P : Fin n → ℝ) (N S : ℝ) (hn : (n : ℝ) = N) (hN : N ≠ 0) (hS : ∑ q, P q = S) :
    (∑ p, (P p - S / N) * (P p - S / N)) / N = (∑ p, P p * P p) / N - S / N * (S / N) := by
  have h1 : ∀ p, (P p - S / N) * (P p - S / N) = P p * P p - 2 * (S / N) * P p + S / N * (S / N) :=
    fun p => by ring
  simp only [h1]
  rw [Finset.sum_add_distrib, Finset.sum_sub_distrib, ← Finset.mul_sum, hS, Finset.sum_const, Finset.card_univ,
    Fintype.card_fin, nsmul_eq_mul, hn]
  field_simp
  ring

/-- The identity on the extended reals, for entries that are images of reals: the mean of the squared deviations
    from the mean is the mean of the squares minus the square of the mean. -/
theorem variance_coe (n : ℕ) (P : Fin n → ℝ) (N : ℝ) (hn : (n : ℝ) = N) (hN : N ≠ 0) :
    Ideal.div (∑ p, (((P p : ℝ) : EReal) - Ideal.div (∑ q, ((P q : ℝ) : EReal)) (N : EReal))
        * (((P p : ℝ) : EReal) - Ideal.div (∑ q, ((P q : ℝ) : EReal)) (N : EReal))) (N : EReal)
      = Ideal.div (∑ p, ((P p : ℝ) : EReal) * ((P p : ℝ) : EReal)) (N : EReal)
        - Ideal.div (∑ q, ((P q : ℝ) : EReal)) (N : EReal) * Ideal.div (∑ q, ((P q : ℝ) : EReal)) (N : EReal) := by
  have hμ : Ideal.div (∑ q, ((P q : ℝ) : EReal)) (N : EReal) = (((∑ q, P q) / N : ℝ) : EReal) := by
    rw [coe_finset_sum, div_coe_coe _ _ hN]
  rw [hμ]
  have hL : ∀ p, (((P p : ℝ) : EReal) - (((∑ q, P q) / N : ℝ) : EReal)) * (((P p : ℝ) : EReal) - (((∑ q, P q) / N : ℝ) : EReal))
      = (((P p - (∑ q, P q) / N) * (P p - (∑ q, P q) / N) : ℝ) : EReal) := fun p => by
    rw [← EReal.coe_sub, ← EReal.coe_mul]
  have hR : ∀ p, ((P p : ℝ) : EReal) * ((P p : ℝ) : EReal) = ((P p * P p : ℝ) : EReal) := fun p =>
    (EReal.coe_mul _ _).symm
  simp only [hL, hR]
  rw [coe_finset_sum, coe_finset_sum, div_coe_coe _ _ hN, div_coe_coe _ _ hN, ← EReal.coe_mul, ← EReal.coe_sub]
  exact congrArg _ (real_variance n P N _ hn hN rfl)

/-- The same for any family of extended reals every entry of which is a real number. -/
theorem variance_isR (n : ℕ) (X : Fin n → EReal) (hX : ∀ p, IsR (X p)) (N : ℝ) (hn : (n : ℝ) = N) (hN : N ≠ 0) :
    Ideal.div (∑ p, (X p - Ideal.div (∑ q, X q) (N : EReal)) * (X p - Ideal.div (∑ q, X q) (N : EReal))) (N : EReal)
      = Ideal.div (∑ p, X p * X p) (N : EReal)
        - Ideal.div (∑ q, X q) (N : EReal) * Ideal.div (∑ q, X q) (N : EReal) := by
  choose P hP using hX
  obtain rfl : X = fun p => ((P p : ℝ) : EReal) := funext hP
  exact variance_coe n P N hn hN

/-- The same with the divisor any extended real known to be the real N (a float literal, say). -/
theorem variance_isR_of_eq (n : ℕ) (X : Fin n → EReal) (hX : ∀ p, IsR (X p)) (c : EReal) (N : ℝ) (hc : c = (N : EReal))
    (hn : (n : ℝ) = N) (hN : N ≠ 0) :
    Ideal.div (∑ p, (X p - Ideal.div (∑ q, X q) c) * (X p - Ideal.div (∑ q, X q) c)) c
      = Ideal.div (∑ p, X p * X p) c - Ideal.div (∑ q, X q) c * Ideal.div (∑ q, X q) c := by
  subst hc; exact variance_isR n X hX N hn hN

/-! ## The reciprocal square root of a variance plus a positive real -/

/-- At a positive real the reciprocal square root is the real (√r)⁻¹. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- A mean of squares of reals over a positive N, plus a positive e, is a positive real; its reciprocal square
    root is a real. -/
theorem rsqrt_sq_mean_real (n : ℕ) (Y : Fin n → EReal) (hY : ∀ p, IsR (Y p)) (N : ℝ) (hN : 0 < N) (e : ℝ) (he : 0 < e) :
    IsR (Ideal.rsqrt (Ideal.div (∑ p, Y p * Y p) (N : EReal) + (e : EReal))) := by
  choose Q hQ using hY
  have hsum : ∑ p, Y p * Y p = ((∑ p, Q p * Q p : ℝ) : EReal) := by
    rw [← coe_finset_sum]
    exact Finset.sum_congr rfl fun p _ => by rw [hQ p, ← EReal.coe_mul]
  have hpos : 0 < (∑ p, Q p * Q p) / N + e :=
    add_pos_of_nonneg_of_pos (div_nonneg (Finset.sum_nonneg fun p _ => mul_self_nonneg _) hN.le) he
  rw [hsum, div_coe_coe _ _ hN.ne', ← EReal.coe_add, rsqrt_pos _ hpos]
  exact ⟨_, rfl⟩

/-- The reciprocal square root of (the mean squared deviation from the mean, plus a positive real) is a real. -/
theorem rsqrt_real (n : ℕ) (X : Fin n → EReal) (hX : ∀ p, IsR (X p)) (N : ℝ) (hN : 0 < N) (e : ℝ) (he : 0 < e) :
    IsR (Ideal.rsqrt (Ideal.div (∑ p, (X p - Ideal.div (∑ q, X q) (N : EReal)) * (X p - Ideal.div (∑ q, X q) (N : EReal)))
      (N : EReal) + (e : EReal))) :=
  rsqrt_sq_mean_real n _ (fun p => (hX p).sub ((IsR.sum X hX).div_real _ (IsR.coe N) (by exact_mod_cast hN.ne'))) N hN e he

end Cert.LibMoments

end
-- ==== Proof.LibExpLog.lean ====
/-
  GENERAL lemmas on the exponential, the logarithm and the logistic function of the extended reals, with the exact
  ("ideal") float operations. Nothing here mentions a program.

  * log_exp: log (exp x) = x for EVERY extended real x — exp sends -inf to 0 and log sends 0 back to -inf, +inf is fixed
    by both, and on a real number it is the real identity. (The other composition, exp (log x) = x, fails below 0.)
  * add_sub_cancel_isR: (a + b) - b = a when a and b are real numbers (with an infinite b the difference is a junk value).
  * logistic_spelled: 1 / (1 + exp (-x)), the 1 written as its f32 word and the quotient the extended reals' quotient, is
    the logistic function at every x, the infinities included.
  It imports LibMoments.lean of the same directory (the predicate "is a real number" and the f32 word of 1), so copy the two
  together.
-/
import Idealize.ShloMosaic.PureOps.Ideal
import proofs.«178192_j4879082848306_2_alg».proof.Proof.LibMoments

noncomputable section

namespace Cert.LibExpLog

open Idealize.ShloMosaic Cert.LibMoments

/-- The logarithm undoes the exponential on all of the extended reals. -/
theorem log_exp (x : EReal) : Ideal.log (Ideal.exp x) = x := by
  induction x using EReal.rec with
  | bot => rw [Ideal.exp_bot, ← EReal.coe_zero, Ideal.log_coe, if_pos le_rfl]
  | coe r => rw [Ideal.exp_coe, Ideal.log_coe, if_neg (not_le.mpr (Real.exp_pos r)), Real.log_exp]
  | top => rw [Ideal.exp_top, Ideal.log_top]

/-- Adding and then subtracting a real number leaves a real number as it was. -/
theorem add_sub_cancel_isR {a b : EReal} (ha : IsR a) (hb : IsR b) : a + b - b = a := by
  obtain ⟨x, rfl⟩ := ha
  obtain ⟨y, rfl⟩ := hb
  rw [← EReal.coe_add, ← EReal.coe_sub, add_sub_cancel_right]

/-- 1 / (1 + exp (-x)), written with the float word of 1, is the logistic function. -/
theorem logistic_spelled (x : EReal) :
    Ideal.div (Ideal.ofBits .f32 0x3F800000#32) (Ideal.ofBits .f32 0x3F800000#32 + Ideal.exp (-x)) = Ideal.logistic x := by
  rw [ofBits_one]; rfl

end Cert.LibExpLog

end
-- ==== Proof.RefLayers.lean ====
/-
  The layers of a dense network as a host program writes them, read row by row on the extended reals.

  A host program computes a dense layer on a whole array of R rows at once: a matrix product (dot_general) with the weight
  matrix, a bias vector broadcast along the rows, the sigmoid-weighted linear unit spelt out as x * (1 / (1 + exp (-x)))
  with the constant 1 broadcast from a scalar.  Each lemma below says that such a whole-array expression is the array whose
  row p is the corresponding row function of Spec.lean (lin, aff, act, res) applied to row p of the operand.  Nothing here
  mentions a program; the number of rows and all extents are arbitrary.
-/
import Idealize.ShloMosaic.PureOps.Ideal
import Idealize.ShloMosaic.PureOps.Ideal.Laws
import Idealize.ShloMosaic.Lib.ValueIdx
import Idealize.ShloMosaic.Lib.Pipeline.Value
import proofs.«178192_j4879082848306_2_alg».proof.Proof.Spec
import proofs.«178192_j4879082848306_2_alg».proof.Proof.LibPlainDot
import proofs.«178192_j4879082848306_2_alg».proof.Proof.LibBiasRows
import proofs.«178192_j4879082848306_2_alg».proof.Proof.LibExpLog

noncomputable section

namespace Cert.Sphere.Layers

open Idealize.ShloMosaic Idealize.ShloMosaic.ValueIdx Cert.Sphere
open scoped BigOperators

/-! ## Arrays given row by row -/

/-- The array of R rows whose row p is f p. -/
def ofRows {R C : ℕ} (f : Fin R → Fin C → EReal) : (⟨2, ![R, C]⟩ : Shape).Idx → EReal := fun i => f (i 0) (i 1)

/-- Row p of the array with rows f is f p. -/
theorem row_ofRows {R C : ℕ} (f : Fin R → Fin C → EReal) (p : Fin R) : row (ofRows f) p = f p := rfl

/-- Every array is the array of its rows. -/
theorem ofRows_row {R C : ℕ} (a : (⟨2, ![R, C]⟩ : Shape).Idx → EReal) : ofRows (row a) = a :=
  funext fun i => congrArg a (eq_ix2 i).symm

/-- Entrywise sum of two arrays given by rows. -/
theorem addf_rows {R C : ℕ} {a b : FVec Ideal ⟨2, ![R, C]⟩ .f32} {f g : Fin R → Fin C → EReal}
    (ha : a = ofRows f) (hb : b = ofRows g) : addf a b = ofRows fun p q => f p q + g p q := by
  subst ha; subst hb; rfl

/-- Entrywise product of two arrays given by rows. -/
theorem mulf_rows {R C : ℕ} {a b : FVec Ideal ⟨2, ![R, C]⟩ .f32} {f g : Fin R → Fin C → EReal}
    (ha : a = ofRows f) (hb : b = ofRows g) : mulf a b = ofRows fun p q => f p q * g p q := by
  subst ha; subst hb; rfl

/-! ## The activation, spelt out -/

/-- x * (1 / (1 + exp (-x))) on a whole array, the constant 1 a scalar broadcast to the array's shape. -/
def siluH {S : Shape} (hb : (⟨0, ![]⟩ : Shape).BroadcastsInDim S (![] : Fin 0 → Fin S.rank)) (v : FVec Ideal S .f32) :
    FVec Ideal S .f32 :=
  mulf v (Host.divf (broadcastInDim S ![] hb (constant (F := Ideal) ⟨0, ![]⟩ .f32 0x3F800000#32))
    (addf (broadcastInDim S ![] hb (constant (F := Ideal) ⟨0, ![]⟩ .f32 0x3F800000#32)) (Host.exp (Host.negf v))))

/-- The spelt-out activation is silu at every entry. -/
theorem siluH_apply {S : Shape} (hb : (⟨0, ![]⟩ : Shape).BroadcastsInDim S (![] : Fin 0 → Fin S.rank))
    (v : FVec Ideal S .f32) (i : S.Idx) : siluH hb v i = silu (v i) := by
  have hone : broadcastInDim S ![] hb (constant (F := Ideal) ⟨0, ![]⟩ .f32 0x3F800000#32) i
      = Ideal.ofBits .f32 0x3F800000#32 :=
    broadcastInDim_apply _ hb _ i ix0 (fun a => a.elim0)
  show v i * Ideal.div (broadcastInDim S ![] hb (constant (F := Ideal) ⟨0, ![]⟩ .f32 0x3F800000#32) i)
      (broadcastInDim S ![] hb (constant (F := Ideal) ⟨0, ![]⟩ .f32 0x3F800000#32) i + Ideal.exp (-(v i))) = silu (v i)
  rw [hone, Cert.LibExpLog.logistic_spelled]
  rfl

/-- The spelt-out activation of an array given by rows: the activation of each row. -/
theorem siluH_rows {R C : ℕ} (hb : (⟨0, ![]⟩ : Shape).BroadcastsInDim ⟨2, ![R, C]⟩ (![] : Fin 0 → Fin 2))
    {v : FVec Ideal ⟨2, ![R, C]⟩ .f32} {f : Fin R → Fin C → EReal} (hv : v = ofRows f) :
    siluH hb v = ofRows fun p => act (f p) := by
  subst hv
  funext i
  exact siluH_apply hb _ i

/-! ## Dense layers -/

/-- A matrix product of a whole array with a weight matrix: row p of the result is row p times the matrix. -/
theorem dot_rows {R K N : ℕ} (l : FVec Ideal ⟨2, ![R, K]⟩ .f32) (r : FVec Ideal ⟨2, ![K, N]⟩ .f32) :
    Host.dotGeneral (DotDims.plain R K N) none l r = ofRows fun p => lin (row l p) (mat r) := by
  funext i
  obtain ⟨p, q, rfl⟩ : ∃ p q, i = ix2 p q := ⟨i 0, i 1, eq_ix2 i⟩
  exact Cert.LibPlainDot.hostdot_plain l r p q

/-- The matrix product of an array given by rows. -/
theorem dot_of {R K N : ℕ} {l : FVec Ideal ⟨2, ![R, K]⟩ .f32} {f : Fin R → Fin K → EReal} (hl : l = ofRows f)
    (r : FVec Ideal ⟨2, ![K, N]⟩ .f32) :
    Host.dotGeneral (DotDims.plain R K N) none l r = ofRows fun p => lin (f p) (mat r) := by
  subst hl
  exact dot_rows _ r

/-- A bias vector broadcast to one row and then along R rows: every row is the vector. -/
theorem bias_rows {R n : ℕ} (hn : n ≠ 1) (b : FVec Ideal ⟨1, ![n]⟩ .f32)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) :
    broadcastInDim ⟨2, ![R, n]⟩ ![0, 1] h2 (broadcastInDim ⟨2, ![1, n]⟩ ![1] h1 b) = ofRows fun _ : Fin R => vec b := by
  funext i
  obtain ⟨p, q, rfl⟩ : ∃ p q, i = ix2 p q := ⟨i 0, i 1, eq_ix2 i⟩
  exact Cert.LibBiasRows.bias_host hn b h1 h2 p q

/-- An affine layer on a whole array: the matrix product plus the broadcast bias. -/
def affH {R K N : ℕ} (l : FVec Ideal ⟨2, ![R, K]⟩ .f32) (W : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) : FVec Ideal ⟨2, ![R, N]⟩ .f32 :=
  addf (Host.dotGeneral (DotDims.plain R K N) none l W) (broadcastInDim ⟨2, ![R, N]⟩ ![0, 1] h2 (broadcastInDim ⟨2, ![1, N]⟩ ![1] h1 b))

/-- The affine layer of an array given by rows. -/
theorem affH_rows {R K N : ℕ} (hn : N ≠ 1) {l : FVec Ideal ⟨2, ![R, K]⟩ .f32} {f : Fin R → Fin K → EReal} (hl : l = ofRows f)
    (W : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) :
    affH l W b h1 h2 = ofRows fun p => aff (f p) (mat W) (vec b) :=
  addf_rows (dot_of hl W) (bias_rows hn b h1 h2)

/-- A residual layer on a whole array: e + silu(silu(e·W₁ + b₁)·W₂ + b₂). -/
def resH {R N : ℕ} (hb : (⟨0, ![]⟩ : Shape).BroadcastsInDim ⟨2, ![R, N]⟩ (![] : Fin 0 → Fin 2))
    (e : FVec Ideal ⟨2, ![R, N]⟩ .f32) (W1 : FVec Ideal ⟨2, ![N, N]⟩ .f32) (b1 : FVec Ideal ⟨1, ![N]⟩ .f32)
    (W2 : FVec Ideal ⟨2, ![N, N]⟩ .f32) (b2 : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) : FVec Ideal ⟨2, ![R, N]⟩ .f32 :=
  addf e (siluH hb (affH (siluH hb (affH e W1 b1 h1 h2)) W2 b2 h1 h2))

/-- The residual layer of an array given by rows. -/
theorem resH_rows {R N : ℕ} (hn : N ≠ 1) (hb : (⟨0, ![]⟩ : Shape).BroadcastsInDim ⟨2, ![R, N]⟩ (![] : Fin 0 → Fin 2))
    {e : FVec Ideal ⟨2, ![R, N]⟩ .f32} {f : Fin R → Fin N → EReal} (he : e = ofRows f)
    (W1 : FVec Ideal ⟨2, ![N, N]⟩ .f32) (b1 : FVec Ideal ⟨1, ![N]⟩ .f32)
    (W2 : FVec Ideal ⟨2, ![N, N]⟩ .f32) (b2 : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) :
    resH hb e W1 b1 W2 b2 h1 h2 = ofRows fun p => res (f p) (mat W1) (vec b1) (mat W2) (vec b2) :=
  addf_rows he (siluH_rows hb (affH_rows hn (siluH_rows hb (affH_rows hn he W1 b1 h1 h2)) W2 b2 h1 h2))

/-! ## Weights stored in stacks -/

/-- A [1, K, N] stack reshaped to [K, N] is its slot 0. -/
theorem mat_dropUnit {K N : ℕ} (W : (⟨3, ![1, K, N]⟩ : Shape).Idx → EReal)
    (h : (⟨3, ![1, K, N]⟩ : Shape).ShapeCasts ⟨2, ![K, N]⟩) : mat (shapeCast ⟨2, ![K, N]⟩ W h) = mat3 W 0 := by
  funext k q
  refine (shapeCast_dropUnit_apply ![K, N] W h (ix2 k q)).trans (congrArg W (funext fun a => ?_))
  match a with
  | ⟨0, _⟩ => rfl
  | ⟨1, _⟩ => rfl
  | ⟨2, _⟩ => rfl

/-- A [1, N] array reshaped to [N] is its row 0. -/
theorem vec_dropUnit {N : ℕ} (b : (⟨2, ![1, N]⟩ : Shape).Idx → EReal)
    (h : (⟨2, ![1, N]⟩ : Shape).ShapeCasts ⟨1, ![N]⟩) : vec (shapeCast ⟨1, ![N]⟩ b h) = row b 0 := by
  funext q
  refine (shapeCast_dropUnit_apply ![N] b h (ix1 q)).trans (congrArg b (funext fun a => ?_))
  match a with
  | ⟨0, _⟩ => rfl
  | ⟨1, _⟩ => rfl

/-- The one-slot slice at slot s of a stack of A matrices is slot s. -/
theorem mat3_slice {A K N : ℕ} (s : Fin A) (W : (⟨3, ![A, K, N]⟩ : Shape).Idx → EReal)
    (h : (⟨3, ![A, K, N]⟩ : Shape).Slices ![s.val, 0, 0] ⟨3, ![1, K, N]⟩) :
    mat3 (extractStridedSlice ⟨3, ![1, K, N]⟩ ![s.val, 0, 0] W h) 0 = mat3 W s := by
  funext k q
  refine extractStridedSlice_apply ![s.val, 0, 0] W h (ix3 0 k q) (ix3 s k q) fun a => ?_
  match a with
  | ⟨0, _⟩ => show s.val = s.val + 0; omega
  | ⟨1, _⟩ => show k.val = 0 + k.val; omega
  | ⟨2, _⟩ => show q.val = 0 + q.val; omega

/-- The one-row slice at row s of an array of A rows is row s. -/
theorem row_slice {A N : ℕ} (s : Fin A) (b : (⟨2, ![A, N]⟩ : Shape).Idx → EReal)
    (h : (⟨2, ![A, N]⟩ : Shape).Slices ![s.val, 0] ⟨2, ![1, N]⟩) :
    row (extractStridedSlice ⟨2, ![1, N]⟩ ![s.val, 0] b h) 0 = row b s := by
  funext q
  refine extractStridedSlice_apply ![s.val, 0] b h (ix2 0 q) (ix2 s q) fun a => ?_
  match a with
  | ⟨0, _⟩ => show s.val = s.val + 0; omega
  | ⟨1, _⟩ => show q.val = 0 + q.val; omega

end Cert.Sphere.Layers

end
-- ==== Proof.RefRows.lean ====
/-
  The reference program's dense stages, read row by row on the extended reals.

  RefStages.lean writes the reference's stages as compositions of host operations on whole arrays: a dense layer is a
  matrix product plus a bias laid along the rows followed by the spelt-out activation, a residual layer is
  e + dense(dense(e)), the weights of the last layers are slots of stacks.  Here each of these is shown to be the array
  whose row p is the corresponding row function of Spec.lean (aff, act, res, lin) applied to row p of its input, and the
  four theorems at the end say that the reference's edge stage, triplet stage and two outputs are Spec.lean's XKJ, BP, E1
  and E2 — the update stage as a function of whatever aggregate it is given.
-/
import proofs.«178192_j4879082848306_2_alg».proof.Proof.RefStages
import proofs.«178192_j4879082848306_2_alg».proof.Proof.Spec
import proofs.«178192_j4879082848306_2_alg».proof.Proof.LibPlainDot
import proofs.«178192_j4879082848306_2_alg».proof.Proof.LibBiasRows
import proofs.«178192_j4879082848306_2_alg».proof.Proof.LibExpLog
import proofs.«178192_j4879082848306_2_alg».proof.Proof.RefLayers

noncomputable section

namespace Cert.Sphere.Ref

open Cert.ReferenceIdeal Cert.ReferenceIdeal.Gen Cert.Sphere Cert.Sphere.RefStages Cert.Sphere.Layers
open Idealize.ShloMosaic Idealize.ShloMosaic.ValueIdx
open scoped BigOperators

/-! ## Layers of the reference, row by row -/

/-- The activation of a [100000,128] array given by rows. -/
theorem hsilu128_rows {v : FVec Ideal S100000x128 .f32} {f : Fin 100000 → Fin 128 → EReal} (hv : v = ofRows f) :
    hsilu128 (F := Ideal) v = ofRows fun p => act (f p) :=
  siluH_rows _ hv

/-- The activation of a [100000,64] array given by rows. -/
theorem hsilu64_rows {v : FVec Ideal S100000x64 .f32} {f : Fin 100000 → Fin 64 → EReal} (hv : v = ofRows f) :
    hsilu64 (F := Ideal) v = ofRows fun p => act (f p) :=
  siluH_rows _ hv

/-- A dense layer with activation: row p of the result is silu(row p · W + b). -/
theorem hdense_rows {x : FVec Ideal S100000x128 .f32} {f : Fin 100000 → Fin 128 → EReal} (hx : x = ofRows f)
    (W : FVec Ideal S128x128 .f32) (b : FVec Ideal S128 .f32) :
    hdense (F := Ideal) x W b = ofRows fun p => act (aff (f p) (mat W) (vec b)) :=
  siluH_rows _ (affH_rows (by decide) hx W b _ _)

/-- A residual layer: row p of the result is the residual layer of row p. -/
theorem hres_rows {e : FVec Ideal S100000x128 .f32} {f : Fin 100000 → Fin 128 → EReal} (he : e = ofRows f)
    (W1 : FVec Ideal S128x128 .f32) (b1 : FVec Ideal S128 .f32) (W2 : FVec Ideal S128x128 .f32) (b2 : FVec Ideal S128 .f32) :
    hres (F := Ideal) e W1 b1 W2 b2 = ofRows fun p => res (f p) (mat W1) (vec b1) (mat W2) (vec b2) :=
  addf_rows he (hdense_rows (hdense_rows he W1 b1) W2 b2)

/-! ## Weights stored in stacks -/

/-- A one-matrix stack reshaped to a matrix is its slot 0. -/
theorem mat_cast (x : FVec Ideal S1x128x128 .f32) :
    mat (shapeCast S128x128 x shapeCasts_S1x128x128_S128x128) = mat3 x 0 :=
  mat_dropUnit x _

/-- A one-row array reshaped to a vector is its row 0. -/
theorem vec_cast (x : FVec Ideal S1x128 .f32) : vec (shapeCast S128 x shapeCasts_S1x128_S128) = row x 0 :=
  vec_dropUnit x _

/-- Slot 0 of a stack of two matrices. -/
theorem mat_slotW0 (x : FVec Ideal S2x128x128 .f32) : mat (slotW0 (F := Ideal) x) = mat3 x 0 :=
  (mat_dropUnit _ _).trans (mat3_slice (0 : Fin 2) x _)

/-- Slot 1 of a stack of two matrices. -/
theorem mat_slotW1 (x : FVec Ideal S2x128x128 .f32) : mat (slotW1 (F := Ideal) x) = mat3 x 1 :=
  (mat_dropUnit _ _).trans (mat3_slice (1 : Fin 2) x _)

/-- Row 0 of a stack of two bias vectors. -/
theorem vec_slotB0 (x : FVec Ideal S2x128 .f32) : vec (slotB0 (F := Ideal) x) = row x 0 :=
  (vec_dropUnit _ _).trans (row_slice (0 : Fin 2) x _)

/-- Row 1 of a stack of two bias vectors. -/
theorem vec_slotB1 (x : FVec Ideal S2x128 .f32) : vec (slotB1 (F := Ideal) x) = row x 1 :=
  (vec_dropUnit _ _).trans (row_slice (1 : Fin 2) x _)

/-- A residual layer whose weights are one-slot stacks. -/
theorem hres_cast {e : FVec Ideal S100000x128 .f32} {f : Fin 100000 → Fin 128 → EReal} (he : e = ofRows f)
    (x19 : FVec Ideal S1x128x128 .f32) (x20 : FVec Ideal S1x128 .f32) (x21 : FVec Ideal S1x128x128 .f32) (x22 : FVec Ideal S1x128 .f32) :
    hres (F := Ideal) e (shapeCast S128x128 x19 shapeCasts_S1x128x128_S128x128) (shapeCast S128 x20 shapeCasts_S1x128_S128)
        (shapeCast S128x128 x21 shapeCasts_S1x128x128_S128x128) (shapeCast S128 x22 shapeCasts_S1x128_S128)
      = ofRows fun p => res (f p) (mat3 x19 0) (row x20 0) (mat3 x21 0) (row x22 0) := by
  rw [hres_rows he, mat_cast x19, vec_cast x20, mat_cast x21, vec_cast x22]

/-- A residual layer whose weights are slot 0 of two-slot stacks. -/
theorem hres_slot0 {e : FVec Ideal S100000x128 .f32} {f : Fin 100000 → Fin 128 → EReal} (he : e = ofRows f)
    (x25 : FVec Ideal S2x128x128 .f32) (x26 : FVec Ideal S2x128 .f32) (x27 : FVec Ideal S2x128x128 .f32) (x28 : FVec Ideal S2x128 .f32) :
    hres (F := Ideal) e (slotW0 x25) (slotB0 x26) (slotW0 x27) (slotB0 x28)
      = ofRows fun p => res (f p) (mat3 x25 0) (row x26 0) (mat3 x27 0) (row x28 0) := by
  rw [hres_rows he, mat_slotW0 x25, vec_slotB0 x26, mat_slotW0 x27, vec_slotB0 x28]

/-- A residual layer whose weights are slot 1 of two-slot stacks. -/
theorem hres_slot1 {e : FVec Ideal S100000x128 .f32} {f : Fin 100000 → Fin 128 → EReal} (he : e = ofRows f)
    (x25 : FVec Ideal S2x128x128 .f32) (x26 : FVec Ideal S2x128 .f32) (x27 : FVec Ideal S2x128x128 .f32) (x28 : FVec Ideal S2x128 .f32) :
    hres (F := Ideal) e (slotW1 x25) (slotB1 x26) (slotW1 x27) (slotB1 x28)
      = ofRows fun p => res (f p) (mat3 x25 1) (row x26 1) (mat3 x27 1) (row x28 1) := by
  rw [hres_rows he, mat_slotW1 x25, vec_slotB1 x26, mat_slotW1 x27, vec_slotB1 x28]

/-! ## The four stages -/

/-- The edge stage of the reference is the edge stage of Spec.lean on the 100000 edges. -/
theorem xkj_eq (x0 : FVec Ideal S100000x128 .f32) (x1 : FVec Ideal S100000x6 .f32) (x6 : FVec Ideal S6x8 .f32) (x7 : FVec Ideal S8x128 .f32) (x13 : FVec Ideal S128x128 .f32) (x14 : FVec Ideal S128 .f32) (x17 : FVec Ideal S128x64 .f32) :
    refXkj (F := Ideal) x0 x1 x6 x7 x13 x14 x17 = XKJ (R := 100000) x0 x1 x13 x14 x6 x7 x17 :=
  hsilu64_rows (dot_of (mulf_rows (hdense_rows (ofRows_row x0).symm x13 x14) (dot_of (dot_rows x1 x6) x7)) x17)

/-- The triplet stage of the reference is the triplet stage of Spec.lean on the 500000 triplets. -/
theorem bp_eq (x2 : FVec Ideal S500000x42 .f32) (x3 : FVec Ideal S500000x294 .f32) (x8 : FVec Ideal S42x8 .f32) (x9 : FVec Ideal S8x64 .f32) (x10 : FVec Ideal S294x8 .f32) (x11 : FVec Ideal S8x64 .f32) :
    mulf (refSbf (F := Ideal) x2 x8 x9) (refT (F := Ideal) x3 x10 x11) = BP (R := 500000) x2 x3 x8 x9 x10 x11 :=
  mulf_rows (dot_of (dot_rows x2 x8) x9) (dot_of (dot_rows x3 x10) x11)

/-- The update stage of the reference, from any aggregate, is the update stage of Spec.lean on the 100000 edges. -/
theorem e1_eq (agg : FVec Ideal S100000x64 .f32) (x0 : FVec Ideal S100000x128 .f32) (x15 : FVec Ideal S128x128 .f32) (x16 : FVec Ideal S128 .f32) (x18 : FVec Ideal S64x128 .f32) (x19 : FVec Ideal S1x128x128 .f32) (x20 : FVec Ideal S1x128 .f32) (x21 : FVec Ideal S1x128x128 .f32) (x22 : FVec Ideal S1x128 .f32) (x23 : FVec Ideal S128x128 .f32) (x24 : FVec Ideal S128 .f32) (x25 : FVec Ideal S2x128x128 .f32) (x26 : FVec Ideal S2x128 .f32) (x27 : FVec Ideal S2x128x128 .f32) (x28 : FVec Ideal S2x128 .f32) :
    refE1 (F := Ideal) agg x0 x15 x16 x18 x19 x20 x21 x22 x23 x24 x25 x26 x27 x28 = E1 (R := 100000) agg x0 x15 x16 x18 x19 x20 x21 x22 x23 x24 x25 x26 x27 x28 := by
  have h33 := addf_rows (hdense_rows (ofRows_row x0).symm x15 x16) (hsilu128_rows (dot_rows agg x18))
  have h48 := hres_cast h33 x19 x20 x21 x22
  have h54 := addf_rows (hdense_rows h48 x23 x24) (ofRows_row x0).symm
  have h73 := hres_slot0 h54 x25 x26 x27 x28
  exact hres_slot1 h73 x25 x26 x27 x28

/-- The second output of the reference is the second output of Spec.lean. -/
theorem e2_eq (agg : FVec Ideal S100000x64 .f32) (x0 : FVec Ideal S100000x128 .f32) (x15 : FVec Ideal S128x128 .f32) (x16 : FVec Ideal S128 .f32) (x18 : FVec Ideal S64x128 .f32) (x19 : FVec Ideal S1x128x128 .f32) (x20 : FVec Ideal S1x128 .f32) (x21 : FVec Ideal S1x128x128 .f32) (x22 : FVec Ideal S1x128 .f32) (x23 : FVec Ideal S128x128 .f32) (x24 : FVec Ideal S128 .f32) (x25 : FVec Ideal S2x128x128 .f32) (x26 : FVec Ideal S2x128 .f32) (x27 : FVec Ideal S2x128x128 .f32) (x28 : FVec Ideal S2x128 .f32) (x1 : FVec Ideal S100000x6 .f32) (x12 : FVec Ideal S6x128 .f32) :
    refE2 (F := Ideal) (refE1 (F := Ideal) agg x0 x15 x16 x18 x19 x20 x21 x22 x23 x24 x25 x26 x27 x28) x1 x12
      = E2 (R := 100000) agg x0 x1 x15 x16 x18 x19 x20 x21 x22 x23 x24 x25 x26 x27 x28 x12 :=
  mulf_rows (dot_rows x1 x12) (e1_eq agg x0 x15 x16 x18 x19 x20 x21 x22 x23 x24 x25 x26 x27 x28)

end Cert.Sphere.Ref

end
-- ==== Proof.lean ====
/-
  Kernel against reference for one interaction block of a directional message-passing network, on the extended reals.

  Both programs compute, from edge features x1 [100000,128], radial features rbf0 [100000,6], two per-triplet basis
  arrays and two index lists:
    x_kj  = silu((silu(x1·W_kj + b_kj) ⊙ (rbf0·W_rbf1·W_rbf2))·W_down)                      (the edge stage),
    bp    = (sbf·W_sbf1·W_sbf2) ⊙ (t·W_t1·W_t2)                                            (the triplet stage),
    agg   = scatter-add over idx_ji of x_kj[idx_kj] ⊙ bp                                   (the aggregate),
    e1    = three residual layers and one dense layer around silu(x1·W_ji + b_ji) + silu(agg·W_up),
    e2    = (rbf0·W_rbf) ⊙ e1,
  with silu x = x · logistic x.  The kernel runs the two dense stages and the update stage block of rows by block of
  rows (4000 or 5000 rows at a time) and the gather / scatter-add on the host between them; the reference runs
  everything on whole arrays.  Every dense stage acts on one row at a time, so a stage of a block of rows is that
  block of rows of the stage of the whole array (Spec, SpecRows, Blocks0–2); the kernel's block bodies (KerRows) and
  the reference's host operations (RefStages, RefRows) are the same row functions; the spelt-out
  x · (1 / (1 + exp(−x))) of the reference is the kernel's logistic on every extended real; and the one difference in
  arrangement, (x_kj[idx] ⊙ s) ⊙ t against x_kj[idx] ⊙ (s ⊙ t), is associativity of the product, which holds on all
  of the extended reals.  No step needs the inputs to be finite.
-/
import proofs.«178192_j4879082848306_2_alg».proof.Defs
import proofs.«178192_j4879082848306_2_alg».proof.Proof.Gen.Kernel
import proofs.«178192_j4879082848306_2_alg».proof.Proof.Gen.Kernel.Frame
import proofs.«178192_j4879082848306_2_alg».proof.Proof.Gen.KernelIdeal
import proofs.«178192_j4879082848306_2_alg».proof.Proof.Gen.KernelIdeal.Frame
import proofs.«178192_j4879082848306_2_alg».proof.Proof.Gen.ReferenceIdeal
import proofs.«178192_j4879082848306_2_alg».proof.Proof.Gen.Pre_finite_inputs
import proofs.«178192_j4879082848306_2_alg».proof.Proof.RunValue
import proofs.«178192_j4879082848306_2_alg».proof.Proof.KerRows
import proofs.«178192_j4879082848306_2_alg».proof.Proof.Middle
import proofs.«178192_j4879082848306_2_alg».proof.Proof.RefRun
import proofs.«178192_j4879082848306_2_alg».proof.Proof.RefRows
import Idealize.ShloMosaic.Adequacy
import Idealize.ShloMosaic.Init

noncomputable section

namespace Cert.Proof

open Idealize.ShloMosaic Idealize.ShloMosaic.TcCoe Idealize.SL.Sem
open Cert.Sphere Cert.Sphere.RefStages

/-- The reference's aggregate is the kernel's: the edge stage gathered, times the triplet stage, scatter-added —
    the reference multiplies the gathered rows by the two triplet factors one after the other, the kernel by their
    product, and the product of extended reals is associative. -/
theorem agg_eq (x0 : FVec Ideal Cert.ReferenceIdeal.S100000x128 .f32) (x1 : FVec Ideal Cert.ReferenceIdeal.S100000x6 .f32)
    (x2 : FVec Ideal Cert.ReferenceIdeal.S500000x42 .f32) (x3 : FVec Ideal Cert.ReferenceIdeal.S500000x294 .f32)
    (x4 x5 : IVec Cert.ReferenceIdeal.S500000 32) (x6 : FVec Ideal Cert.ReferenceIdeal.S6x8 .f32)
    (x7 : FVec Ideal Cert.ReferenceIdeal.S8x128 .f32) (x8 : FVec Ideal Cert.ReferenceIdeal.S42x8 .f32)
    (x9 : FVec Ideal Cert.ReferenceIdeal.S8x64 .f32) (x10 : FVec Ideal Cert.ReferenceIdeal.S294x8 .f32)
    (x11 : FVec Ideal Cert.ReferenceIdeal.S8x64 .f32) (x13 : FVec Ideal Cert.ReferenceIdeal.S128x128 .f32)
    (x14 : FVec Ideal Cert.ReferenceIdeal.S128 .f32) (x17 : FVec Ideal Cert.ReferenceIdeal.S128x64 .f32) :
    refAgg (F := Ideal) x0 x1 x2 x3 x4 x5 x6 x7 x8 x9 x10 x11 x13 x14 x17
      = aggOf (F := Ideal) (XKJ (R := 100000) x0 x1 x13 x14 x6 x7 x17)
          (fun g => mulf g (BP (R := 500000) x2 x3 x8 x9 x10 x11)) x4 x5 := by
  unfold refAgg
  rw [Cert.Sphere.Ref.xkj_eq, ← Cert.Sphere.Ref.bp_eq]
  refine congrArg (fun f => aggOf (F := Ideal) (XKJ (R := 100000) x0 x1 x13 x14 x6 x7 x17) f x4 x5) ?_
  funext g i
  show g i * refSbf (F := Ideal) x2 x8 x9 i * refT (F := Ideal) x3 x10 x11 i
    = g i * (refSbf (F := Ideal) x2 x8 x9 i * refT (F := Ideal) x3 x10 x11 i)
  exact mul_assoc _ _ _

theorem frame_k : Cert.frame_Kernel := fun m ρ _ => Cert.Kernel.Gen.frame m ρ

theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => (h c).2.2) (Cert.Sphere.RefRun.run (F := Ideal) m ρ)

/-- The idealization rewrote no operation. -/
theorem preserves : Cert.preserves_Kernel_KernelIdeal := trivial

set_option maxHeartbeats 16000000 in
/-- Both runs end with the two results at the same functions of the (agreeing) arguments. -/
theorem algebraic : Cert.algebraic_KernelIdeal_ReferenceIdeal := by
  intro m ρ m' ρ' _ hagree
  refine ⟨fun c => Cert.Sphere.Middle.res0 m c, fun c => Cert.Sphere.Middle.res1 m c, ?_, ?_⟩
  · exact (θ_run Cert.KernelIdeal.defs _ _).mono (fun r h c =>
      ⟨(h c).1.trans (Cert.Sphere.Middle.e1_at m ρ Cert.Sphere.Ker.out0_7_eq Cert.Sphere.Ker.out1_6_eq Cert.Sphere.Ker.out2_17_eq c),
       (h c).2.1.trans (Cert.Sphere.Middle.e2_at m ρ Cert.Sphere.Ker.out0_7_eq Cert.Sphere.Ker.out1_6_eq Cert.Sphere.Ker.out2_18_eq c),
       (h c).2.2⟩) (Cert.KernelIdeal.RunValue.run_results (F := Ideal) m ρ)
  · refine (θ_run Cert.ReferenceIdeal.defs _ _).mono (fun r h c => ⟨(h c).1.trans ?_, (h c).2.1.trans ?_, (h c).2.2⟩)
      (Cert.Sphere.RefRun.run (F := Ideal) m' ρ')
    · obtain ⟨a0, a1, a2, a3, a4, a5, a6, a7, a8, a9, a10, a11, a12, a13, a14, a15, a16, a17, a18, a19, a20, a21, a22, a23, a24, a25, a26, a27, a28⟩ := hagree c
      unfold Cert.Sphere.RefRun.out0 Cert.Sphere.Middle.res0
      rw [a0, a1, a2, a3, a4, a5, a6, a7, a8, a9, a10, a11, a13, a14, a15, a16, a17, a18, a19, a20, a21, a22, a23, a24, a25, a26, a27, a28, Cert.Sphere.Ref.e1_eq, agg_eq]
    · obtain ⟨a0, a1, a2, a3, a4, a5, a6, a7, a8, a9, a10, a11, a12, a13, a14, a15, a16, a17, a18, a19, a20, a21, a22, a23, a24, a25, a26, a27, a28⟩ := hagree c
      unfold Cert.Sphere.RefRun.out1 Cert.Sphere.RefRun.out0 Cert.Sphere.Middle.res1
      rw [a0, a1, a2, a3, a4, a5, a6, a7, a8, a9, a10, a11, a12, a13, a14, a15, a16, a17, a18, a19, a20, a21, a22, a23, a24, a25, a26, a27, a28, Cert.Sphere.Ref.e2_eq, agg_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
